-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S4x2048x768 .f32) (main_arg1 : FVec F S2304x768 .f32) (main_arg2 : FVec F S768x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S4x2048x768 : Shape := ⟨3, ![4, 2048, 768]⟩
abbrev S2304x768 : Shape := ⟨2, ![2304, 768]⟩
abbrev S768x768 : Shape := ⟨2, ![768, 768]⟩
abbrev S1x512x768 : Shape := ⟨3, ![1, 512, 768]⟩
abbrev S512x768 : Shape := ⟨2, ![512, 768]⟩
abbrev S512x2304 : Shape := ⟨2, ![512, 2304]⟩
abbrev S1x512x128 : Shape := ⟨3, ![1, 512, 128]⟩
abbrev S1x2048x128 : Shape := ⟨3, ![1, 2048, 128]⟩
abbrev S128x768 : Shape := ⟨2, ![128, 768]⟩
abbrev S512x128 : Shape := ⟨2, ![512, 128]⟩
abbrev S2048x128 : Shape := ⟨2, ![2048, 128]⟩
abbrev S64x768 : Shape := ⟨2, ![64, 768]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 20
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S2304x768, .bf16⟩
  | .hbm, ⟨4, _⟩ => ⟨S768x768, .f32⟩
  | .hbm, ⟨5, _⟩ => ⟨S768x768, .bf16⟩
  | .hbm, ⟨6, _⟩ => ⟨S4x2048x768, .bf16⟩
  | .hbm, ⟨7, _⟩ => ⟨S4x2048x768, .bf16⟩
  | .hbm, ⟨8, _⟩ => ⟨S4x2048x768, .bf16⟩
  | .hbm, ⟨9, _⟩ => ⟨S4x2048x768, .f32⟩
  | .local _ .vmem, ⟨0, _⟩ => ⟨S1x512x768, .f32⟩
  | .local _ .vmem, ⟨1, _⟩ => ⟨S1x512x768, .f32⟩
  | .local _ .vmem, ⟨2, _⟩ => ⟨S2304x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x128, .bf16⟩
  | .local _ .vmem, ⟨10, _⟩ => ⟨S1x512x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S128x768, .bf16⟩
  | .local _ .vmem, ⟨16, _⟩ => ⟨S128x768, .bf16⟩
  | .local _ .vmem, ⟨17, _⟩ => ⟨S1x512x768, .f32⟩
  | .local _ .vmem, ⟨18, _⟩ => ⟨S1x512x768, .f32⟩
  | .local _ .vmem, ⟨19, _⟩ => ⟨S512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 6], ![false, false, false]⟩

def k1_cond2 (i : grid1.Coords) : BitVec 1 :=
  let arg2 : BitVec 32 := BitVec.ofNat 32 (i 2).val
  let c5_i32 : BitVec 32 := 5#32
  let v61 : BitVec 1 := Scalar.cmpi .eq arg2 c5_i32
  let v62 : BitVec 32 := Scalar.extui v61
  let c0_i32_30 : BitVec 32 := 0#32
  let v63 : BitVec 1 := Scalar.cmpi .ne v62 c0_i32_30
  v63

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S128x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1x512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  transposes_S768x768_S768x768_1_0 : S768x768.Transposes [1, 0] S768x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  slices_S512x2304_o0_0_S512x768 : S512x2304.Slices ![0, 0] S512x768
  shapeCasts_S512x768_S1x512x768 : S512x768.ShapeCasts S1x512x768
  packedbf16_S1x512x768_S1x512x768_0_0_0 : (Rect.unit (s := S1x512x768) ![0, 0, 0] S1x512x768.size inb_S1x512x768_S1x512x768_0_0_0).PackedRows (EltTy.packing .bf16)
  slices_S512x2304_o0_768_S512x768 : S512x2304.Slices ![0, 768] S512x768
  slices_S512x2304_o0_1536_S512x768 : S512x2304.Slices ![0, 1536] S512x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  slices_S128x768_o0_0_S64x768 : S128x768.Slices ![0, 0] S64x768
  slices_S128x768_o64_0_S64x768 : S128x768.Slices ![64, 0] S64x768
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  dot_S512x768_S2304x768_S512x2304_1_1_0_0_n_n_wf : DotDims.WF S512x768 S2304x768 S512x2304 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x768_S512x768_1_0_0_1_n_n_wf : DotDims.WF S512x64 S64x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x2048x768.size a
  hwx0_0 : ∀ i : grid0.Coords, EltTy.bits .f32 = 32 ∨ (Rect.block (s := S4x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S4x2048x768.size a
  hwx0_2 : ∀ i : grid0.Coords, EltTy.bits .bf16 = 32 ∨ (Rect.block (s := S4x2048x768) S1x512x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x768.size a ≤ S4x2048x768.size a
  hwx0_3 : ∀ i : grid0.Coords, EltTy.bits .bf16 = 32 ∨ (Rect.block (s := S4x2048x768) S1x512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S4x2048x768.size a
  hwx0_4 : ∀ i : grid0.Coords, EltTy.bits .bf16 = 32 ∨ (Rect.block (s := S4x2048x768) S1x512x768.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x768.size a
  hwx1_0 : ∀ i : grid1.Coords, EltTy.bits .bf16 = 32 ∨ (Rect.block (s := S4x2048x768) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x768.size a
  hwx1_1 : ∀ i : grid1.Coords, EltTy.bits .bf16 = 32 ∨ (Rect.block (s := S4x2048x768) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x768.size a
  hwx1_2 : ∀ i : grid1.Coords, EltTy.bits .bf16 = 32 ∨ (Rect.block (s := S4x2048x768) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x768.size a ≤ S768x768.size a
  hwx1_3 : ∀ i : grid1.Coords, EltTy.bits .bf16 = 32 ∨ (Rect.block (s := S768x768) S128x768.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x768.size a ≤ S4x2048x768.size a
  hwx1_4 : ∀ i : grid1.Coords, EltTy.bits .f32 = 32 ∨ (Rect.block (s := S4x2048x768) S1x512x768.size (cc1_transform_4 i) (hinb1_4 i)).WholeWords (EltTy.packing .f32)

variable [Facts₀]

def dot_S512x768_S2304x768_S512x2304_1_1_0_0_n_n : DotDims S512x768 S2304x768 S512x2304 where
  lhsContracting := [1]
  rhsContracting := [1]
  lhsNonContracting := [0]
  rhsNonContracting := [0]
  lhsBatch := []
  rhsBatch := []
  wf := dot_S512x768_S2304x768_S512x2304_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x768_S512x768_1_0_0_1_n_n : DotDims S512x64 S64x768 S512x768 where
  lhsContracting := [1]
  rhsContracting := [0]
  lhsNonContracting := [0]
  rhsNonContracting := [1]
  lhsBatch := []
  rhsBatch := []
  wf := dot_S512x64_S64x768_S512x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x512x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x512x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S4x2048x2304 : Shape := ⟨3, ![4, 2048, 2304]⟩
abbrev S4x2048x12x64 : Shape := ⟨4, ![4, 2048, 12, 64]⟩
abbrev S4x12x2048x64 : Shape := ⟨4, ![4, 12, 2048, 64]⟩
abbrev S_ : Shape := ⟨0, ![]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S4x2048x2304, .f32⟩
  | .hbm, ⟨4, _⟩ => ⟨S4x2048x768, .f32⟩
  | .hbm, ⟨5, _⟩ => ⟨S4x2048x768, .f32⟩
  | .hbm, ⟨6, _⟩ => ⟨S4x2048x768, .f32⟩
  | .hbm, ⟨7, _⟩ => ⟨S4x2048x12x64, .f32⟩
  | .hbm, ⟨8, _⟩ => ⟨S4x12x2048x64, .f32⟩
  | .hbm, ⟨9, _⟩ => ⟨S4x2048x12x64, .f32⟩
  | .hbm, ⟨10, _⟩ => ⟨S4x12x2048x64, .f32⟩
  | .hbm, ⟨11, _⟩ => ⟨S4x2048x12x64, .f32⟩
  | .hbm, ⟨12, _⟩ => ⟨S4x12x2048x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x12x2048x2048, .f32⟩
  | .hbm, ⟨18, _⟩ => ⟨S4x12x2048x2048, .f32⟩
  | .hbm, ⟨19, _⟩ => ⟨S4x12x2048x2048, .f32⟩
  | .hbm, ⟨20, _⟩ => ⟨S_, .f32⟩
  | .hbm, ⟨21, _⟩ => ⟨S4x12x2048, .f32⟩
  | .hbm, ⟨22, _⟩ => ⟨S_, .f32⟩
  | .hbm, ⟨23, _⟩ => ⟨S4x12x2048, .f32⟩
  | .hbm, ⟨24, _⟩ => ⟨S4x12x2048, .f32⟩
  | .hbm, ⟨25, _⟩ => ⟨S4x12x2048x1, .f32⟩
  | .hbm, ⟨26, _⟩ => ⟨S4x12x2048x2048, .f32⟩
  | .hbm, ⟨27, _⟩ => ⟨S4x12x2048x2048, .f32⟩
  | .hbm, ⟨28, _⟩ => ⟨S4x12x2048x2048, .f32⟩
  | .hbm, ⟨29, _⟩ => ⟨S_, .f32⟩
  | .hbm, ⟨30, _⟩ => ⟨S4x12x2048, .f32⟩
  | .hbm, ⟨31, _⟩ => ⟨S4x12x2048x1, .f32⟩
  | .hbm, ⟨32, _⟩ => ⟨S4x12x2048x2048, .f32⟩
  | .hbm, ⟨33, _⟩ => ⟨S4x12x2048x2048, .f32⟩
  | .hbm, ⟨34, _⟩ => ⟨S4x12x2048x64, .f32⟩
  | .hbm, ⟨35, _⟩ => ⟨S4x2048x12x64, .f32⟩
  | .hbm, ⟨36, _⟩ => ⟨S4x2048x768, .f32⟩
  | .hbm, ⟨37, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.ProjRegionK.lean ====
/-
  The projection region (the first launch): at every grid point (b, si) the body reads the 512-row block of the
  activations and the whole projection weight, forms their product (512 x 2304) and stores its three column ranges
  into the query, key and value blocks. Stated at a PARAMETER `V`, the buffer contents when the region is entered:
  what each output block holds after the body as a function of the two input blocks, the body's triple, the proof
  data of the pipeline and its body obligation.
-/
import proofs.«110615_j10857677324557_2_alg».proof.Proof.Gen.Kernel.Launch
import proofs.«110615_j10857677324557_2_alg».proof.Proof.Gen.Kernel.Skeleton
import proofs.«110615_j10857677324557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point, though it is fetched at the first only. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole activation block and the whole weight, as rectangles. -/
abbrev rX0 : Rect S1x512x768 := Rect.unit (s := S1x512x768) ![0, 0, 0] S1x512x768.size inb_S1x512x768_S1x512x768_0_0_0
abbrev rW0 : Rect S2304x768 := Rect.unit (s := S2304x768) ![0, 0] S2304x768.size inb_S2304x768_S2304x768_0_0

/-- The query block after the body: columns 0..767 of the product. -/
def out0_2 (x0 : Vec F S1x512x768 .f32) (x1 : Vec F S2304x768 .bf16) : Vec F S1x512x768 .bf16 :=
  View.canon [⟨rX0, k0_pay2 (View.ld x0 rX0) (View.ld x1 rW0)⟩]
/-- The key block after the body: columns 768..1535 of the product. -/
def out0_3 (x0 : Vec F S1x512x768 .f32) (x1 : Vec F S2304x768 .bf16) : Vec F S1x512x768 .bf16 :=
  View.canon [⟨rX0, k0_pay3 (View.ld x0 rX0) (View.ld x1 rW0)⟩]
/-- The value block after the body: columns 1536..2303 of the product. -/
def out0_4 (x0 : Vec F S1x512x768 .f32) (x1 : Vec F S2304x768 .bf16) : Vec F S1x512x768 .bf16 :=
  View.canon [⟨rX0, k0_pay4 (View.ld x0 rX0) (View.ld x1 rW0)⟩]

/-- One whole-block store covers the block. -/
theorem cover0 (p0 : Vec F S1x512x768 .bf16) (y : S1x512x768.Idx) :
    ∃ pc ∈ ([⟨rX0, p0⟩] : List (View.Piece (Elt F) S1x512x768 .bf16)), y ∈ pc.1.set :=
  View.cover_of_tiled [⟨rX0, p0⟩] S1x512x768.size (by rfl) y

set_option maxHeartbeats 1000000 in
/-- The body on whole staging buffers: the inputs kept, each output at its column range of the product. -/
theorem sound_kernel0 (c : Dev nD) (E : Set ℕ) (i : grid0.Coords)
    (arg2 : Memref sig .tc .vmem S1x512x768 .f32) (harg2 : arg2.IsWhole) (arg3 : Memref sig .tc .vmem S2304x768 .bf16) (harg3 : arg3.IsWhole)
    (arg4 : Memref sig .tc .vmem S1x512x768 .bf16) (harg4 : arg4.IsWhole) (arg5 : Memref sig .tc .vmem S1x512x768 .bf16) (harg5 : arg5.IsWhole)
    (arg6 : Memref sig .tc .vmem S1x512x768 .bf16) (harg6 : arg6.IsWhole)
    (x0 : Vec F S1x512x768 .f32) (x1 : Vec F S2304x768 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the projection pipeline: arrays as found; inputs kept; outputs at the product's ranges. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Run

end
-- ==== Proof.AttnBaseK.lean ====
/-
  The attention region (the second launch), what its three cases share. The grid is (b, si, hp): batch, 512-row
  query tile, head pair. At a point the body reads the query tile's two heads (512 x 128), the batch's keys and
  values for those heads (2048 x 128 each) and 128 rows of the transposed output weight; it adds the two heads'
  contributions to a 512 x 768 accumulator kept in a scratch buffer across the six head pairs of a tile: the
  accumulator is reset at hp = 0 and copied to the output block at hp = 5. Here: each window's block at a point,
  the two branch conditions decided over the grid, where the output window is idle, and the class invariant with
  the scratch buffer made explicit.
-/
import proofs.«110615_j10857677324557_2_alg».proof.Proof.Gen.Kernel.Launch
import proofs.«110615_j10857677324557_2_alg».proof.Proof.Gen.Kernel.Skeleton
import proofs.«110615_j10857677324557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- The reset branch is taken: the head-pair coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)
/-- The write-out branch is taken: the head-pair coordinate is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-- The inputs are never idle; the output is idle and not written back exactly where the write-out branch is not taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- Each window's current staging buffer at a point, as the pipeline passes it, and the scratch accumulator. -/
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x768 .f32 := win1_4.stage (cfg1.slots t 4)
abbrev hs1_4 (t : Fin cfg1.N) : (ms1_4 t).IsWhole := hstage1_4 ((cfg1.slots t 4).cast nbuf1_4)
abbrev scM1_0 : Memref sig .tc .vmem S512x768 .f32 := Memref.whole cc1_scratch0
/-- Views through which the output block's and the accumulator's contents are stated. -/
abbrev VO1_4 : View sig .tc .vmem S1x512x768 .f32 := (Memref.whole cc1_stg4_0 : Memref sig .tc .vmem S1x512x768 .f32).view
abbrev VS1_0 : View sig .tc .vmem S512x768 .f32 := scM1_0.view

/-- The scoped buffers of the other launch at anything, the accumulator as `S` says, the generator register at
    some state: the class invariant is this at "the accumulator at anything". -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S) ∗ (∃ r, prngReg c r))

theorem PhiA1_eq (c : Dev nD) :
    (Pipeline.ΦA spec1 c : sProp 𝕄) = PhiWith c iprop(∃ d, owns (c : Thread nD τ) scM1_0 fullShare d) := by
  unfold Pipeline.ΦA PhiWith; rw [scopedRest1_eq]; simp only [scM1_0, owns_whole]; try rfl

end Cert.Kernel.Run

end
-- ==== Proof.AttnRunsK.lean ====
/-
  The attention body run once per case of its two branches, on whole staging buffers: A (head pair 0: the
  accumulator is reset, then the two heads' contributions are added), B (head pairs 1 to 4: the contributions are
  added to what the point before left), C (head pair 5: as B, and the accumulator is copied to the output block).
  In each case the inputs are kept, an idle output block is handed back untouched, and the accumulator (and in C the
  output block) ends with the pieces the body stored, found by the run.
-/
import proofs.«110615_j10857677324557_2_alg».proof.Proof.AttnBaseK

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : cond1_0 i) (hc1 : ¬cond1_1 i)
    (x0 : Vec F S1x512x128 .bf16) (x1 : Vec F S1x2048x128 .bf16) (x2 : Vec F S1x2048x128 .bf16) (x3 : Vec F S128x768 .bf16) :
    Σ' (L4 : List (View.Piece (Elt F) S1x512x768 .f32)), { LS0 : List (View.Piece (Elt F) S512x768 .f32) //
      ∀ (xi4 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨[], ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : ¬cond1_1 i)
    (x0 : Vec F S1x512x128 .bf16) (x1 : Vec F S1x2048x128 .bf16) (x2 : Vec F S1x2048x128 .bf16) (x3 : Vec F S128x768 .bf16) (xs0 : Vec F S512x768 .f32) :
    Σ' (L4 : List (View.Piece (Elt F) S1x512x768 .f32)), { LS0 : List (View.Piece (Elt F) S512x768 .f32) //
      ∀ (xi4 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨[], ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i)
    (x0 : Vec F S1x512x128 .bf16) (x1 : Vec F S1x2048x128 .bf16) (x2 : Vec F S1x2048x128 .bf16) (x3 : Vec F S128x768 .bf16) (xs0 : Vec F S512x768 .f32) :
    Σ' (L4 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Run

end
-- ==== Proof.AttnRegionK.lean ====
/-
  The attention region's proof data. What the accumulator holds after each grid point is defined by recursion on
  the point: at head pair 0 the reset accumulator plus the point's two contributions, afterwards what the point
  before left plus the point's two contributions; the output block is written at head pair 5 only, with the
  accumulator's contents. The region's invariant carries the accumulator at exactly these contents from one point
  to the next, which is what lets the last head pair's output be named. Then the body obligation, case by case.
-/
import proofs.«110615_j10857677324557_2_alg».proof.Proof.AttnRunsK

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The accumulator's pieces cover it, in each case; the output's in the case that writes it. -/
theorem scover1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : cond1_0 i) (hc1 : ¬cond1_1 i) (x0 : Vec F S1x512x128 .bf16) (x1 : Vec F S1x2048x128 .bf16) (x2 : Vec F S1x2048x128 .bf16) (x3 : Vec F S128x768 .bf16) (y : S512x768.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S512x768.size (by sl_kernel_rfl) y
theorem scover1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : ¬cond1_1 i) (x0 : Vec F S1x512x128 .bf16) (x1 : Vec F S1x2048x128 .bf16) (x2 : Vec F S1x2048x128 .bf16) (x3 : Vec F S128x768 .bf16) (xs0 : Vec F S512x768 .f32) (y : S512x768.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S512x768.size (by sl_kernel_rfl) y
theorem scover1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) (y : S512x768.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S512x768.size (by sl_kernel_rfl) y
theorem cover1_C_4 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) (y : S1x512x768.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x512x768.size (by sl_kernel_rfl) y

/-- What each case leaves in the accumulator, and case C in the output block: the pieces read back. -/
def sout1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : cond1_0 i) (hc1 : ¬cond1_1 i) (x0 : Vec F S1x512x128 .bf16) (x1 : Vec F S1x2048x128 .bf16) (x2 : Vec F S1x2048x128 .bf16) (x3 : Vec F S128x768 .bf16) : Vec F S512x768 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)
def sout1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : ¬cond1_1 i) (x0 : Vec F S1x512x128 .bf16) (x1 : Vec F S1x2048x128 .bf16) (x2 : Vec F S1x2048x128 .bf16) (x3 : Vec F S128x768 .bf16) (xs0 : Vec F S512x768 .f32) : Vec F S512x768 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)
def sout1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) : Vec F S512x768 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)
def out1_C_4 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) : Vec F S1x512x768 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
/-- At the points that store nothing into the output block its `after` is never consulted: a placeholder. -/
def idleOut1 : Vec F S1x512x768 .f32 := VO1_4.read (Elt F) (VO1_4.writes (Elt F) VO1_4.junk [])

theorem notc1_of_0 (t : Fin cfg1.N) (h0 : t.val % 6 = 0) : ¬cond1_1 (grid1.coords t) := fun h => by
  have h' := (hcond1_1 t).mp h; omega
theorem notc0_of_ne (t : Fin cfg1.N) (h0 : ¬t.val % 6 = 0) : ¬cond1_0 (grid1.coords t) := fun h => h0 ((hcond1_0 t).mp h)
theorem notc1_of_ne (t : Fin cfg1.N) (h1 : ¬t.val % 6 = 5) : ¬cond1_1 (grid1.coords t) := fun h => h1 ((hcond1_1 t).mp h)

section
variable (V : (c : Dev nD) → (b : Ref sig .tc) → Buf (Elt F) ((c : Thread nD τ).loc b))

/-- The cases at a grid point, on the point's staging buffers and blocks. -/
def soutA_at (c : Dev nD) (t : Fin cfg1.N) (h0 : t.val % 6 = 0) : Vec F S512x768 .f32 :=
  sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (notc1_of_0 t h0) (iblk1 V c 0 t) (iblk1 V c 1 t) (iblk1 V c 2 t) (iblk1 V c 3 t)
def soutB_at (c : Dev nD) (t : Fin cfg1.N) (h0 : ¬t.val % 6 = 0) (h1 : ¬t.val % 6 = 5) (xs0 : Vec F S512x768 .f32) : Vec F S512x768 .f32 :=
  sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (notc0_of_ne t h0) (notc1_of_ne t h1) (iblk1 V c 0 t) (iblk1 V c 1 t) (iblk1 V c 2 t) (iblk1 V c 3 t) xs0
def soutC_at (c : Dev nD) (t : Fin cfg1.N) (h0 : ¬t.val % 6 = 0) (h1 : t.val % 6 = 5) (xs0 : Vec F S512x768 .f32) : Vec F S512x768 .f32 :=
  sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (notc0_of_ne t h0) ((hcond1_1 t).mpr h1) (iblk1 V c 0 t) (iblk1 V c 1 t) (iblk1 V c 2 t) (iblk1 V c 3 t) xs0
def outC_at (c : Dev nD) (t : Fin cfg1.N) (h0 : ¬t.val % 6 = 0) (h1 : t.val % 6 = 5) (xs0 : Vec F S512x768 .f32) : Vec F S1x512x768 .f32 :=
  out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (notc0_of_ne t h0) ((hcond1_1 t).mpr h1) (iblk1 V c 0 t) (iblk1 V c 1 t) (iblk1 V c 2 t) (iblk1 V c 3 t) xs0

/-- THE ACCUMULATION: the output block and the accumulator after the body at position `n`. -/
def outsAt1 (c : Dev nD) : (n : ℕ) → n < cfg1.N → Vec F S1x512x768 .f32 × Vec F S512x768 .f32
  | 0, hn => (idleOut1, soutA_at V c ⟨0, hn⟩ (Nat.zero_mod _))
  | n + 1, hn =>
    if h0 : (n + 1) % 6 = 0 then (idleOut1, soutA_at V c ⟨n + 1, hn⟩ h0)
    else if h1 : (n + 1) % 6 = 5 then
      (outC_at V c ⟨n + 1, hn⟩ h0 h1 (outsAt1 c n (Nat.lt_of_succ_lt hn)).2, soutC_at V c ⟨n + 1, hn⟩ h0 h1 (outsAt1 c n (Nat.lt_of_succ_lt hn)).2)
    else (idleOut1, soutB_at V c ⟨n + 1, hn⟩ h0 h1 (outsAt1 c n (Nat.lt_of_succ_lt hn)).2)

theorem outsAt1_A (c : Dev nD) (t : Fin cfg1.N) (h0 : t.val % 6 = 0) :
    outsAt1 V c t.val t.isLt = (idleOut1, soutA_at V c t h0) := by
  obtain ⟨n, hn⟩ := t
  cases n with
  | zero => exact rfl
  | succ n => exact (dif_pos h0).trans rfl
theorem outsAt1_B (c : Dev nD) (t : Fin cfg1.N) (h0 : ¬t.val % 6 = 0) (h1 : ¬t.val % 6 = 5) :
    outsAt1 V c t.val t.isLt = (idleOut1, soutB_at V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 6 = 0) (h1 : t.val % 6 = 5) :
    outsAt1 V c t.val t.isLt = (outC_at V c t h0 h1 (outsAt1 V c (t.val - 1) (Nat.lt_of_le_of_lt (Nat.sub_le _ _) t.isLt)).2, soutC_at V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the class's before the first point; afterwards the accumulator at
    what the point before left. -/
def PhiS (c : Dev nD) : (n : ℕ) → n ≤ cfg1.N → sProp 𝕄
  | 0, _ => Pipeline.ΦA spec1 c
  | n + 1, hn => PhiWith c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1_0 fullShare ((outsAt1 V c n hn).2)) := rfl
theorem PhiS_pos (c : Dev nD) (n : ℕ) (h : n ≤ cfg1.N) (hz : n ≠ 0) :
    PhiS V c n h = PhiWith c (owns (c : Thread nD τ) scM1_0 fullShare ((outsAt1 V c (n - 1) (by omega)).2)) := by
  cases n with
  | zero => exact absurd rfl hz
  | succ n => rfl

/-- The proof data of the attention pipeline. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 96 := lt_of_lt_of_eq t.isLt (show cfg1.N = 96 from N_1)
  by_cases h0 : t.val % 6 = 0
  · have h1 : ¬t.val % 6 = 5 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t (notc1_of_ne t h1)) (noFlush1_4 t (notc1_of_ne t h1))]
    rw [outsAt1_A V c t h0]
    unfold soutA_at sout1_A; (try dsimp only)
    by_cases hz : t.val = 0
    · rw [PhiS_castSucc V c t, PhiS_zero V c _ _ hz, PhiA1_eq]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notc1_of_0 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notc1_of_0 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 6 = 5
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC_at soutC_at out1_C_4 sout1_C; (try dsimp only)
      rw [PhiS_castSucc V c t, PhiS_pos V c _ _ hz]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (notc0_of_ne t h0) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (notc1_of_ne t h1)) (noFlush1_4 t (notc1_of_ne t h1))]
      rw [outsAt1_B V c t h0 h1]
      unfold soutB_at sout1_B; (try dsimp only)
      rw [PhiS_castSucc V c t, PhiS_pos V c _ _ hz]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (notc0_of_ne t h0) (notc1_of_ne t h1) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point; -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- after the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 96 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold PhiWith
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

end

end Cert.Kernel.Run

end
-- ==== Proof.WholeRunK.lean ====
/-
  THE RUN of the whole program: @main is a stretch of three host operations (the two weights cast, the output
  weight transposed), the projection region and the attention region. The buffer contents at each boundary are a
  fold from the launch memory: after the host stretch; after the projection region (its three output arrays at
  what its write-backs leave); after the attention region (the result array at what its write-backs leave). Every
  weakly fair execution terminates with every unscoped buffer at the last of these; in particular the three
  argument arrays end as launched.
-/
import proofs.«110615_j10857677324557_2_alg».proof.Proof.ProjRegionK
import proofs.«110615_j10857677324557_2_alg».proof.Proof.AttnRegionK

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region (the attention region's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention region (the end). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation allocates; the three write `main_v0`, `main_v1`, `main_v2` only. -/
theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset := by
  simp only [List.Forall]
  refine ⟨?_, ?_, ?_⟩ <;>
  · simp only [StableHlo.unary_writes, Finset.singleton_subset_iff, List.mem_toFinset]; exact List.mem_map_of_mem (by decide)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The arguments end as launched: no host operation and no region writes one. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer at the
    last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.Kernel.Run

end
-- ==== Proof.AttnBaseI.lean ====
/-
  The attention region (the second launch), what its three cases share. The grid is (b, si, hp): batch, 512-row
  query tile, head pair. At a point the body reads the query tile's two heads (512 x 128), the batch's keys and
  values for those heads (2048 x 128 each) and 128 rows of the transposed output weight; it adds the two heads'
  contributions to a 512 x 768 accumulator kept in a scratch buffer across the six head pairs of a tile: the
  accumulator is reset at hp = 0 and copied to the output block at hp = 5. Here: each window's block at a point,
  the two branch conditions decided over the grid, where the output window is idle, and the class invariant with
  the scratch buffer made explicit.
-/
import proofs.«110615_j10857677324557_2_alg».proof.Proof.Gen.KernelIdeal.Launch
import proofs.«110615_j10857677324557_2_alg».proof.Proof.Gen.KernelIdeal.Skeleton
import proofs.«110615_j10857677324557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- The reset branch is taken: the head-pair coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)
/-- The write-out branch is taken: the head-pair coordinate is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-- The inputs are never idle; the output is idle and not written back exactly where the write-out branch is not taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- Each window's current staging buffer at a point, as the pipeline passes it, and the scratch accumulator. -/
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x768 .f32 := win1_4.stage (cfg1.slots t 4)
abbrev hs1_4 (t : Fin cfg1.N) : (ms1_4 t).IsWhole := hstage1_4 ((cfg1.slots t 4).cast nbuf1_4)
abbrev scM1_0 : Memref sig .tc .vmem S512x768 .f32 := Memref.whole cc1_scratch0
/-- Views through which the output block's and the accumulator's contents are stated. -/
abbrev VO1_4 : View sig .tc .vmem S1x512x768 .f32 := (Memref.whole cc1_stg4_0 : Memref sig .tc .vmem S1x512x768 .f32).view
abbrev VS1_0 : View sig .tc .vmem S512x768 .f32 := scM1_0.view

/-- The scoped buffers of the other launch at anything, the accumulator as `S` says, the generator register at
    some state: the class invariant is this at "the accumulator at anything". -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S) ∗ (∃ r, prngReg c r))

theorem PhiA1_eq (c : Dev nD) :
    (Pipeline.ΦA spec1 c : sProp 𝕄) = PhiWith c iprop(∃ d, owns (c : Thread nD τ) scM1_0 fullShare d) := by
  unfold Pipeline.ΦA PhiWith; rw [scopedRest1_eq]; simp only [scM1_0, owns_whole]; try rfl

end Cert.KernelIdeal.Run

end
-- ==== Proof.AttnRunsI.lean ====
/-
  The attention body run once per case of its two branches, on whole staging buffers: A (head pair 0: the
  accumulator is reset, then the two heads' contributions are added), B (head pairs 1 to 4: the contributions are
  added to what the point before left), C (head pair 5: as B, and the accumulator is copied to the output block).
  In each case the inputs are kept, an idle output block is handed back untouched, and the accumulator (and in C the
  output block) ends with the pieces the body stored, found by the run.
-/
import proofs.«110615_j10857677324557_2_alg».proof.Proof.AttnBaseI

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : cond1_0 i) (hc1 : ¬cond1_1 i)
    (x0 : Vec F S1x512x128 .bf16) (x1 : Vec F S1x2048x128 .bf16) (x2 : Vec F S1x2048x128 .bf16) (x3 : Vec F S128x768 .bf16) :
    Σ' (L4 : List (View.Piece (Elt F) S1x512x768 .f32)), { LS0 : List (View.Piece (Elt F) S512x768 .f32) //
      ∀ (xi4 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨[], ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : ¬cond1_1 i)
    (x0 : Vec F S1x512x128 .bf16) (x1 : Vec F S1x2048x128 .bf16) (x2 : Vec F S1x2048x128 .bf16) (x3 : Vec F S128x768 .bf16) (xs0 : Vec F S512x768 .f32) :
    Σ' (L4 : List (View.Piece (Elt F) S1x512x768 .f32)), { LS0 : List (View.Piece (Elt F) S512x768 .f32) //
      ∀ (xi4 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨[], ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i)
    (x0 : Vec F S1x512x128 .bf16) (x1 : Vec F S1x2048x128 .bf16) (x2 : Vec F S1x2048x128 .bf16) (x3 : Vec F S128x768 .bf16) (xs0 : Vec F S512x768 .f32) :
    Σ' (L4 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Run

end
-- ==== Proof.AttnRegionI.lean ====
/-
  The attention region's proof data. What the accumulator holds after each grid point is defined by recursion on
  the point: at head pair 0 the reset accumulator plus the point's two contributions, afterwards what the point
  before left plus the point's two contributions; the output block is written at head pair 5 only, with the
  accumulator's contents. The region's invariant carries the accumulator at exactly these contents from one point
  to the next, which is what lets the last head pair's output be named. Then the body obligation, case by case.
-/
import proofs.«110615_j10857677324557_2_alg».proof.Proof.AttnRunsI

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The accumulator's pieces cover it, in each case; the output's in the case that writes it. -/
theorem scover1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : cond1_0 i) (hc1 : ¬cond1_1 i) (x0 : Vec F S1x512x128 .bf16) (x1 : Vec F S1x2048x128 .bf16) (x2 : Vec F S1x2048x128 .bf16) (x3 : Vec F S128x768 .bf16) (y : S512x768.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S512x768.size (by sl_kernel_rfl) y
theorem scover1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : ¬cond1_1 i) (x0 : Vec F S1x512x128 .bf16) (x1 : Vec F S1x2048x128 .bf16) (x2 : Vec F S1x2048x128 .bf16) (x3 : Vec F S128x768 .bf16) (xs0 : Vec F S512x768 .f32) (y : S512x768.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S512x768.size (by sl_kernel_rfl) y
theorem scover1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) (y : S512x768.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S512x768.size (by sl_kernel_rfl) y
theorem cover1_C_4 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) (y : S1x512x768.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x512x768.size (by sl_kernel_rfl) y

/-- What each case leaves in the accumulator, and case C in the output block: the pieces read back. -/
def sout1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : cond1_0 i) (hc1 : ¬cond1_1 i) (x0 : Vec F S1x512x128 .bf16) (x1 : Vec F S1x2048x128 .bf16) (x2 : Vec F S1x2048x128 .bf16) (x3 : Vec F S128x768 .bf16) : Vec F S512x768 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)
def sout1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : ¬cond1_1 i) (x0 : Vec F S1x512x128 .bf16) (x1 : Vec F S1x2048x128 .bf16) (x2 : Vec F S1x2048x128 .bf16) (x3 : Vec F S128x768 .bf16) (xs0 : Vec F S512x768 .f32) : Vec F S512x768 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)
def sout1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) : Vec F S512x768 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)
def out1_C_4 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) : Vec F S1x512x768 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
/-- At the points that store nothing into the output block its `after` is never consulted: a placeholder. -/
def idleOut1 : Vec F S1x512x768 .f32 := VO1_4.read (Elt F) (VO1_4.writes (Elt F) VO1_4.junk [])

theorem notc1_of_0 (t : Fin cfg1.N) (h0 : t.val % 6 = 0) : ¬cond1_1 (grid1.coords t) := fun h => by
  have h' := (hcond1_1 t).mp h; omega
theorem notc0_of_ne (t : Fin cfg1.N) (h0 : ¬t.val % 6 = 0) : ¬cond1_0 (grid1.coords t) := fun h => h0 ((hcond1_0 t).mp h)
theorem notc1_of_ne (t : Fin cfg1.N) (h1 : ¬t.val % 6 = 5) : ¬cond1_1 (grid1.coords t) := fun h => h1 ((hcond1_1 t).mp h)

section
variable (V : (c : Dev nD) → (b : Ref sig .tc) → Buf (Elt F) ((c : Thread nD τ).loc b))

/-- The cases at a grid point, on the point's staging buffers and blocks. -/
def soutA_at (c : Dev nD) (t : Fin cfg1.N) (h0 : t.val % 6 = 0) : Vec F S512x768 .f32 :=
  sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (notc1_of_0 t h0) (iblk1 V c 0 t) (iblk1 V c 1 t) (iblk1 V c 2 t) (iblk1 V c 3 t)
def soutB_at (c : Dev nD) (t : Fin cfg1.N) (h0 : ¬t.val % 6 = 0) (h1 : ¬t.val % 6 = 5) (xs0 : Vec F S512x768 .f32) : Vec F S512x768 .f32 :=
  sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (notc0_of_ne t h0) (notc1_of_ne t h1) (iblk1 V c 0 t) (iblk1 V c 1 t) (iblk1 V c 2 t) (iblk1 V c 3 t) xs0
def soutC_at (c : Dev nD) (t : Fin cfg1.N) (h0 : ¬t.val % 6 = 0) (h1 : t.val % 6 = 5) (xs0 : Vec F S512x768 .f32) : Vec F S512x768 .f32 :=
  sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (notc0_of_ne t h0) ((hcond1_1 t).mpr h1) (iblk1 V c 0 t) (iblk1 V c 1 t) (iblk1 V c 2 t) (iblk1 V c 3 t) xs0
def outC_at (c : Dev nD) (t : Fin cfg1.N) (h0 : ¬t.val % 6 = 0) (h1 : t.val % 6 = 5) (xs0 : Vec F S512x768 .f32) : Vec F S1x512x768 .f32 :=
  out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (notc0_of_ne t h0) ((hcond1_1 t).mpr h1) (iblk1 V c 0 t) (iblk1 V c 1 t) (iblk1 V c 2 t) (iblk1 V c 3 t) xs0

/-- THE ACCUMULATION: the output block and the accumulator after the body at position `n`. -/
def outsAt1 (c : Dev nD) : (n : ℕ) → n < cfg1.N → Vec F S1x512x768 .f32 × Vec F S512x768 .f32
  | 0, hn => (idleOut1, soutA_at V c ⟨0, hn⟩ (Nat.zero_mod _))
  | n + 1, hn =>
    if h0 : (n + 1) % 6 = 0 then (idleOut1, soutA_at V c ⟨n + 1, hn⟩ h0)
    else if h1 : (n + 1) % 6 = 5 then
      (outC_at V c ⟨n + 1, hn⟩ h0 h1 (outsAt1 c n (Nat.lt_of_succ_lt hn)).2, soutC_at V c ⟨n + 1, hn⟩ h0 h1 (outsAt1 c n (Nat.lt_of_succ_lt hn)).2)
    else (idleOut1, soutB_at V c ⟨n + 1, hn⟩ h0 h1 (outsAt1 c n (Nat.lt_of_succ_lt hn)).2)

theorem outsAt1_A (c : Dev nD) (t : Fin cfg1.N) (h0 : t.val % 6 = 0) :
    outsAt1 V c t.val t.isLt = (idleOut1, soutA_at V c t h0) := by
  obtain ⟨n, hn⟩ := t
  cases n with
  | zero => exact rfl
  | succ n => exact (dif_pos h0).trans rfl
theorem outsAt1_B (c : Dev nD) (t : Fin cfg1.N) (h0 : ¬t.val % 6 = 0) (h1 : ¬t.val % 6 = 5) :
    outsAt1 V c t.val t.isLt = (idleOut1, soutB_at V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 6 = 0) (h1 : t.val % 6 = 5) :
    outsAt1 V c t.val t.isLt = (outC_at V c t h0 h1 (outsAt1 V c (t.val - 1) (Nat.lt_of_le_of_lt (Nat.sub_le _ _) t.isLt)).2, soutC_at V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the class's before the first point; afterwards the accumulator at
    what the point before left. -/
def PhiS (c : Dev nD) : (n : ℕ) → n ≤ cfg1.N → sProp 𝕄
  | 0, _ => Pipeline.ΦA spec1 c
  | n + 1, hn => PhiWith c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1_0 fullShare ((outsAt1 V c n hn).2)) := rfl
theorem PhiS_pos (c : Dev nD) (n : ℕ) (h : n ≤ cfg1.N) (hz : n ≠ 0) :
    PhiS V c n h = PhiWith c (owns (c : Thread nD τ) scM1_0 fullShare ((outsAt1 V c (n - 1) (by omega)).2)) := by
  cases n with
  | zero => exact absurd rfl hz
  | succ n => rfl

/-- The proof data of the attention pipeline. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 96 := lt_of_lt_of_eq t.isLt (show cfg1.N = 96 from N_1)
  by_cases h0 : t.val % 6 = 0
  · have h1 : ¬t.val % 6 = 5 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t (notc1_of_ne t h1)) (noFlush1_4 t (notc1_of_ne t h1))]
    rw [outsAt1_A V c t h0]
    unfold soutA_at sout1_A; (try dsimp only)
    by_cases hz : t.val = 0
    · rw [PhiS_castSucc V c t, PhiS_zero V c _ _ hz, PhiA1_eq]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notc1_of_0 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notc1_of_0 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 6 = 5
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC_at soutC_at out1_C_4 sout1_C; (try dsimp only)
      rw [PhiS_castSucc V c t, PhiS_pos V c _ _ hz]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (notc0_of_ne t h0) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (notc1_of_ne t h1)) (noFlush1_4 t (notc1_of_ne t h1))]
      rw [outsAt1_B V c t h0 h1]
      unfold soutB_at sout1_B; (try dsimp only)
      rw [PhiS_castSucc V c t, PhiS_pos V c _ _ hz]; unfold PhiWith
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (notc0_of_ne t h0) (notc1_of_ne t h1) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point; -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- after the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 96 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold PhiWith
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

end

end Cert.KernelIdeal.Run

end
-- ==== Proof.AttnPiecesI.lean ====
/-
  What the attention body's stores amount to, case by case, over the body's own arithmetic: after a point the
  accumulator holds the second head's step applied to the first head's step applied to what it held before (the
  reset block at head pair 0); at head pair 5 the output block is the accumulator, reshaped.
-/
import proofs.«110615_j10857677324557_2_alg».proof.Proof.AttnRegionI
import Idealize.ShloMosaic.Lib.Pipeline.Value

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The two heads' steps from an accumulator `a`, on the point's four blocks. -/
def stepAcc (x0 : Vec F S1x512x128 .bf16) (x1 : Vec F S1x2048x128 .bf16) (x2 : Vec F S1x2048x128 .bf16) (x3 : Vec F S128x768 .bf16) (a : Vec F S512x768 .f32) : Vec F S512x768 .f32 :=
  k1_pay2 (k1_pay5 x0) (k1_pay6 x1) (k1_pay7 x2) (k1_pay9 x3) (k1_pay1 (k1_pay10 x0 x1 x2 x3 a))

theorem sout_B_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : ¬cond1_1 i) (x0 : Vec F S1x512x128 .bf16) (x1 : Vec F S1x2048x128 .bf16) (x2 : Vec F S1x2048x128 .bf16) (x3 : Vec F S128x768 .bf16) (xs0 : Vec F S512x768 .f32) :
    sout1_B c i arg3 harg3 arg4 harg4 arg5 harg5 arg6 harg6 arg7 harg7 arg8 harg8 hc0 hc1 x0 x1 x2 x3 xs0 = stepAcc x0 x1 x2 x3 xs0 := by
  unfold sout1_B stepAcc
  rw [View.read_writes_eq_canon _ _ _ (scover1_B c i arg3 harg3 arg4 harg4 arg5 harg5 arg6 harg6 arg7 harg7 arg8 harg8 hc0 hc1 x0 x1 x2 x3 xs0)]
  unfold kernelRun1_B
  dsimp only
  sl_unfold_words
  rw [View.canon_cons_unit_zero (S := S512x768) hz2]
  simp only [View.readCov_cons_toLoadRect, View.readAt_eq_ld, harg3.read_unread, harg4.read_unread, harg5.read_unread, harg6.read_unread, harg8.read_unread,
    View.ld_unit_zero (S := S1x512x128) hz3, View.ld_unit_zero (S := S1x2048x128) hz3, View.ld_unit_zero (S := S128x768) hz2, View.ld_unit_zero (S := S512x768) hz2]

theorem sout_C_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) :
    sout1_C c i arg3 harg3 arg4 harg4 arg5 harg5 arg6 harg6 arg7 harg7 arg8 harg8 hc0 hc1 x0 x1 x2 x3 xs0 = stepAcc x0 x1 x2 x3 xs0 := by
  unfold sout1_C stepAcc
  rw [View.read_writes_eq_canon _ _ _ (scover1_C c i arg3 harg3 arg4 harg4 arg5 harg5 arg6 harg6 arg7 harg7 arg8 harg8 hc0 hc1 x0 x1 x2 x3 xs0)]
  unfold kernelRun1_C
  dsimp only
  sl_unfold_words
  rw [View.canon_cons_unit_zero (S := S512x768) hz2]
  simp only [View.readCov_cons_toLoadRect, View.readAt_eq_ld, harg3.read_unread, harg4.read_unread, harg5.read_unread, harg6.read_unread, harg8.read_unread,
    View.ld_unit_zero (S := S1x512x128) hz3, View.ld_unit_zero (S := S1x2048x128) hz3, View.ld_unit_zero (S := S128x768) hz2, View.ld_unit_zero (S := S512x768) hz2]

theorem out_C_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : ¬cond1_0 i) (hc1 : cond1_1 i) (x0 : Vec F S1x512x128 .bf16) (x1 : Vec F S1x2048x128 .bf16) (x2 : Vec F S1x2048x128 .bf16) (x3 : Vec F S128x768 .bf16) (xs0 : Vec F S512x768 .f32) :
    out1_C_4 c i arg3 harg3 arg4 harg4 arg5 harg5 arg6 harg6 arg7 harg7 arg8 harg8 hc0 hc1 x0 x1 x2 x3 xs0 = k1_pay3 (stepAcc x0 x1 x2 x3 xs0) := by
  unfold out1_C_4 stepAcc
  rw [View.read_writes_junk_eq_canon]
  unfold kernelRun1_C
  dsimp only
  sl_unfold_words
  rw [View.canon_unit_zero (S := S1x512x768) hz3]
  simp only [View.readCov_cons_toLoadRect, View.readAt_eq_ld, harg3.read_unread, harg4.read_unread, harg5.read_unread, harg6.read_unread, harg8.read_unread,
    View.ld_unit_zero (S := S1x512x128) hz3, View.ld_unit_zero (S := S1x2048x128) hz3, View.ld_unit_zero (S := S128x768) hz2, View.ld_unit_zero (S := S512x768) hz2]

theorem sout_A_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x768 .bf16) (harg6 : arg6.IsWhole) (arg7 : Memref sig .tc .vmem S1x512x768 .f32) (harg7 : arg7.IsWhole) (arg8 : Memref sig .tc .vmem S512x768 .f32) (harg8 : arg8.IsWhole) (hc0 : cond1_0 i) (hc1 : ¬cond1_1 i) (x0 : Vec F S1x512x128 .bf16) (x1 : Vec F S1x2048x128 .bf16) (x2 : Vec F S1x2048x128 .bf16) (x3 : Vec F S128x768 .bf16) :
    sout1_A c i arg3 harg3 arg4 harg4 arg5 harg5 arg6 harg6 arg7 harg7 arg8 harg8 hc0 hc1 x0 x1 x2 x3 = stepAcc x0 x1 x2 x3 (k1_pay4 (F := F)) := by
  unfold sout1_A stepAcc
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S512x768) hz2]
  simp only [View.readCov_cons_toLoadRect, View.readAt_eq_ld, harg3.read_unread, harg4.read_unread, harg5.read_unread, harg6.read_unread, harg8.read_unread,
    View.ld_unit_zero (S := S1x512x128) hz3, View.ld_unit_zero (S := S1x2048x128) hz3, View.ld_unit_zero (S := S128x768) hz2, View.ld_unit_zero (S := S512x768) hz2]

end Cert.KernelIdeal.Run

end
-- ==== Proof.AttnAccI.lean ====
/-
  The accumulator after each grid point in closed form: the two heads' steps of the point, applied to the reset
  block at head pair 0 and otherwise to the accumulator the point before left. The recursion the region's proof
  data is stated by is this one (induction on the point), and the block written back at head pair 5 is the
  accumulator after that point, reshaped.
-/
import proofs.«110615_j10857677324557_2_alg».proof.Proof.AttnPiecesI

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The accumulator after the body at position `n`. -/
def accAt (c : Dev nD) : (n : ℕ) → n < cfg1.N → Vec F S512x768 .f32
  | 0, h => stepAcc (iblk1 V c 0 ⟨0, h⟩) (iblk1 V c 1 ⟨0, h⟩) (iblk1 V c 2 ⟨0, h⟩) (iblk1 V c 3 ⟨0, h⟩) (k1_pay4 (F := F))
  | n + 1, h =>
    stepAcc (iblk1 V c 0 ⟨n + 1, h⟩) (iblk1 V c 1 ⟨n + 1, h⟩) (iblk1 V c 2 ⟨n + 1, h⟩) (iblk1 V c 3 ⟨n + 1, h⟩)
      (if (n + 1) % 6 = 0 then k1_pay4 (F := F) else accAt c n (Nat.lt_of_succ_lt h))

theorem accAt_reset (c : Dev nD) (t : Fin cfg1.N) (h0 : t.val % 6 = 0) :
    accAt V c t.val t.isLt = stepAcc (iblk1 V c 0 t) (iblk1 V c 1 t) (iblk1 V c 2 t) (iblk1 V c 3 t) (k1_pay4 (F := F)) := by
  obtain ⟨n, hn⟩ := t
  cases n with
  | zero => rfl
  | succ n => show stepAcc _ _ _ _ (if (n + 1) % 6 = 0 then _ else _) = _; rw [if_pos h0]

theorem accAt_step (c : Dev nD) (t : Fin cfg1.N) (h0 : ¬t.val % 6 = 0) :
    accAt V c t.val t.isLt = stepAcc (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact absurd (Nat.zero_mod _) h0
  | succ n => show stepAcc _ _ _ _ (if (n + 1) % 6 = 0 then _ else _) = _; rw [if_neg h0]; rfl

/-- The proof data's recursion is the closed form. -/
theorem outsAt_snd_eq (c : Dev nD) : ∀ (n : ℕ) (h : n < cfg1.N), (outsAt1 V c n h).2 = accAt V c n h := by
  intro n
  induction n using Nat.strong_induction_on with
  | _ n ih =>
    intro h
    by_cases h0 : n % 6 = 0
    · have e := outsAt1_A V c ⟨n, h⟩ h0
      have e' := accAt_reset V c ⟨n, h⟩ h0
      dsimp only at e e'
      rw [e, e']; dsimp only; unfold soutA_at; rw [sout_A_eq]
    · have hn0 : n ≠ 0 := by intro hz; subst hz; exact h0 (Nat.zero_mod _)
      by_cases h1 : n % 6 = 5
      · have e := outsAt1_C V c ⟨n, h⟩ h0 h1
        have e' := accAt_step V c ⟨n, h⟩ h0
        dsimp only at e e'
        rw [e, e']; dsimp only; unfold soutC_at; rw [sout_C_eq]
        rw [ih (n - 1) (by omega)]
      · have e := outsAt1_B V c ⟨n, h⟩ h0 h1
        have e' := accAt_step V c ⟨n, h⟩ h0
        dsimp only at e e'
        rw [e, e']; dsimp only; unfold soutB_at; rw [sout_B_eq]
        rw [ih (n - 1) (by omega)]

/-- At a point that writes the output block (head pair 5) the block is the accumulator after the point. -/
theorem outsAt_fst_eq (c : Dev nD) (t : Fin cfg1.N) (h1 : t.val % 6 = 5) :
    (outsAt1 V c t.val t.isLt).1 = k1_pay3 (accAt V c t.val t.isLt) := by
  have h0 : ¬t.val % 6 = 0 := by omega
  rw [outsAt1_C V c t h0 h1]; dsimp only; unfold outC_at
  rw [out_C_eq, accAt_step V c t h0, outsAt_snd_eq]

end

end Cert.KernelIdeal.Run

end
-- ==== Proof.RefSpec.lean ====
/- The reference's value as one explicit function of its three arguments, in named stages.

   Multi-head attention with 12 heads of width 64 over X : [4, 2048, 768], Win : [2304, 768], Wout : [768, 768],
   every float read as an extended real and every operation as the exact one:
     qkv(b,s,e)      = Σ_{d<768} X(b,s,d) · Win(e,d)
     q, k, v         = the column ranges [0,768), [768,1536), [1536,2304) of qkv
     scores(b,h,s,t) = (Σ_{dd<64} q(b,s,64h+dd) · k(b,t,64h+dd)) · scale,   scale = 1 / sqrt 64 (kept as written)
     rowMax(b,h,s)   = the maximum over t of scores(b,h,s,t), started at -inf
     p(b,h,s,t)      = exp (scores(b,h,s,t) - rowMax(b,h,s))
     rowSum(b,h,s)   = Σ_t p(b,h,s,t)
     weight(b,h,s,t) = p(b,h,s,t) / rowSum(b,h,s)
     attnH(b,h,s,dd) = Σ_t weight(b,h,s,t) · v(b,t,64h+dd);   attn(b,s,d) = attnH(b, d/64, s, d%64)
     out(b,s,e)      = Σ_{d<768} attn(b,s,d) · Wout(e,d)
   This module imports no program: the shapes are the literal ones. -/
import Idealize.ShloMosaic.PureOps.Ideal
import Idealize.ShloMosaic.Lib.ValueIdx

noncomputable section

open scoped BigOperators

namespace Cert.Attn.Ref

open Idealize.ShloMosaic Idealize.ShloMosaic.ValueIdx

/-- The shape of X and of the result, [4, 2048, 768]. -/
abbrev ShX : Shape := ⟨3, ![4, 2048, 768]⟩
/-- The shape of the input projection's weights, [2304, 768]. -/
abbrev ShWin : Shape := ⟨2, ![2304, 768]⟩
/-- The shape of the output projection's weights, [768, 768]. -/
abbrev ShWout : Shape := ⟨2, ![768, 768]⟩

/-- Column 64·h + dd of a 768-wide row: coordinate dd of head h. -/
abbrev hcol (h : Fin 12) (dd : Fin 64) : Fin 768 := ⟨h.val * 64 + dd.val, by have := h.isLt; have := dd.isLt; omega⟩
/-- The head of column d. -/
abbrev headOf (d : Fin 768) : Fin 12 := ⟨d.val / 64, by have := d.isLt; omega⟩
/-- The coordinate of column d inside its head. -/
abbrev laneOf (d : Fin 768) : Fin 64 := ⟨d.val % 64, by omega⟩
/-- Column j of the query range of the 2304 projected columns. -/
abbrev qcol (j : Fin 768) : Fin 2304 := ⟨j.val, by have := j.isLt; omega⟩
/-- Column j of the key range. -/
abbrev kcol (j : Fin 768) : Fin 2304 := ⟨768 + j.val, by have := j.isLt; omega⟩
/-- Column j of the value range. -/
abbrev vcol (j : Fin 768) : Fin 2304 := ⟨1536 + j.val, by have := j.isLt; omega⟩

/-- The scale as the reference writes it: one divided by the square root of sixty-four, not evaluated. -/
def scale : EReal := Ideal.div (Ideal.ofBits .f32 0x3F800000#32) (Ideal.sqrt (Ideal.ofBits .f32 0x42800000#32))

section Stages
variable (X : ShX.Idx → EReal) (Win : ShWin.Idx → EReal) (Wout : ShWout.Idx → EReal)

/-- The input projection: row (b, s) of X against row e of Win. -/
def qkv (b : Fin 4) (s : Fin 2048) (e : Fin 2304) : EReal := ∑ d : Fin 768, X (ix3 b s d) * Win (ix2 e d)
/-- Queries, keys and values: the three column ranges of the projection. -/
def q (b : Fin 4) (s : Fin 2048) (j : Fin 768) : EReal := qkv X Win b s (qcol j)
def k (b : Fin 4) (s : Fin 2048) (j : Fin 768) : EReal := qkv X Win b s (kcol j)
def v (b : Fin 4) (s : Fin 2048) (j : Fin 768) : EReal := qkv X Win b s (vcol j)
/-- Head h's scaled score of query position s against key position t. -/
def scores (b : Fin 4) (h : Fin 12) (s t : Fin 2048) : EReal :=
  (∑ dd : Fin 64, q X Win b s (hcol h dd) * k X Win b t (hcol h dd)) * scale
/-- The largest score of a row, the maximum started at -inf. -/
def rowMax (b : Fin 4) (h : Fin 12) (s : Fin 2048) : EReal :=
  (Finset.univ : Finset (Fin 2048)).fold max (Ideal.ofBits .f32 0xFF800000#32) (fun t => scores X Win b h s t)
/-- The exponential of a score less its row's maximum. -/
def p (b : Fin 4) (h : Fin 12) (s t : Fin 2048) : EReal := Ideal.exp (scores X Win b h s t - rowMax X Win b h s)
/-- A row's normaliser. -/
def rowSum (b : Fin 4) (h : Fin 12) (s : Fin 2048) : EReal := ∑ t : Fin 2048, p X Win b h s t
/-- The softmax weight: normalised before the product with the values. -/
def weight (b : Fin 4) (h : Fin 12) (s t : Fin 2048) : EReal := Ideal.div (p X Win b h s t) (rowSum X Win b h s)
/-- Head h's attention output at position s, coordinate dd. -/
def attnH (b : Fin 4) (h : Fin 12) (s : Fin 2048) (dd : Fin 64) : EReal :=
  ∑ t : Fin 2048, weight X Win b h s t * v X Win b t (hcol h dd)
/-- The heads side by side: column d = 64·h + dd of the 768-wide attention output. -/
def attn (b : Fin 4) (s : Fin 2048) (d : Fin 768) : EReal := attnH X Win b (headOf d) s (laneOf d)
/-- The output projection. -/
def out (b : Fin 4) (s : Fin 2048) (e : Fin 768) : EReal := ∑ d : Fin 768, attn X Win b s d * Wout (ix2 e d)

/-- The reference's result as one function of its arguments. -/
def refOut : ShX.Idx → EReal := fun i => out X Win Wout (i 0) (i 1) (i 2)

theorem refOut_ix3 (b : Fin 4) (s : Fin 2048) (e : Fin 768) : refOut X Win Wout (ix3 b s e) = out X Win Wout b s e := rfl

end Stages

end Cert.Attn.Ref

end
-- ==== Proof.KerSpec.lean ====
/- One attention head on blocks, as the kernel computes it, over plain functions of coordinates.

   For queries q : 512 × 64 and keys and values k, v : 2048 × 64 (extended reals, every operation the exact one):
     scoresK(r,t) = (Σ_{dd<64} q(r,dd) · k(t,dd)) · c,   c the literal 0.125 kept as its word
     rowMaxK(r)   = the maximum over t of scoresK(r,t), started at -inf
     pK(r,t)      = exp (scoresK(r,t) - rowMaxK(r))
     rowSumK(r)   = Σ_t pK(r,t)
     headK(r,dd)  = (Σ_t pK(r,t) · v(t,dd)) / rowSumK(r)
   The division comes after the product with the values: that is the one place where this differs from a softmax
   normalised before the product. This module imports no program. -/
import Idealize.ShloMosaic.PureOps.Ideal
import Idealize.ShloMosaic.Lib.ValueIdx
import proofs.«110615_j10857677324557_2_alg».proof.Proof.RefSpec

noncomputable section

open scoped BigOperators

namespace Cert.Attn.Ker

open Idealize.ShloMosaic Idealize.ShloMosaic.ValueIdx

/-- Lane dd of the first of two heads lying side by side in a 128-wide tile. -/
abbrev loLane (dd : Fin 64) : Fin 128 := ⟨dd.val, by have := dd.isLt; omega⟩
/-- Lane 64 + dd: the second head's lane dd. -/
abbrev hiLane (dd : Fin 64) : Fin 128 := ⟨64 + dd.val, by have := dd.isLt; omega⟩

section Head
variable (q : Fin 512 → Fin 64 → EReal) (k v : Fin 2048 → Fin 64 → EReal)

/-- The scaled score of query row r against key row t. -/
def scoresK (r : Fin 512) (t : Fin 2048) : EReal := (∑ dd : Fin 64, q r dd * k t dd) * Ideal.ofBits .f32 0x3E000000#32
/-- The largest score of row r, the maximum started at -inf. -/
def rowMaxK (r : Fin 512) : EReal :=
  (Finset.univ : Finset (Fin 2048)).fold max (Ideal.ofBits .f32 0xFF800000#32) (fun t => scoresK q k r t)
/-- The exponential of a score less its row's maximum. -/
def pK (r : Fin 512) (t : Fin 2048) : EReal := Ideal.exp (scoresK q k r t - rowMaxK q k r)
/-- Row r's normaliser. -/
def rowSumK (r : Fin 512) : EReal := ∑ t : Fin 2048, pK q k r t
/-- The head's output at (r, dd): the weighted sum of the values, divided by the normaliser afterwards. -/
def headK (r : Fin 512) (dd : Fin 64) : EReal := Ideal.div (∑ t : Fin 2048, pK q k r t * v t dd) (rowSumK q k r)

end Head

end Cert.Attn.Ker

end
-- ==== Proof.KerPay.lean ====
/- The kernel's payloads read at an index, every float an extended real: the projection's three outputs as sums over
   the contracted axis, and one head's accumulation step as the head on blocks of the specification. -/
import proofs.«110615_j10857677324557_2_alg».proof.Proof.Gen.KernelIdeal.Skeleton
import proofs.«110615_j10857677324557_2_alg».proof.Proof.KerSpec
import Idealize.ShloMosaic.Lib.Pipeline.Value
import Idealize.ShloMosaic.Lib.ValueLayout
import Idealize.ShloMosaic.PureOps.Ideal.Laws

noncomputable section

open scoped BigOperators

namespace Cert.Attn.Ker

open Idealize.ShloMosaic Idealize.ShloMosaic.ValueIdx Cert.KernelIdeal Cert.KernelIdeal.Gen Cert.Attn.Ref

/-! ## The four products' operand indices on their free axes -/

theorem dproj_lhs (i : S512x2304.Idx) (q : dot_S512x768_S2304x768_S512x2304_1_1_0_0_n_n.contr.Idx) : (dot_S512x768_S2304x768_S512x2304_1_1_0_0_n_n.lhsIdx i q 0).val = (i 0).val := by
  unfold DotDims.lhsIdx
  rw [dif_neg (show ¬(0 : Fin S512x768.rank) ∈ dot_S512x768_S2304x768_S512x2304_1_1_0_0_n_n.lhsBatch by decide), dif_pos (show (0 : Fin S512x768.rank) ∈ dot_S512x768_S2304x768_S512x2304_1_1_0_0_n_n.lhsNonContracting by decide)]
  rfl
theorem dproj_rhs (i : S512x2304.Idx) (q : dot_S512x768_S2304x768_S512x2304_1_1_0_0_n_n.contr.Idx) : (dot_S512x768_S2304x768_S512x2304_1_1_0_0_n_n.rhsIdx i q 0).val = (i 1).val := by
  unfold DotDims.rhsIdx
  rw [dif_neg (show ¬(0 : Fin S2304x768.rank) ∈ dot_S512x768_S2304x768_S512x2304_1_1_0_0_n_n.rhsBatch by decide), dif_pos (show (0 : Fin S2304x768.rank) ∈ dot_S512x768_S2304x768_S512x2304_1_1_0_0_n_n.rhsNonContracting by decide)]
  rfl
theorem dqk_lhs (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem dqk_rhs (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem dpv_lhs (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dpv_rhs (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem dout_lhs (i : S512x768.Idx) (q : dot_S512x64_S64x768_S512x768_1_0_0_1_n_n.contr.Idx) : (dot_S512x64_S64x768_S512x768_1_0_0_1_n_n.lhsIdx i q 0).val = (i 0).val := by
  unfold DotDims.lhsIdx
  rw [dif_neg (show ¬(0 : Fin S512x64.rank) ∈ dot_S512x64_S64x768_S512x768_1_0_0_1_n_n.lhsBatch by decide), dif_pos (show (0 : Fin S512x64.rank) ∈ dot_S512x64_S64x768_S512x768_1_0_0_1_n_n.lhsNonContracting by decide)]
  rfl
theorem dout_rhs (i : S512x768.Idx) (q : dot_S512x64_S64x768_S512x768_1_0_0_1_n_n.contr.Idx) : (dot_S512x64_S64x768_S512x768_1_0_0_1_n_n.rhsIdx i q 1).val = (i 1).val := by
  unfold DotDims.rhsIdx
  rw [dif_neg (show ¬(1 : Fin S64x768.rank) ∈ dot_S512x64_S64x768_S512x768_1_0_0_1_n_n.rhsBatch by decide), dif_pos (show (1 : Fin S64x768.rank) ∈ dot_S512x64_S64x768_S512x768_1_0_0_1_n_n.rhsNonContracting by decide)]
  rfl

/-! ## The projection -/

/-- The product of the activation block with the weights into a zero accumulator, at (r, c): row r of the block
    against row c of the weights. -/
theorem proj_read (v0 : Vec Ideal S1x512x768 .f32) (v3 : Vec Ideal S2304x768 .bf16) (r : Fin 512) (c : Fin 2304) :
    k0_pay1 (F := Ideal) v0 v3 (ix2 r c) = ∑ d : Fin 768, v0 (ix3 (0 : Fin 1) r d) * v3 (ix2 c d) := by
  unfold k0_pay1
  refine (Ideal.matmul_constant_zero_apply _ none _ _ _).trans ?_
  rw [← Equiv.sum_comp (contrEquiv1 dot_S512x768_S2304x768_S512x2304_1_1_0_0_n_n 768 rfl rfl).symm]
  refine Finset.sum_congr rfl fun d _ => ?_
  have hk := contrEquiv1_symm_val dot_S512x768_S2304x768_S512x2304_1_1_0_0_n_n 768 rfl rfl d
  have el : dot_S512x768_S2304x768_S512x2304_1_1_0_0_n_n.lhsIdx (ix2 r c) ((contrEquiv1 dot_S512x768_S2304x768_S512x2304_1_1_0_0_n_n 768 rfl rfl).symm d) = ix2 r d :=
    funext fun a => Fin.ext (by
      match a with
      | ⟨0, _⟩ => exact dproj_lhs _ _
      | ⟨1, _⟩ => exact (dot_S512x768_S2304x768_S512x2304_1_1_0_0_n_n.lhsIdx_val_of_single rfl _ _).trans hk)
  have er : dot_S512x768_S2304x768_S512x2304_1_1_0_0_n_n.rhsIdx (ix2 r c) ((contrEquiv1 dot_S512x768_S2304x768_S512x2304_1_1_0_0_n_n 768 rfl rfl).symm d) = ix2 c d :=
    funext fun a => Fin.ext (by
      match a with
      | ⟨0, _⟩ => exact dproj_rhs _ _
      | ⟨1, _⟩ => exact (dot_S512x768_S2304x768_S512x2304_1_1_0_0_n_n.rhsIdx_val_of_single rfl _ _).trans hk)
  rw [el, er, shapeCast_self]
  show shapeCast S512x768 v0 shapeCasts_S1x512x768_S512x768 (ix2 r d) * _ = _
  rw [shapeCast_1ab_ab_apply]

/-- The first column range of the projection, as the block stored: at (0, r, j) the sum over d of the activation row
    against weight row j. -/
theorem k0_pay2_read (v0 : Vec Ideal S1x512x768 .f32) (v3 : Vec Ideal S2304x768 .bf16) (r : Fin 512) (j : Fin 768) :
    k0_pay2 (F := Ideal) v0 v3 (ix3 (0 : Fin 1) r j) = ∑ d : Fin 768, v0 (ix3 (0 : Fin 1) r d) * v3 (ix2 (qcol j) d) := by
  unfold k0_pay2
  rw [shapeCast_ab_1ab_apply]
  show extractStridedSlice S512x768 ![0, 0] (k0_pay1 (F := Ideal) v0 v3) slices_S512x2304_o0_0_S512x768 (ix2 r j) = _
  rw [slice2_axis1_apply 0 _ _ r j (qcol j) (Nat.zero_add _).symm, proj_read]

/-- The second column range of the projection, as the block stored: at (0, r, j) the sum over d of the activation row
    against weight row 768 + j. -/
theorem k0_pay3_read (v0 : Vec Ideal S1x512x768 .f32) (v3 : Vec Ideal S2304x768 .bf16) (r : Fin 512) (j : Fin 768) :
    k0_pay3 (F := Ideal) v0 v3 (ix3 (0 : Fin 1) r j) = ∑ d : Fin 768, v0 (ix3 (0 : Fin 1) r d) * v3 (ix2 (kcol j) d) := by
  unfold k0_pay3
  rw [shapeCast_ab_1ab_apply]
  show extractStridedSlice S512x768 ![0, 768] (k0_pay1 (F := Ideal) v0 v3) slices_S512x2304_o0_768_S512x768 (ix2 r j) = _
  rw [slice2_axis1_apply 768 _ _ r j (kcol j) rfl, proj_read]

/-- The third column range of the projection, as the block stored: at (0, r, j) the sum over d of the activation row
    against weight row 1536 + j. -/
theorem k0_pay4_read (v0 : Vec Ideal S1x512x768 .f32) (v3 : Vec Ideal S2304x768 .bf16) (r : Fin 512) (j : Fin 768) :
    k0_pay4 (F := Ideal) v0 v3 (ix3 (0 : Fin 1) r j) = ∑ d : Fin 768, v0 (ix3 (0 : Fin 1) r d) * v3 (ix2 (vcol j) d) := by
  unfold k0_pay4
  rw [shapeCast_ab_1ab_apply]
  show extractStridedSlice S512x768 ![0, 1536] (k0_pay1 (F := Ideal) v0 v3) slices_S512x2304_o0_1536_S512x768 (ix2 r j) = _
  rw [slice2_axis1_apply 1536 _ _ r j (vcol j) rfl, proj_read]

/-! ## Two column forms of the layout operations -/

section Columns
variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## One head's step, in stages over variables of the literal vector types -/

/-- The scaled scores: the product of the query block with the key block into a zero accumulator, times the scale. -/
def sV (qv : FVec Ideal S512x64 .bf16) (kv : FVec Ideal S2048x64 .bf16) : FVec Ideal S512x2048 .f32 :=
  mulf (matmul dot_S512x64_S2048x64_S512x2048_1_1_0_0_n_n none qv kv (constant S512x2048 .f32 0x00000000#32)) (broadcast S512x2048 (Scalar.ofBits (F := Ideal) .f32 0x3E000000#32))
/-- The rows' maxima. -/
def mV (qv : FVec Ideal S512x64 .bf16) (kv : FVec Ideal S2048x64 .bf16) : FVec Ideal S512 .f32 :=
  multiReduction .maximumf [1] S512 (sV qv kv) 0xFF800000#32 reduces_S512x2048_S512 (.inl rfl) rfl
/-- The exponentials of the scores less their rows' maxima. -/
def pV (qv : FVec Ideal S512x64 .bf16) (kv : FVec Ideal S2048x64 .bf16) : FVec Ideal S512x2048 .f32 :=
  exp (subf (sV qv kv) (broadcastTo S512x2048 (shapeCast S512x1 (mV qv kv) shapeCasts_S512_S512x1) broadcasts_S512x1_S512x2048))
/-- The rows' sums. -/
def lV (qv : FVec Ideal S512x64 .bf16) (kv : FVec Ideal S2048x64 .bf16) : FVec Ideal S512 .f32 :=
  multiReduction .add [1] S512 (pV qv kv) 0x00000000#32 reduces_S512x2048_S512 (.inl rfl) rfl
/-- The head's output: the product with the values, divided by the rows' sums. -/
def oV (qv : FVec Ideal S512x64 .bf16) (kv : FVec Ideal S2048x64 .bf16) (vv : FVec Ideal S2048x64 .bf16) : FVec Ideal S512x64 .f32 :=
  divf (matmul dot_S512x2048_S2048x64_S512x64_1_0_0_1_n_n none (truncf .bf16 (pV qv kv) bitsLt_bf16_f32) vv (constant S512x64 .f32 0x00000000#32))
    (broadcastTo S512x64 (shapeCast S512x1 (lV qv kv) shapeCasts_S512_S512x1) broadcasts_S512x1_S512x64)
/-- The accumulator plus the head's output against its rows of the output weights. -/
def headAcc (qv : FVec Ideal S512x64 .bf16) (kv : FVec Ideal S2048x64 .bf16) (vv : FVec Ideal S2048x64 .bf16) (w : FVec Ideal S64x768 .bf16) (acc : FVec Ideal S512x768 .f32) : FVec Ideal S512x768 .f32 :=
  addf acc (matmul dot_S512x64_S64x768_S512x768_1_0_0_1_n_n none (truncf .bf16 (oV qv kv vv) bitsLt_bf16_f32) w (constant S512x768 .f32 0x00000000#32))

theorem sV_read (qv : FVec Ideal S512x64 .bf16) (kv : FVec Ideal S2048x64 .bf16) (r : Fin 512) (t : Fin 2048) :
    sV qv kv (ix2 r t) = scoresK (fun r dd => qv (ix2 r dd)) (fun t dd => kv (ix2 t dd)) r t := by
  unfold sV scoresK
  rw [mulf_apply, broadcast_apply]
  refine congrArg₂ (· * ·) ?_ rfl
  refine (Ideal.matmul_constant_zero_apply _ none _ _ _).trans ?_
  rw [← Equiv.sum_comp (contrEquiv1 dot_S512x64_S2048x64_S512x2048_1_1_0_0_n_n 64 rfl rfl).symm]
  refine Finset.sum_congr rfl fun dd _ => ?_
  have hk := contrEquiv1_symm_val dot_S512x64_S2048x64_S512x2048_1_1_0_0_n_n 64 rfl rfl dd
  have el : dot_S512x64_S2048x64_S512x2048_1_1_0_0_n_n.lhsIdx (ix2 r t) ((contrEquiv1 dot_S512x64_S2048x64_S512x2048_1_1_0_0_n_n 64 rfl rfl).symm dd) = ix2 r dd :=
    funext fun a => Fin.ext (by
      match a with
      | ⟨0, _⟩ => exact dqk_lhs _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 r t) ((contrEquiv1 dot_S512x64_S2048x64_S512x2048_1_1_0_0_n_n 64 rfl rfl).symm dd) = ix2 t dd :=
    funext fun a => Fin.ext (by
      match a with
      | ⟨0, _⟩ => exact dqk_rhs _ _
      | ⟨1, _⟩ => exact (dot_S512x64_S2048x64_S512x2048_1_1_0_0_n_n.rhsIdx_val_of_single rfl _ _).trans hk)
  rw [el, er]

theorem mV_read (qv : FVec Ideal S512x64 .bf16) (kv : FVec Ideal S2048x64 .bf16) (r : Fin 512) :
    mV qv kv (ix1 r) = rowMaxK (fun r dd => qv (ix2 r dd)) (fun t dd => kv (ix2 t dd)) r := by
  unfold mV rowMaxK
  refine (Ideal.multiReduction_maximumf_single _ _ _ _ _ (ix1 r)).trans ?_
  refine Finset.fold_congr fun (t : Fin 2048) _ => ?_
  have e : reduces_S512x2048_S512.lift (ix1 r) t = ix2 r t :=
    funext fun a => Fin.ext (by match a with | ⟨0, _⟩ => rfl | ⟨1, _⟩ => rfl)
  show sV qv kv (reduces_S512x2048_S512.lift (ix1 r) t) = _
  rw [e, sV_read]

theorem pV_read (qv : FVec Ideal S512x64 .bf16) (kv : FVec Ideal S2048x64 .bf16) (r : Fin 512) (t : Fin 2048) :
    pV qv kv (ix2 r t) = pK (fun r dd => qv (ix2 r dd)) (fun t dd => kv (ix2 t dd)) r t := by
  unfold pV pK
  show Ideal.exp (sV qv kv (ix2 r t) - broadcastTo S512x2048 (shapeCast S512x1 (mV qv kv) shapeCasts_S512_S512x1) broadcasts_S512x1_S512x2048 (ix2 r t)) = _
  rw [broadcastTo_a1_ab_apply, shapeCast_a_a1_apply, mV_read, sV_read]

theorem lV_read (qv : FVec Ideal S512x64 .bf16) (kv : FVec Ideal S2048x64 .bf16) (r : Fin 512) :
    lV qv kv (ix1 r) = rowSumK (fun r dd => qv (ix2 r dd)) (fun t dd => kv (ix2 t dd)) r := by
  unfold lV rowSumK
  refine (Ideal.multiReduction_add_single _ _ _ _ _ (ix1 r)).trans ?_
  refine Finset.sum_congr rfl fun (t : Fin 2048) _ => ?_
  have e : reduces_S512x2048_S512.lift (ix1 r) t = ix2 r t :=
    funext fun a => Fin.ext (by match a with | ⟨0, _⟩ => rfl | ⟨1, _⟩ => rfl)
  rw [e, pV_read]

theorem oV_read (qv : FVec Ideal S512x64 .bf16) (kv : FVec Ideal S2048x64 .bf16) (vv : FVec Ideal S2048x64 .bf16) (r : Fin 512) (dd : Fin 64) :
    oV qv kv vv (ix2 r dd) = headK (fun r dd => qv (ix2 r dd)) (fun t dd => kv (ix2 t dd)) (fun t dd => vv (ix2 t dd)) r dd := by
  unfold oV headK
  rw [divf_apply, broadcastTo_a1_ab_apply, shapeCast_a_a1_apply, lV_read]
  refine congrArg (Ideal.div · _) ?_
  refine (Ideal.matmul_constant_zero_apply _ none _ _ _).trans ?_
  rw [← Equiv.sum_comp (contrEquiv1 dot_S512x2048_S2048x64_S512x64_1_0_0_1_n_n 2048 rfl rfl).symm]
  refine Finset.sum_congr rfl fun t _ => ?_
  have hk := contrEquiv1_symm_val dot_S512x2048_S2048x64_S512x64_1_0_0_1_n_n 2048 rfl rfl t
  have el : dot_S512x2048_S2048x64_S512x64_1_0_0_1_n_n.lhsIdx (ix2 r dd) ((contrEquiv1 dot_S512x2048_S2048x64_S512x64_1_0_0_1_n_n 2048 rfl rfl).symm t) = ix2 r t :=
    funext fun a => Fin.ext (by
      match a with
      | ⟨0, _⟩ => exact dpv_lhs _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 r dd) ((contrEquiv1 dot_S512x2048_S2048x64_S512x64_1_0_0_1_n_n 2048 rfl rfl).symm t) = ix2 t dd :=
    funext fun a => Fin.ext (by
      match a with
      | ⟨0, _⟩ => exact (dot_S512x2048_S2048x64_S512x64_1_0_0_1_n_n.rhsIdx_val_of_single rfl _ _).trans hk
      | ⟨1, _⟩ => exact dpv_rhs _ _)
  rw [el, er]
  show pV qv kv (ix2 r t) * _ = _
  rw [pV_read]

theorem headAcc_read (qv : FVec Ideal S512x64 .bf16) (kv : FVec Ideal S2048x64 .bf16) (vv : FVec Ideal S2048x64 .bf16) (w : FVec Ideal S64x768 .bf16) (acc : FVec Ideal S512x768 .f32) (r : Fin 512) (e : Fin 768) :
    headAcc qv kv vv w acc (ix2 r e) = acc (ix2 r e) + ∑ dd : Fin 64, headK (fun r dd => qv (ix2 r dd)) (fun t dd => kv (ix2 t dd)) (fun t dd => vv (ix2 t dd)) r dd * w (ix2 dd e) := by
  unfold headAcc
  rw [addf_apply]
  refine congrArg (acc (ix2 r e) + ·) ?_
  refine (Ideal.matmul_constant_zero_apply _ none _ _ _).trans ?_
  rw [← Equiv.sum_comp (contrEquiv1 dot_S512x64_S64x768_S512x768_1_0_0_1_n_n 64 rfl rfl).symm]
  refine Finset.sum_congr rfl fun dd _ => ?_
  have hk := contrEquiv1_symm_val dot_S512x64_S64x768_S512x768_1_0_0_1_n_n 64 rfl rfl dd
  have el : dot_S512x64_S64x768_S512x768_1_0_0_1_n_n.lhsIdx (ix2 r e) ((contrEquiv1 dot_S512x64_S64x768_S512x768_1_0_0_1_n_n 64 rfl rfl).symm dd) = ix2 r dd :=
    funext fun a => Fin.ext (by
      match a with
      | ⟨0, _⟩ => exact dout_lhs _ _
      | ⟨1, _⟩ => exact (dot_S512x64_S64x768_S512x768_1_0_0_1_n_n.lhsIdx_val_of_single rfl _ _).trans hk)
  have er : dot_S512x64_S64x768_S512x768_1_0_0_1_n_n.rhsIdx (ix2 r e) ((contrEquiv1 dot_S512x64_S64x768_S512x768_1_0_0_1_n_n 64 rfl rfl).symm dd) = ix2 dd e :=
    funext fun a => Fin.ext (by
      match a with
      | ⟨0, _⟩ => exact (dot_S512x64_S64x768_S512x768_1_0_0_1_n_n.rhsIdx_val_of_single rfl _ _).trans hk
      | ⟨1, _⟩ => exact dout_rhs _ _)
  rw [el, er]
  show oV qv kv vv (ix2 r dd) * _ = _
  rw [oV_read]

/-! ## The payloads -/

/-- The head's step with its four operands known by coordinates. -/
theorem headAcc_read_of (qv : FVec Ideal S512x64 .bf16) (kv : FVec Ideal S2048x64 .bf16) (vv : FVec Ideal S2048x64 .bf16) (w : FVec Ideal S64x768 .bf16) (acc : FVec Ideal S512x768 .f32)
    (q : Fin 512 → Fin 64 → EReal) (k v : Fin 2048 → Fin 64 → EReal) (wf : Fin 64 → Fin 768 → EReal)
    (hq : ∀ r dd, qv (ix2 r dd) = q r dd) (hk : ∀ t dd, kv (ix2 t dd) = k t dd) (hv : ∀ t dd, vv (ix2 t dd) = v t dd)
    (hw : ∀ dd e, w (ix2 dd e) = wf dd e) (r : Fin 512) (e : Fin 768) :
    headAcc qv kv vv w acc (ix2 r e) = acc (ix2 r e) + ∑ dd : Fin 64, headK q k v r dd * wf dd e := by
  rw [headAcc_read,
    show (fun r dd => qv (ix2 r dd)) = q from funext fun r => funext fun dd => hq r dd,
    show (fun t dd => kv (ix2 t dd)) = k from funext fun t => funext fun dd => hk t dd,
    show (fun t dd => vv (ix2 t dd)) = v from funext fun t => funext fun dd => hv t dd]
  exact congrArg (acc (ix2 r e) + ·) (Finset.sum_congr rfl fun dd _ => by rw [hw])

/-- A tile [1, n, 128] cast to [n, 128] and cut to its lanes from o reads the tile at (0, r, o + dd). -/
theorem lanes_read {n : ℕ} (o : ℕ) (x : (⟨3, ![1, n, 128]⟩ : Shape).Idx → EReal)
    (hc : (⟨3, ![1, n, 128]⟩ : Shape).ShapeCasts ⟨2, ![n, 128]⟩) (hs : (⟨2, ![n, 128]⟩ : Shape).Slices ![0, o] ⟨2, ![n, 64]⟩)
    (r : Fin n) (dd : Fin 64) (l : Fin 128) (hl : l.val = o + dd.val) :
    extractStridedSlice ⟨2, ![n, 64]⟩ ![0, o] (shapeCast ⟨2, ![n, 128]⟩ x hc) hs (ix2 r dd) = x (ix3 (0 : Fin 1) r l) := by
  rw [slice2_axis1_apply o _ _ r dd l hl, shapeCast_1ab_ab_apply]

/-- The weight rows from o of the 128-row tile. -/
theorem wrows_read (o : ℕ) (v9 : Vec Ideal S128x768 .bf16) (hs : S128x768.Slices ![o, 0] S64x768)
    (dd : Fin 64) (e : Fin 768) (l : Fin 128) (hl : l.val = o + dd.val) :
    extractStridedSlice S64x768 ![o, 0] (k1_pay8 (F := Ideal) v9) hs (ix2 dd e) = v9 (ix2 l e) := by
  rw [slice2_axis0_apply o _ _ dd e l hl]
  unfold k1_pay8
  rw [shapeCast_self]

/-- The second half of the weight tile's rows. -/
theorem k1_pay9_read (v9 : Vec Ideal S128x768 .bf16) (dd : Fin 64) (e : Fin 768) :
    k1_pay9 (F := Ideal) v9 (ix2 dd e) = v9 (ix2 (hiLane dd) e) := by
  unfold k1_pay9
  exact wrows_read 64 v9 _ dd e (hiLane dd) rfl

/-- The first head of the tile: the accumulator plus that head on lanes 0 to 63 against weight rows 0 to 63. -/
theorem k1_pay10_read (v3 : Vec Ideal S1x512x128 .bf16) (v5 v7 : Vec Ideal S1x2048x128 .bf16) (v9 : Vec Ideal S128x768 .bf16) (acc : Vec Ideal S512x768 .f32) (r : Fin 512) (e : Fin 768) :
    k1_pay10 (F := Ideal) v3 v5 v7 v9 acc (ix2 r e)
      = acc (ix2 r e) + ∑ dd : Fin 64, headK (fun r dd => v3 (ix3 (0 : Fin 1) r (loLane dd))) (fun t dd => v5 (ix3 (0 : Fin 1) t (loLane dd))) (fun t dd => v7 (ix3 (0 : Fin 1) t (loLane dd))) r dd * v9 (ix2 (loLane dd) e) := by
  show headAcc (extractStridedSlice S512x64 ![0, 0] (k1_pay5 (F := Ideal) v3) slices_S512x128_o0_0_S512x64)
      (extractStridedSlice S2048x64 ![0, 0] (k1_pay6 (F := Ideal) v5) slices_S2048x128_o0_0_S2048x64)
      (extractStridedSlice S2048x64 ![0, 0] (k1_pay7 (F := Ideal) v7) slices_S2048x128_o0_0_S2048x64)
      (extractStridedSlice S64x768 ![0, 0] (k1_pay8 (F := Ideal) v9) slices_S128x768_o0_0_S64x768) acc (ix2 r e) = _
  exact headAcc_read_of _ _ _ _ acc _ _ _ (fun dd e => v9 (ix2 (loLane dd) e))
    (fun r dd => lanes_read 0 v3 _ _ r dd (loLane dd) (Nat.zero_add _).symm)
    (fun t dd => lanes_read 0 v5 _ _ t dd (loLane dd) (Nat.zero_add _).symm)
    (fun t dd => lanes_read 0 v7 _ _ t dd (loLane dd) (Nat.zero_add _).symm)
    (fun dd e => wrows_read 0 v9 _ dd e (loLane dd) (Nat.zero_add _).symm) r e

/-- The second head of the tile: the accumulator plus that head on lanes 64 to 127 against weight rows 64 to 127. -/
theorem k1_pay2_read (v3 : Vec Ideal S1x512x128 .bf16) (v5 v7 : Vec Ideal S1x2048x128 .bf16) (v9 : Vec Ideal S128x768 .bf16) (acc : Vec Ideal S512x768 .f32) (r : Fin 512) (e : Fin 768) :
    k1_pay2 (F := Ideal) (k1_pay5 (F := Ideal) v3) (k1_pay6 (F := Ideal) v5) (k1_pay7 (F := Ideal) v7) (k1_pay9 (F := Ideal) v9) acc (ix2 r e)
      = acc (ix2 r e) + ∑ dd : Fin 64, headK (fun r dd => v3 (ix3 (0 : Fin 1) r (hiLane dd))) (fun t dd => v5 (ix3 (0 : Fin 1) t (hiLane dd))) (fun t dd => v7 (ix3 (0 : Fin 1) t (hiLane dd))) r dd * v9 (ix2 (hiLane dd) e) := by
  show shapeCast S512x768 (headAcc (extractStridedSlice S512x64 ![0, 64] (k1_pay5 (F := Ideal) v3) slices_S512x128_o0_64_S512x64)
      (extractStridedSlice S2048x64 ![0, 64] (k1_pay6 (F := Ideal) v5) slices_S2048x128_o0_64_S2048x64)
      (extractStridedSlice S2048x64 ![0, 64] (k1_pay7 (F := Ideal) v7) slices_S2048x128_o0_64_S2048x64)
      (k1_pay9 (F := Ideal) v9) acc) shapeCasts_S512x768_S512x768 (ix2 r e) = _
  rw [shapeCast_self]
  exact headAcc_read_of _ _ _ (k1_pay9 (F := Ideal) v9) acc _ _ _ (fun dd e => v9 (ix2 (hiLane dd) e))
    (fun r dd => lanes_read 64 v3 _ _ r dd (hiLane dd) rfl)
    (fun t dd => lanes_read 64 v5 _ _ t dd (hiLane dd) rfl)
    (fun t dd => lanes_read 64 v7 _ _ t dd (hiLane dd) rfl)
    (fun dd e => k1_pay9_read v9 dd e) r e

/-- A cast to the same shape changes nothing. -/
theorem k1_pay1_read (x : FVec Ideal S512x768 .f32) : k1_pay1 (F := Ideal) x = x := by
  unfold k1_pay1
  exact shapeCast_self _ _

/-- The accumulator's first value is zero everywhere. -/
theorem k1_pay4_read (r : Fin 512) (e : Fin 768) : k1_pay4 (F := Ideal) (ix2 r e) = 0 := by
  unfold k1_pay4
  rw [shapeCast_self]
  show Ideal.ofBits .f32 0x00000000#32 = 0
  exact Ideal.ofBits_zero_f32

/-- The accumulator with a unit axis put in front reads the same element. -/
theorem k1_pay3_read (x : Vec Ideal S512x768 .f32) (r : Fin 512) (e : Fin 768) :
    k1_pay3 (F := Ideal) x (ix3 (0 : Fin 1) r e) = x (ix2 r e) := by
  unfold k1_pay3
  exact shapeCast_ab_1ab_apply _ _ _ _ _

end Cert.Attn.Ker

end
-- ==== Proof.AttnSeqI.lean ====
/-
  The accumulator along a tile's six head pairs, read at an entry: if a point's two head steps add, at an entry,
  two terms T(2·hp) and T(2·hp+1) to what the accumulator held, then after head pair hp the accumulator holds the
  (hp+1)-th term of the sequence that starts at 0 and adds two terms per step. Stated over abstract grid
  coordinates and an abstract term T; the instances come with the block reads.
-/
import proofs.«110615_j10857677324557_2_alg».proof.Proof.AttnAccI
import proofs.«110615_j10857677324557_2_alg».proof.Proof.KerPay

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- Start at 0; step n adds the terms 2n and 2n+1, for the six steps of a tile. -/
def pairSeq (T : Fin 12 → EReal) : ℕ → EReal
  | 0 => 0
  | n + 1 => if hn : n < 6 then (pairSeq T n + T ⟨2 * n, by omega⟩) + T ⟨2 * n + 1, by omega⟩ else pairSeq T n

theorem pairSeq_succ (T : Fin 12 → EReal) (n : ℕ) (hn : n < 6) :
    pairSeq T (n + 1) = (pairSeq T n + T ⟨2 * n, by omega⟩) + T ⟨2 * n + 1, by omega⟩ := by
  show (if hn : n < 6 then _ else _) = _
  rw [dif_pos hn]

section
variable (V : (c : Dev nD) → (b : Ref sig .tc) → Buf (Elt Ideal) ((c : Thread nD τ).loc b))

theorem accAt_eq_pairSeq (c : Dev nD) (gb gs : Fin cfg1.N → Fin 4) (gh : Fin cfg1.N → Fin 6)
    (hgh : ∀ t : Fin cfg1.N, (gh t).val = t.val % 6)
    (hprev : ∀ (t : Fin cfg1.N) (h : ¬t.val % 6 = 0),
      gb ⟨t.val - 1, Nat.lt_of_le_of_lt (Nat.sub_le _ _) t.isLt⟩ = gb t ∧ gs ⟨t.val - 1, Nat.lt_of_le_of_lt (Nat.sub_le _ _) t.isLt⟩ = gs t)
    (T : Fin 4 → Fin 4 → Fin 512 → Fin 768 → Fin 12 → EReal)
    (hstep : ∀ (t : Fin cfg1.N) (a : Vec Ideal S512x768 .f32) (r : Fin 512) (e : Fin 768),
      stepAcc (F := Ideal) (iblk1 V c 0 t) (iblk1 V c 1 t) (iblk1 V c 2 t) (iblk1 V c 3 t) a (ix2 r e)
        = (a (ix2 r e) + T (gb t) (gs t) r e ⟨2 * (gh t).val, by have := (gh t).isLt; omega⟩)
            + T (gb t) (gs t) r e ⟨2 * (gh t).val + 1, by have := (gh t).isLt; omega⟩)
    (r : Fin 512) (e : Fin 768) :
    ∀ (n : ℕ) (h : n < cfg1.N), accAt V c n h (ix2 r e) = pairSeq (T (gb ⟨n, h⟩) (gs ⟨n, h⟩) r e) ((gh ⟨n, h⟩).val + 1) := by
  intro n
  induction n using Nat.strong_induction_on with
  | _ n ih =>
    intro h
    have hg := hgh ⟨n, h⟩
    dsimp only at hg
    by_cases h0 : n % 6 = 0
    · have e' := accAt_reset V c ⟨n, h⟩ h0
      dsimp only at e'
      have hg0 : (gh ⟨n, h⟩).val = 0 := by omega
      rw [e', hstep ⟨n, h⟩, Cert.Attn.Ker.k1_pay4_read, pairSeq_succ _ _ (by omega)]
      simp only [hg0]
      rfl
    · have e' := accAt_step V c ⟨n, h⟩ h0
      dsimp only at e'
      have hp := hprev ⟨n, h⟩ h0
      dsimp only at hp
      have hg' := hgh ⟨n - 1, Nat.lt_of_le_of_lt (Nat.sub_le _ _) h⟩
      dsimp only at hg'
      have hlt : (gh ⟨n, h⟩).val < 6 := (gh ⟨n, h⟩).isLt
      have hgm : (gh ⟨n - 1, Nat.lt_of_le_of_lt (Nat.sub_le _ _) h⟩).val + 1 = (gh ⟨n, h⟩).val := by omega
      rw [e', hstep ⟨n, h⟩, ih (n - 1) (by omega), hp.1, hp.2, hgm, pairSeq_succ _ _ hlt]

end

end Cert.KernelIdeal.Run

end
-- ==== Proof.AttnBlocksI.lean ====
/- The attention region's blocks by coordinates. The grid's points are (b, si, hp): batch, 512-row query tile, head
   pair, with t = 24·b + 6·si + hp. Each window's block at a point is a rectangle of its array whose coordinate on
   every axis is the block index times the block's extent plus the coordinate inside the block; the block indices are
   the printed index maps, decided once over the 96 points. -/
import proofs.«110615_j10857677324557_2_alg».proof.Proof.AttnBaseI
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Run

variable {F : FTy → Type} [FloatOps F]

/-! ## The grid's coordinates -/

/-- The batch coordinate of point t. -/
abbrev gb (t : Fin cfg1.N) : Fin 4 := (grid1.coords t) 0
/-- The query-tile coordinate of point t. -/
abbrev gs (t : Fin cfg1.N) : Fin 4 := (grid1.coords t) 1
/-- The head-pair coordinate of point t. -/
abbrev gh (t : Fin cfg1.N) : Fin 6 := (grid1.coords t) 2

/-- Row r of query tile si among the 2048 rows. -/
abbrev rowAt (si : Fin 4) (r : Fin 512) : Fin 2048 := ⟨512 * si.val + r.val, by have := si.isLt; have := r.isLt; omega⟩
/-- Lane l of head pair hp among the 768 columns. -/
abbrev colAt (hp : Fin 6) (l : Fin 128) : Fin 768 := ⟨128 * hp.val + l.val, by have := hp.isLt; have := l.isLt; omega⟩

/-- A point's number from its coordinates. -/
theorem point_eq : ∀ t : Fin cfg1.N, t.val = 24 * (gb t).val + 6 * (gs t).val + (gh t).val :=
  (by decide +kernel : ∀ t : Fin grid1.N, t.val = 24 * ((grid1.coords t) 0).val + 6 * ((grid1.coords t) 1).val + ((grid1.coords t) 2).val)

/-- The head-pair coordinate is the point's number modulo six. -/
theorem gh_val : ∀ t : Fin cfg1.N, (gh t).val = t.val % 6 :=
  (by decide +kernel : ∀ t : Fin grid1.N, ((grid1.coords t) 2).val = t.val % 6)

/-- Away from the first head pair, the point before has the same batch and tile and the head pair one less. -/
theorem point_pred : ∀ t : Fin cfg1.N, ∀ h : t.val % 6 ≠ 0,
    gb ⟨t.val - 1, Nat.lt_of_le_of_lt (Nat.sub_le _ _) t.isLt⟩ = gb t
    ∧ gs ⟨t.val - 1, Nat.lt_of_le_of_lt (Nat.sub_le _ _) t.isLt⟩ = gs t
    ∧ (gh ⟨t.val - 1, Nat.lt_of_le_of_lt (Nat.sub_le _ _) t.isLt⟩).val + 1 = (gh t).val :=
  (by decide +kernel : ∀ t : Fin grid1.N, ∀ h : t.val % 6 ≠ 0,
    (grid1.coords ⟨t.val - 1, Nat.lt_of_le_of_lt (Nat.sub_le _ _) t.isLt⟩) 0 = (grid1.coords t) 0
    ∧ (grid1.coords ⟨t.val - 1, Nat.lt_of_le_of_lt (Nat.sub_le _ _) t.isLt⟩) 1 = (grid1.coords t) 1
    ∧ ((grid1.coords ⟨t.val - 1, Nat.lt_of_le_of_lt (Nat.sub_le _ _) t.isLt⟩) 2).val + 1 = ((grid1.coords t) 2).val)

/-! ## The printed index maps, decided over the grid -/

theorem idx1_0 : ∀ t : Fin cfg1.N, win1_0.index t (0 : Fin 3) = (gb t).val ∧ win1_0.index t (1 : Fin 3) = (gs t).val
    ∧ win1_0.index t (2 : Fin 3) = (gh t).val :=
  (by decide +kernel : ∀ t : Fin grid1.N, win1_0.index t (0 : Fin 3) = ((grid1.coords t) 0).val
    ∧ win1_0.index t (1 : Fin 3) = ((grid1.coords t) 1).val ∧ win1_0.index t (2 : Fin 3) = ((grid1.coords t) 2).val)
theorem idx1_1 : ∀ t : Fin cfg1.N, win1_1.index t (0 : Fin 3) = (gb t).val ∧ win1_1.index t (1 : Fin 3) = 0
    ∧ win1_1.index t (2 : Fin 3) = (gh t).val :=
  (by decide +kernel : ∀ t : Fin grid1.N, win1_1.index t (0 : Fin 3) = ((grid1.coords t) 0).val
    ∧ win1_1.index t (1 : Fin 3) = 0 ∧ win1_1.index t (2 : Fin 3) = ((grid1.coords t) 2).val)
theorem idx1_2 : ∀ t : Fin cfg1.N, win1_2.index t (0 : Fin 3) = (gb t).val ∧ win1_2.index t (1 : Fin 3) = 0
    ∧ win1_2.index t (2 : Fin 3) = (gh t).val :=
  (by decide +kernel : ∀ t : Fin grid1.N, win1_2.index t (0 : Fin 3) = ((grid1.coords t) 0).val
    ∧ win1_2.index t (1 : Fin 3) = 0 ∧ win1_2.index t (2 : Fin 3) = ((grid1.coords t) 2).val)
theorem idx1_3 : ∀ t : Fin cfg1.N, win1_3.index t (0 : Fin 2) = (gh t).val ∧ win1_3.index t (1 : Fin 2) = 0 :=
  (by decide +kernel : ∀ t : Fin grid1.N, win1_3.index t (0 : Fin 2) = ((grid1.coords t) 2).val ∧ win1_3.index t (1 : Fin 2) = 0)
theorem idx1_4 : ∀ t : Fin cfg1.N, win1_4.index t (0 : Fin 3) = (gb t).val ∧ win1_4.index t (1 : Fin 3) = (gs t).val
    ∧ win1_4.index t (2 : Fin 3) = 0 :=
  (by decide +kernel : ∀ t : Fin grid1.N, win1_4.index t (0 : Fin 3) = ((grid1.coords t) 0).val
    ∧ win1_4.index t (1 : Fin 3) = ((grid1.coords t) 1).val ∧ win1_4.index t (2 : Fin 3) = 0)

/-- Every (batch, tile) has its write-back point: the one at the last head pair. -/
theorem idx1_4_onto : ∀ (q0 : Fin 4) (q1 : Fin 4), ∃ t : Fin cfg1.N, t.val % 6 = 5 ∧ win1_4.index t = ![q0.val, q1.val, 0] :=
  (by decide +kernel : ∀ (q0 : Fin 4) (q1 : Fin 4), ∃ t : Fin grid1.N, t.val % 6 = 5 ∧ win1_4.index t = ![q0.val, q1.val, 0])

/-! ## The input blocks read where their rectangles say -/

section Reads
variable (V : (c : Dev nD) → (b : Ref sig .tc) → Buf (Elt F) ((c : Thread nD τ).loc b)) (c : Dev nD)

/-- The query tile's block: rows of tile si, lanes of head pair hp, of batch b. -/
theorem iblk1_0_read (t : Fin cfg1.N) (r : Fin 512) (l : Fin 128) :
    iblk1 V c 0 t (ix3 (0 : Fin 1) r l) = V c main_v3_0 (ix3 (gb t) (rowAt (gs t) r) (colAt (gh t) l)) := by
  obtain ⟨e0, e1, e2⟩ := idx1_0 t
  show V c main_v3_0 (((cfg1.win 0).blk t).view.emb (ix3 (0 : Fin 1) r l)) = _
  refine congrArg (V c main_v3_0) (funext fun a => Fin.ext ?_)
  match a with
  | ⟨0, _⟩ => show win1_0.index t (0 : Fin 3) * 1 + 1 * 0 = (gb t).val; omega
  | ⟨1, _⟩ => show win1_0.index t (1 : Fin 3) * 512 + 1 * r.val = 512 * (gs t).val + r.val; omega
  | ⟨2, _⟩ => show win1_0.index t (2 : Fin 3) * 128 + 1 * l.val = 128 * (gh t).val + l.val; omega

/-- The keys' block: every row of batch b, lanes of head pair hp. -/
theorem iblk1_1_read (t : Fin cfg1.N) (tt : Fin 2048) (l : Fin 128) :
    iblk1 V c 1 t (ix3 (0 : Fin 1) tt l) = V c main_v3_1 (ix3 (gb t) tt (colAt (gh t) l)) := by
  obtain ⟨e0, e1, e2⟩ := idx1_1 t
  show V c main_v3_1 (((cfg1.win 1).blk t).view.emb (ix3 (0 : Fin 1) tt l)) = _
  refine congrArg (V c main_v3_1) (funext fun a => Fin.ext ?_)
  match a with
  | ⟨0, _⟩ => show win1_1.index t (0 : Fin 3) * 1 + 1 * 0 = (gb t).val; omega
  | ⟨1, _⟩ => show win1_1.index t (1 : Fin 3) * 2048 + 1 * tt.val = tt.val; omega
  | ⟨2, _⟩ => show win1_1.index t (2 : Fin 3) * 128 + 1 * l.val = 128 * (gh t).val + l.val; omega

/-- The values' block, likewise. -/
theorem iblk1_2_read (t : Fin cfg1.N) (tt : Fin 2048) (l : Fin 128) :
    iblk1 V c 2 t (ix3 (0 : Fin 1) tt l) = V c main_v3_2 (ix3 (gb t) tt (colAt (gh t) l)) := by
  obtain ⟨e0, e1, e2⟩ := idx1_2 t
  show V c main_v3_2 (((cfg1.win 2).blk t).view.emb (ix3 (0 : Fin 1) tt l)) = _
  refine congrArg (V c main_v3_2) (funext fun a => Fin.ext ?_)
  match a with
  | ⟨0, _⟩ => show win1_2.index t (0 : Fin 3) * 1 + 1 * 0 = (gb t).val; omega
  | ⟨1, _⟩ => show win1_2.index t (1 : Fin 3) * 2048 + 1 * tt.val = tt.val; omega
  | ⟨2, _⟩ => show win1_2.index t (2 : Fin 3) * 128 + 1 * l.val = 128 * (gh t).val + l.val; omega

/-- The output weight's block: the 128 rows of head pair hp. -/
theorem iblk1_3_read (t : Fin cfg1.N) (l : Fin 128) (e : Fin 768) :
    iblk1 V c 3 t (ix2 l e) = V c main_v2 (ix2 (colAt (gh t) l) e) := by
  obtain ⟨e0, e1⟩ := idx1_3 t
  show V c main_v2 (((cfg1.win 3).blk t).view.emb (ix2 l e)) = _
  refine congrArg (V c main_v2) (funext fun a => Fin.ext ?_)
  match a with
  | ⟨0, _⟩ => show win1_3.index t (0 : Fin 2) * 128 + 1 * l.val = 128 * (gh t).val + l.val; omega
  | ⟨1, _⟩ => show win1_3.index t (1 : Fin 2) * 768 + 1 * e.val = e.val; omega

end Reads

/-! ## The output block as a view of its array, and the cover -/

/-- The output window's block at t, read off any contents of its array: rows of tile si of batch b. -/
theorem oblk1_4_read (c : Dev nD) (G : Buf (Elt F) ((c : Thread nD τ).loc main_v4)) (t : Fin cfg1.N) (r : Fin 512) (e : Fin 768) :
    ((cfg1.win 4).blk t).view.read (Elt F) G (ix3 (0 : Fin 1) r e) = G (ix3 (gb t) (rowAt (gs t) r) e) := by
  obtain ⟨e0, e1, e2⟩ := idx1_4 t
  show G (((cfg1.win 4).blk t).view.emb (ix3 (0 : Fin 1) r e)) = _
  refine congrArg G (funext fun a => Fin.ext ?_)
  match a with
  | ⟨0, _⟩ => show win1_4.index t (0 : Fin 3) * 1 + 1 * 0 = (gb t).val; omega
  | ⟨1, _⟩ => show win1_4.index t (1 : Fin 3) * 512 + 1 * r.val = 512 * (gs t).val + r.val; omega
  | ⟨2, _⟩ => show win1_4.index t (2 : Fin 3) * 768 + 1 * e.val = e.val; omega

/-- An index of the output array is in point t's block iff each coordinate is in the block's range on its axis. -/
theorem mem_blk1_4 (t : Fin cfg1.N) (i : S4x2048x768.Idx) :
    i ∈ ((cfg1.win 4).blk t).view.set ↔ ∀ a : Fin 3, win1_4.index t a * S1x512x768.size a ≤ (i a).val
      ∧ (i a).val < win1_4.index t a * S1x512x768.size a + S1x512x768.size a := by
  show i ∈ ((View.whole main_v4).slice (win1_4.rect t)).set ↔ _
  rw [View.set_slice_whole, Rect.mem_set_unit]
  exact Iff.rfl

/-- Every index of the output array is in the block of a point that writes back: the point of its batch and its
    tile at the last head pair. -/
theorem cover1_4 (i : S4x2048x768.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 768 := (i 2).isLt
  obtain ⟨t, ht5, ht⟩ := idx1_4_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, (flush1_4 t).mpr ht5, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 768 ≤ (i 2).val ∧ (i 2).val < win1_4.index t (2 : Fin 3) * 768 + 768; omega

/-- The covering point by its coordinates. -/
theorem cover1_4_coords (i : S4x2048x768.Idx) (t : Fin cfg1.N) (hi : i ∈ ((cfg1.win 4).blk t).view.set) :
    (gb t).val = (i 0).val ∧ (gs t).val = (i 1).val / 512 := by
  rw [mem_blk1_4] at hi
  obtain ⟨e0, e1, e2⟩ := idx1_4 t
  have b0 : win1_4.index t (0 : Fin 3) * 1 ≤ (i 0).val ∧ (i 0).val < win1_4.index t (0 : Fin 3) * 1 + 1 := hi 0
  have b1 : win1_4.index t (1 : Fin 3) * 512 ≤ (i 1).val ∧ (i 1).val < win1_4.index t (1 : Fin 3) * 512 + 512 := hi 1
  omega

end Cert.KernelIdeal.Blocks

end
-- ==== Proof.AttnReal.lean ====
/- Extended reals that are real numbers, and the closure of that property under the exact
   operations an attention layer is made of: sums, differences, products, finite sums, the exponential,
   the quotient by a nonzero real, and the maximum of a nonempty finite family taken from the bottom
   element. The law that lets a row of softmax weights be normalised before or after the product with
   the values holds for real entries only (it fails at an infinity), so realness is carried along. -/
import Idealize.ShloMosaic.PureOps.Ideal
import Idealize.ShloMosaic.PureOps.Ideal.Laws

noncomputable section

namespace Cert.Attn

open Idealize.ShloMosaic
open scoped BigOperators

/-- An extended real that is a real number: neither infinity. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Conversely an extended real that is neither infinity is a real. -/
theorem isReal_of_ne {x : EReal} (ht : x ≠ ⊤) (hb : x ≠ ⊥) : IsReal x := by
  induction x using EReal.rec with
  | bot => exact absurd rfl hb
  | top => exact absurd rfl ht
  | coe r => exact ⟨r, rfl⟩

theorem isReal_iff {x : EReal} : IsReal x ↔ x ≠ ⊤ ∧ x ≠ ⊥ :=
  ⟨fun h => ⟨h.ne_top, h.ne_bot⟩, fun h => isReal_of_ne h.1 h.2⟩

/-! ### Sums, differences, products -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- The inclusion of the reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum over a whole finite index type. -/
theorem IsReal.sum_univ {ι : Type*} [Fintype ι] (f : ι → EReal) (h : ∀ i, IsReal (f i)) :
    IsReal (∑ i, f i) :=
  IsReal.sum _ f fun i _ => h i

/-- A contraction of two real families — one entry of a matrix product — is a real. -/
theorem IsReal.sum_mul {ι : Type*} [Fintype ι] (f g : ι → EReal) (hf : ∀ i, IsReal (f i))
    (hg : ∀ i, IsReal (g i)) : IsReal (∑ i, f i * g i) :=
  IsReal.sum_univ _ fun i => (hf i).mul (hg i)

/-- Real witnesses for a family of reals, all at once. -/
theorem exists_real_family {ι : Type*} (f : ι → EReal) (h : ∀ i, IsReal (f i)) :
    ∃ g : ι → ℝ, f = fun i => (g i : EReal) := by
  choose g hg using h
  exact ⟨g, funext hg⟩

/-! ### The exponential -/

theorem IsReal.exp {x : EReal} (h : IsReal x) : IsReal (Ideal.exp x) := by
  obtain ⟨r, rfl⟩ := h; exact ⟨Real.exp r, Ideal.exp_coe r⟩

theorem exp_pos_of_isReal {x : EReal} (h : IsReal x) : 0 < Ideal.exp x := by
  obtain ⟨r, rfl⟩ := h
  rw [Ideal.exp_coe]
  exact EReal.coe_pos.mpr (Real.exp_pos r)

/-! ### The quotient -/

/-- The exact quotient by a nonzero real is the product with the reciprocal. -/
theorem div_real {y : ℝ} (hy : y ≠ 0) (x : EReal) : Ideal.div x (y : EReal) = x * ((y⁻¹ : ℝ) : EReal) := by
  rw [Ideal.div_coe hy, one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e, EReal.coe_zero])
  rw [div_real hb]
  exact (isReal_coe a).mul (isReal_coe _)

/-- The quotient of a positive real by a positive real is positive. -/
theorem div_pos_of_isReal {x y : EReal} (hx : IsReal x) (hy : IsReal y) (hx0 : 0 < x) (hy0 : 0 < y) :
    0 < Ideal.div x y := by
  obtain ⟨a, rfl⟩ := hx; obtain ⟨b, rfl⟩ := hy
  have ha : 0 < a := EReal.coe_pos.mp hx0
  have hb : 0 < b := EReal.coe_pos.mp hy0
  rw [div_real hb.ne', ← EReal.coe_mul]
  exact EReal.coe_pos.mpr (mul_pos ha (inv_pos.mpr hb))

/-! ### The square root -/

theorem IsReal.sqrt {x : EReal} (hx : IsReal x) (h0 : 0 ≤ x) : IsReal (Ideal.sqrt x) := by
  obtain ⟨a, rfl⟩ := hx
  rw [Ideal.sqrt_coe, if_neg (not_lt.mpr (EReal.coe_nonneg.mp h0))]
  exact isReal_coe _

/-! ### The maximum of a finite family, taken from the bottom element

Both programs take a row's maximum as the fold of `max` over the row's indices from `-∞`. -/

/-- The fold of `max` from `⊥` over a nonempty finite set is attained at one of its members. -/
theorem fold_max_bot_attained {ι : Type*} (S : Finset ι) (f : ι → EReal) (hS : S.Nonempty) :
    ∃ t ∈ S, S.fold max ⊥ f = f t := by
  classical
  induction S using Finset.induction_on with
  | empty => exact absurd hS Finset.not_nonempty_empty
  | insert a S ha ih =>
    rw [Finset.fold_insert ha]
    rcases S.eq_empty_or_nonempty with rfl | hne
    · exact ⟨a, Finset.mem_insert_self _ _, by rw [Finset.fold_empty, max_bot_right]⟩
    · obtain ⟨t, ht, e⟩ := ih hne
      rw [e]
      rcases max_choice (f a) (f t) with h | h
      · exact ⟨a, Finset.mem_insert_self _ _, h⟩
      · exact ⟨t, Finset.mem_insert_of_mem ht, h⟩

/-- So over a nonempty set of reals it is a real. -/
theorem isReal_fold_max_bot {ι : Type*} (S : Finset ι) (f : ι → EReal) (hS : S.Nonempty)
    (h : ∀ i ∈ S, IsReal (f i)) : IsReal (S.fold max ⊥ f) := by
  obtain ⟨t, ht, e⟩ := fold_max_bot_attained S f hS
  rw [e]; exact h t ht

/-- Every member is below the fold, whatever it starts from. -/
theorem le_fold_max_of_mem {ι : Type*} (S : Finset ι) (b : EReal) (f : ι → EReal) {t : ι} (ht : t ∈ S) :
    f t ≤ S.fold max b f :=
  (Finset.le_fold_max (f t)).mpr (Or.inr ⟨t, ht, le_rfl⟩)

/-- Taking the maximum with `⊥` once more changes nothing. -/
theorem max_bot_fold {ι : Type*} (S : Finset ι) (f : ι → EReal) :
    max ⊥ (S.fold max ⊥ f) = S.fold max ⊥ f :=
  max_bot_left _

end Cert.Attn

end
-- ==== Proof.AttnSoftmax.lean ====
/- One row of softmax attention on the extended reals. For a row of real scores `s`, a real shift `m`
   (the programs use the row's maximum) and real values `v`, the weights are `p t = exp (s t - m)` and their
   sum `l` is a positive real. Dividing the weighted sum of the values by `l` (normalising after the product)
   and weighting the values by `p t / l` (normalising before it) give the same real: both are
   `(∑ p t · v t) · l⁻¹`. The law needs every entry real: at an infinity a product `0 · ∞` or a sum
   `∞ - ∞` breaks distributivity. -/
import proofs.«110615_j10857677324557_2_alg».proof.Proof.AttnReal

noncomputable section

namespace Cert.Attn

open Idealize.ShloMosaic
open scoped BigOperators

variable {ι : Type*} [Fintype ι]

/-- A finite nonempty sum of positive reals is positive. -/
theorem sum_pos_of_isReal [Nonempty ι] (f : ι → EReal) (hf : ∀ t, IsReal (f t)) (hpos : ∀ t, 0 < f t) :
    0 < ∑ t, f t := by
  obtain ⟨g, rfl⟩ := exists_real_family f hf
  have hg : ∀ t, 0 < g t := fun t => EReal.coe_pos.mp (hpos t)
  rw [← coe_finset_sum]
  exact EReal.coe_pos.mpr (Finset.sum_pos (fun t _ => hg t) Finset.univ_nonempty)

/-- Dividing a contraction by a nonzero real, or dividing its left factors first: the same real. -/
theorem div_sum_mul (p v : ι → EReal) (l : EReal) (hp : ∀ t, IsReal (p t)) (hv : ∀ t, IsReal (v t))
    (hl : IsReal l) (hl0 : l ≠ 0) :
    Ideal.div (∑ t, p t * v t) l = ∑ t, Ideal.div (p t) l * v t := by
  obtain ⟨pr, rfl⟩ := exists_real_family p hp
  obtain ⟨vr, rfl⟩ := exists_real_family v hv
  obtain ⟨lr, rfl⟩ := hl
  have hlr : lr ≠ 0 := fun e => hl0 (by rw [e, EReal.coe_zero])
  simp only [div_real hlr, ← EReal.coe_mul, ← coe_finset_sum]
  rw [Finset.sum_mul]
  exact congrArg _ (Finset.sum_congr rfl fun t _ => by ring)

/-- The same with the factors of each product in the other order. -/
theorem div_sum_mul' (p v : ι → EReal) (l : EReal) (hp : ∀ t, IsReal (p t)) (hv : ∀ t, IsReal (v t))
    (hl : IsReal l) (hl0 : l ≠ 0) :
    Ideal.div (∑ t, v t * p t) l = ∑ t, v t * Ideal.div (p t) l := by
  simp only [mul_comm (v _)]
  exact div_sum_mul p v l hp hv hl hl0

/-! ### The weights of one row -/

/-- Each weight `exp (s t - m)` is a real … -/
theorem isReal_exp_sub {s m : EReal} (hs : IsReal s) (hm : IsReal m) : IsReal (Ideal.exp (s - m)) :=
  (hs.sub hm).exp

/-- … and positive. -/
theorem exp_sub_pos {s m : EReal} (hs : IsReal s) (hm : IsReal m) : 0 < Ideal.exp (s - m) :=
  exp_pos_of_isReal (hs.sub hm)

/-- The weights' sum is a real … -/
theorem isReal_sum_exp_sub (s : ι → EReal) (m : EReal) (hs : ∀ t, IsReal (s t)) (hm : IsReal m) :
    IsReal (∑ t, Ideal.exp (s t - m)) :=
  IsReal.sum_univ _ fun t => isReal_exp_sub (hs t) hm

/-- … positive over a nonempty row … -/
theorem sum_exp_sub_pos [Nonempty ι] (s : ι → EReal) (m : EReal) (hs : ∀ t, IsReal (s t)) (hm : IsReal m) :
    0 < ∑ t, Ideal.exp (s t - m) :=
  sum_pos_of_isReal _ (fun t => isReal_exp_sub (hs t) hm) fun t => exp_sub_pos (hs t) hm

/-- … hence not zero. -/
theorem sum_exp_sub_ne_zero [Nonempty ι] (s : ι → EReal) (m : EReal) (hs : ∀ t, IsReal (s t)) (hm : IsReal m) :
    (∑ t, Ideal.exp (s t - m)) ≠ 0 :=
  (sum_exp_sub_pos s m hs hm).ne'

/-- The row's maximum — the fold of `max` over the row from `⊥` — is a real when the row is real and nonempty. -/
theorem isReal_rowMax [Nonempty ι] (s : ι → EReal) (hs : ∀ t, IsReal (s t)) :
    IsReal ((Finset.univ : Finset ι).fold max ⊥ s) :=
  isReal_fold_max_bot _ s Finset.univ_nonempty fun t _ => hs t

/-- Every score is at most the row's maximum. -/
theorem le_rowMax (s : ι → EReal) (t : ι) : s t ≤ (Finset.univ : Finset ι).fold max ⊥ s :=
  le_fold_max_of_mem _ ⊥ s (Finset.mem_univ t)

/-! ### The row law -/

/-- Softmax attention on one row, for any real shift `m`: the weighted sum of the values divided by the
    weights' sum is the sum of the values weighted by the normalised weights. -/
theorem softmax_row [Nonempty ι] (s v : ι → EReal) (m : EReal) (hs : ∀ t, IsReal (s t)) (hv : ∀ t, IsReal (v t))
    (hm : IsReal m) :
    Ideal.div (∑ t, Ideal.exp (s t - m) * v t) (∑ t, Ideal.exp (s t - m))
      = ∑ t, Ideal.div (Ideal.exp (s t - m)) (∑ t', Ideal.exp (s t' - m)) * v t :=
  div_sum_mul _ v _ (fun t => isReal_exp_sub (hs t) hm) hv (isReal_sum_exp_sub s m hs hm)
    (sum_exp_sub_ne_zero s m hs hm)

/-- The same with the row's maximum as the shift, the form both programs compute. -/
theorem softmax_row_max [Nonempty ι] (s v : ι → EReal) (hs : ∀ t, IsReal (s t)) (hv : ∀ t, IsReal (v t)) :
    Ideal.div (∑ t, Ideal.exp (s t - (Finset.univ : Finset ι).fold max ⊥ s) * v t)
        (∑ t, Ideal.exp (s t - (Finset.univ : Finset ι).fold max ⊥ s))
      = ∑ t, Ideal.div (Ideal.exp (s t - (Finset.univ : Finset ι).fold max ⊥ s))
          (∑ t', Ideal.exp (s t' - (Finset.univ : Finset ι).fold max ⊥ s)) * v t :=
  softmax_row s v _ hs hv (isReal_rowMax s hs)

/-- With each sum started from zero, as a sum-reduction with a zero initial value and a matrix product
    into a zero accumulator spell it. -/
theorem softmax_row_zero_add [Nonempty ι] (s v : ι → EReal) (m : EReal) (hs : ∀ t, IsReal (s t))
    (hv : ∀ t, IsReal (v t)) (hm : IsReal m) :
    Ideal.div (0 + ∑ t, Ideal.exp (s t - m) * v t) (0 + ∑ t, Ideal.exp (s t - m))
      = 0 + ∑ t, Ideal.div (Ideal.exp (s t - m)) (0 + ∑ t', Ideal.exp (s t' - m)) * v t := by
  simp only [zero_add]
  exact softmax_row s v m hs hv hm

/-- The result of a row is a real. -/
theorem isReal_softmax_row [Nonempty ι] (s v : ι → EReal) (m : EReal) (hs : ∀ t, IsReal (s t))
    (hv : ∀ t, IsReal (v t)) (hm : IsReal m) :
    IsReal (Ideal.div (∑ t, Ideal.exp (s t - m) * v t) (∑ t, Ideal.exp (s t - m))) :=
  (IsReal.sum_mul _ v (fun t => isReal_exp_sub (hs t) hm) hv).div (isReal_sum_exp_sub s m hs hm)
    (sum_exp_sub_ne_zero s m hs hm)

end Cert.Attn

end
-- ==== Proof.AttnSums.lean ====
/- Regrouping of finite sums in a commutative additive monoid (the extended reals are one; nothing here
   needs finiteness). The model width 768 is 12 heads of width 64, so a sum over the model axis is the sum
   over the heads of the sums over each head's 64 columns; a pair of heads occupies 128 columns, the first
   head the lower 64; and adding the heads' contributions one after another into a zero accumulator is
   their sum. -/
import Idealize.ShloMosaic.PureOps.Ideal
import Mathlib.Algebra.BigOperators.Fin

namespace Cert.Attn

open scoped BigOperators

variable {M : Type*} [AddCommMonoid M]

/-- A sum over the 768 model columns, head by head: column `64 h + dd` is column `dd` of head `h`. -/
theorem sum_fin768_heads (f : Fin 768 → M) :
    ∑ d : Fin 768, f d
      = ∑ h : Fin 12, ∑ dd : Fin 64, f ⟨64 * h.val + dd.val, by have := h.isLt; have := dd.isLt; omega⟩ := by
  rw [← (finProdFinEquiv : Fin 12 × Fin 64 ≃ Fin 768).sum_comp f, Fintype.sum_prod_type]
  refine Finset.sum_congr rfl fun h _ => Finset.sum_congr rfl fun dd _ => congrArg f (Fin.ext ?_)
  show dd.val + 64 * h.val = 64 * h.val + dd.val
  omega

/-- The same over a function of the natural-number column. -/
theorem sum_fin768_heads_nat (g : ℕ → M) :
    ∑ d : Fin 768, g d.val = ∑ h : Fin 12, ∑ dd : Fin 64, g (64 * h.val + dd.val) :=
  sum_fin768_heads fun d => g d.val

/-- A sum over the 128 columns of a pair of heads: the lower 64 and the upper 64. -/
theorem sum_fin128_halves (f : Fin 128 → M) :
    ∑ k : Fin 128, f k
      = ∑ dd : Fin 64, f ⟨dd.val, by have := dd.isLt; omega⟩
        + ∑ dd : Fin 64, f ⟨64 + dd.val, by have := dd.isLt; omega⟩ :=
  Fin.sum_univ_add (a := 64) (b := 64) f

/-- The twelve heads as six pairs: head `2 q` and head `2 q + 1`. -/
theorem sum_fin12_pairs (c : Fin 12 → M) :
    ∑ h : Fin 12, c h
      = ∑ q : Fin 6, (c ⟨2 * q.val, by have := q.isLt; omega⟩ + c ⟨2 * q.val + 1, by have := q.isLt; omega⟩) := by
  rw [Finset.sum_add_distrib, ← (finProdFinEquiv : Fin 6 × Fin 2 ≃ Fin 12).sum_comp c, Fintype.sum_prod_type]
  simp only [Fin.sum_univ_two, Finset.sum_add_distrib]
  rfl

/-! ### Accumulating one term after another -/

/-- Adding the terms of a family one after another, from zero, as a left fold over its list: the sum. -/
theorem foldl_add_ofFn {n : ℕ} (c : Fin n → M) : (List.ofFn c).foldl (· + ·) 0 = ∑ h, c h := by
  rw [← List.sum_eq_foldl, List.sum_ofFn]

/-- The same as a fold over the indices. -/
theorem fin_foldl_add {n : ℕ} (c : Fin n → M) : Fin.foldl n (fun a h => a + c h) 0 = ∑ h, c h := by
  induction n with
  | zero => simp
  | succ n ih => rw [Fin.foldl_succ_last, Fin.sum_univ_castSucc, ih]

/-- Twelve terms written out. -/
theorem nested_add_fin12 (c : Fin 12 → M) :
    ((((((((((((0 + c 0) + c 1) + c 2) + c 3) + c 4) + c 5) + c 6) + c 7) + c 8) + c 9) + c 10) + c 11)
      = ∑ h, c h := by
  simp only [Fin.sum_univ_castSucc, Fin.sum_univ_zero]
  rfl

/-- An accumulator that starts at zero and takes two heads' terms at each of six steps ends at the sum
    over the twelve heads. -/
theorem pair_steps (c : Fin 12 → M) (a : ℕ → M) (h0 : a 0 = 0)
    (hstep : ∀ (n : ℕ) (hn : n < 6), a (n + 1) = (a n + c ⟨2 * n, by omega⟩) + c ⟨2 * n + 1, by omega⟩) :
    a 6 = ∑ h, c h := by
  rw [hstep 5 (by omega), hstep 4 (by omega), hstep 3 (by omega), hstep 2 (by omega), hstep 1 (by omega),
    hstep 0 (by omega), h0]
  exact nested_add_fin12 c

end Cert.Attn
-- ==== Proof.AttnScale.lean ====
/- The float constants the two attention programs spell, as the extended reals their patterns denote,
   and the scale of the scores: the reference computes `1 / √64` and the kernel writes the constant
   `0.125`; both are the real `1/8`. -/
import proofs.«110615_j10857677324557_2_alg».proof.Proof.AttnReal

noncomputable section

namespace Cert.Attn

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `64.0` denotes the real `64`. -/
theorem ofBits_sixtyFour : Ideal.ofBits .f32 0x42800000#32 = ((64 : ℝ) : EReal) := by
  simp [Ideal.ofBits, Ideal.ieee, -EReal.coe_mul]; norm_num

/-- The pattern of `0.125` denotes the real `1/8`. -/
theorem ofBits_eighth : Ideal.ofBits .f32 0x3E000000#32 = ((8⁻¹ : ℝ) : EReal) := by
  simp [Ideal.ofBits, Ideal.ieee, -EReal.coe_mul]; norm_num

/-- The pattern of `-∞`, from which both programs start a row's maximum, denotes `⊥`. -/
theorem ofBits_negInf : Ideal.ofBits .f32 0xFF800000#32 = ⊥ := by
  simp [Ideal.ofBits, Ideal.ieee]

/-- The pattern of `+0.0`, from which sums start, denotes `0`. -/
theorem ofBits_zero : Ideal.ofBits .f32 0x00000000#32 = 0 := Ideal.ofBits_zero_f32

/-- `√64 = 8`. -/
theorem sqrt_sixtyFour : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- The reference's scale `1.0 / √64.0` is the kernel's constant `0.125`. -/
theorem scale_eq :
    Ideal.div (Ideal.ofBits .f32 0x3F800000#32) (Ideal.sqrt (Ideal.ofBits .f32 0x42800000#32))
      = Ideal.ofBits .f32 0x3E000000#32 := by
  rw [ofBits_one, ofBits_sixtyFour, sqrt_sixtyFour, ofBits_eighth, Ideal.div_coe (by norm_num : (8 : ℝ) ≠ 0),
    one_mul, one_div]

/-- The same in the programs' own operations: the host's quotient and square root of the two constants. -/
theorem scale_eq_fields :
    FloatOps.hostDivf (F := Ideal) (φ := .f32) (FloatOps.ofBits .f32 0x3F800000#32)
        (FloatOps.hostUnary .sqrt (FloatOps.ofBits .f32 0x42800000#32))
      = FloatOps.ofBits .f32 0x3E000000#32 :=
  scale_eq

/-- The scale is a real. -/
theorem isReal_scale : IsReal (Ideal.ofBits .f32 0x3E000000#32) := by
  rw [ofBits_eighth]; exact isReal_coe _

end Cert.Attn

end
-- ==== Proof.AttnRefLaws.lean ====
/- Laws of the attention specification (the named stages of the reference's value) when every entry of the three
   arguments is a real. Every stage is then a real: the projections are finite sums of products of reals, the
   scores a finite sum of products times the real scale `1/8`, a row's maximum is attained at one of its 2048
   scores, the weights' numerators are exponentials of reals and their sum is a positive real. Hence a head's
   output may be normalised after the product with the values instead of before it, and the output projection
   over the 768 model columns may be summed head by head, one head after another into a zero accumulator. -/
import proofs.«110615_j10857677324557_2_alg».proof.Proof.RefSpec
import proofs.«110615_j10857677324557_2_alg».proof.Proof.AttnSoftmax
import proofs.«110615_j10857677324557_2_alg».proof.Proof.AttnSums
import proofs.«110615_j10857677324557_2_alg».proof.Proof.AttnScale

noncomputable section

open scoped BigOperators

namespace Cert.Attn.Ref.Laws

open Idealize.ShloMosaic Idealize.ShloMosaic.ValueIdx Cert.Attn Cert.Attn.Ref

/-! ### Columns and heads -/

theorem headOf_hcol (h : Fin 12) (dd : Fin 64) : headOf (hcol h dd) = h :=
  Fin.ext (by show (h.val * 64 + dd.val) / 64 = h.val; have := dd.isLt; omega)

theorem laneOf_hcol (h : Fin 12) (dd : Fin 64) : laneOf (hcol h dd) = dd :=
  Fin.ext (by show (h.val * 64 + dd.val) % 64 = dd.val; have := dd.isLt; omega)

theorem hcol_headOf_laneOf (d : Fin 768) : hcol (headOf d) (laneOf d) = d :=
  Fin.ext (by show d.val / 64 * 64 + d.val % 64 = d.val; omega)

/-- A sum over the 768 model columns, head by head. -/
theorem sum_hcol {M : Type*} [AddCommMonoid M] (f : Fin 768 → M) :
    ∑ d : Fin 768, f d = ∑ h : Fin 12, ∑ dd : Fin 64, f (hcol h dd) := by
  rw [sum_fin768_heads f]
  refine Finset.sum_congr rfl fun h _ => Finset.sum_congr rfl fun dd _ => congrArg f (Fin.ext ?_)
  show 64 * h.val + dd.val = h.val * 64 + dd.val
  omega

/-! ### The scale -/

/-- The scale the specification keeps as written, `1 / √64`, is the constant `0.125`. -/
theorem scale_eq_eighth : Ref.scale = Ideal.ofBits .f32 0x3E000000#32 := Cert.Attn.scale_eq

theorem isReal_scale : IsReal Ref.scale := by rw [scale_eq_eighth]; exact Cert.Attn.isReal_scale

instance : Nonempty (Fin 2048) := ⟨⟨0, by norm_num⟩⟩

section Real
variable {X : ShX.Idx → EReal} {Win : ShWin.Idx → EReal} {Wout : ShWout.Idx → EReal}
variable (hX : ∀ i, IsReal (X i)) (hW : ∀ i, IsReal (Win i)) (hO : ∀ i, IsReal (Wout i))
include hX hW

/-! ### Every stage is a real -/

theorem isReal_qkv (b : Fin 4) (s : Fin 2048) (e : Fin 2304) : IsReal (qkv X Win b s e) :=
  IsReal.sum_mul _ _ (fun _ => hX _) (fun _ => hW _)

theorem isReal_q (b : Fin 4) (s : Fin 2048) (j : Fin 768) : IsReal (q X Win b s j) := isReal_qkv hX hW b s _
theorem isReal_k (b : Fin 4) (s : Fin 2048) (j : Fin 768) : IsReal (k X Win b s j) := isReal_qkv hX hW b s _
theorem isReal_v (b : Fin 4) (s : Fin 2048) (j : Fin 768) : IsReal (v X Win b s j) := isReal_qkv hX hW b s _

theorem isReal_scores (b : Fin 4) (h : Fin 12) (s t : Fin 2048) : IsReal (scores X Win b h s t) :=
  (IsReal.sum_mul _ _ (fun _ => isReal_q hX hW b s _) (fun _ => isReal_k hX hW b t _)).mul isReal_scale

omit hX hW in
/-- The scores with the scale as the constant `0.125`. -/
theorem scores_eq (b : Fin 4) (h : Fin 12) (s t : Fin 2048) :
    scores X Win b h s t
      = (∑ dd : Fin 64, q X Win b s (hcol h dd) * k X Win b t (hcol h dd)) * Ideal.ofBits .f32 0x3E000000#32 := by
  unfold scores; rw [scale_eq_eighth]

omit hX hW in
/-- A row's maximum is the fold of `max` over the row from `⊥`. -/
theorem rowMax_eq (b : Fin 4) (h : Fin 12) (s : Fin 2048) :
    rowMax X Win b h s = (Finset.univ : Finset (Fin 2048)).fold max ⊥ (fun t => scores X Win b h s t) := by
  unfold rowMax; rw [ofBits_negInf]

theorem isReal_rowMax (b : Fin 4) (h : Fin 12) (s : Fin 2048) : IsReal (rowMax X Win b h s) := by
  rw [rowMax_eq]
  exact Cert.Attn.isReal_rowMax _ fun t => isReal_scores hX hW b h s t

omit hX hW in
theorem scores_le_rowMax (b : Fin 4) (h : Fin 12) (s t : Fin 2048) : scores X Win b h s t ≤ rowMax X Win b h s := by
  rw [rowMax_eq]
  exact Cert.Attn.le_rowMax (fun t => scores X Win b h s t) t

theorem isReal_p (b : Fin 4) (h : Fin 12) (s t : Fin 2048) : IsReal (p X Win b h s t) :=
  isReal_exp_sub (isReal_scores hX hW b h s t) (isReal_rowMax hX hW b h s)

theorem p_pos (b : Fin 4) (h : Fin 12) (s t : Fin 2048) : 0 < p X Win b h s t :=
  exp_sub_pos (isReal_scores hX hW b h s t) (isReal_rowMax hX hW b h s)

theorem isReal_rowSum (b : Fin 4) (h : Fin 12) (s : Fin 2048) : IsReal (rowSum X Win b h s) :=
  IsReal.sum_univ _ fun t => isReal_p hX hW b h s t

theorem rowSum_pos (b : Fin 4) (h : Fin 12) (s : Fin 2048) : 0 < rowSum X Win b h s :=
  sum_pos_of_isReal _ (fun t => isReal_p hX hW b h s t) fun t => p_pos hX hW b h s t

theorem rowSum_ne_zero (b : Fin 4) (h : Fin 12) (s : Fin 2048) : rowSum X Win b h s ≠ 0 :=
  (rowSum_pos hX hW b h s).ne'

theorem isReal_weight (b : Fin 4) (h : Fin 12) (s t : Fin 2048) : IsReal (weight X Win b h s t) :=
  (isReal_p hX hW b h s t).div (isReal_rowSum hX hW b h s) (rowSum_ne_zero hX hW b h s)

theorem isReal_attnH (b : Fin 4) (h : Fin 12) (s : Fin 2048) (dd : Fin 64) : IsReal (attnH X Win b h s dd) :=
  IsReal.sum_mul _ _ (fun t => isReal_weight hX hW b h s t) (fun t => isReal_v hX hW b t _)

theorem isReal_attn (b : Fin 4) (s : Fin 2048) (d : Fin 768) : IsReal (attn X Win b s d) :=
  isReal_attnH hX hW b _ s _

/-! ### Normalising after the product -/

/-- A head's output: the weighted sum of the values with the unnormalised weights, divided by their sum. -/
theorem attnH_eq_div (b : Fin 4) (h : Fin 12) (s : Fin 2048) (dd : Fin 64) :
    attnH X Win b h s dd
      = Ideal.div (∑ t : Fin 2048, p X Win b h s t * v X Win b t (hcol h dd)) (rowSum X Win b h s) :=
  (div_sum_mul (fun t => p X Win b h s t) (fun t => v X Win b t (hcol h dd)) (rowSum X Win b h s)
    (fun t => isReal_p hX hW b h s t) (fun t => isReal_v hX hW b t _) (isReal_rowSum hX hW b h s)
    (rowSum_ne_zero hX hW b h s)).symm

omit hX hW in
/-! ### The output projection, head by head -/

/-- One head's contribution to entry (b, s, e) of the result. -/
def headTerm (X : ShX.Idx → EReal) (Win : ShWin.Idx → EReal) (Wout : ShWout.Idx → EReal)
    (b : Fin 4) (s : Fin 2048) (e : Fin 768) (h : Fin 12) : EReal :=
  ∑ dd : Fin 64, attnH X Win b h s dd * Wout (ix2 e (hcol h dd))

omit hX hW in
/-- The output projection is the sum of the twelve heads' contributions (no realness needed). -/
theorem out_eq_sum_heads (b : Fin 4) (s : Fin 2048) (e : Fin 768) :
    out X Win Wout b s e = ∑ h : Fin 12, headTerm X Win Wout b s e h := by
  unfold out headTerm
  rw [sum_hcol]
  refine Finset.sum_congr rfl fun h _ => Finset.sum_congr rfl fun dd _ => ?_
  show attnH X Win b (headOf (hcol h dd)) s (laneOf (hcol h dd)) * _ = _
  rw [headOf_hcol, laneOf_hcol]

omit hX hW in
/-- … which is the twelve contributions added one after another into a zero accumulator. -/
theorem out_eq_nested (b : Fin 4) (s : Fin 2048) (e : Fin 768) :
    out X Win Wout b s e
      = ((((((((((((0 + headTerm X Win Wout b s e 0) + headTerm X Win Wout b s e 1) + headTerm X Win Wout b s e 2)
          + headTerm X Win Wout b s e 3) + headTerm X Win Wout b s e 4) + headTerm X Win Wout b s e 5)
          + headTerm X Win Wout b s e 6) + headTerm X Win Wout b s e 7) + headTerm X Win Wout b s e 8)
          + headTerm X Win Wout b s e 9) + headTerm X Win Wout b s e 10) + headTerm X Win Wout b s e 11) := by
  rw [out_eq_sum_heads, nested_add_fin12]

omit hX hW in
/-- … and what an accumulator holds after six steps, each adding a pair of heads, from zero. -/
theorem out_eq_pair_steps (b : Fin 4) (s : Fin 2048) (e : Fin 768) (a : ℕ → EReal) (h0 : a 0 = 0)
    (hstep : ∀ (n : ℕ) (hn : n < 6), a (n + 1)
      = (a n + headTerm X Win Wout b s e ⟨2 * n, by omega⟩) + headTerm X Win Wout b s e ⟨2 * n + 1, by omega⟩) :
    a 6 = out X Win Wout b s e := by
  rw [out_eq_sum_heads]
  exact pair_steps (fun h => headTerm X Win Wout b s e h) a h0 hstep

/-- One head's contribution with the head's output normalised after the product. -/
theorem headTerm_eq_div (b : Fin 4) (s : Fin 2048) (e : Fin 768) (h : Fin 12) :
    headTerm X Win Wout b s e h
      = ∑ dd : Fin 64, Ideal.div (∑ t : Fin 2048, p X Win b h s t * v X Win b t (hcol h dd)) (rowSum X Win b h s)
          * Wout (ix2 e (hcol h dd)) := by
  unfold headTerm
  exact Finset.sum_congr rfl fun dd _ => by rw [attnH_eq_div hX hW]

include hO in
theorem isReal_headTerm (b : Fin 4) (s : Fin 2048) (e : Fin 768) (h : Fin 12) :
    IsReal (headTerm X Win Wout b s e h) :=
  IsReal.sum_mul _ _ (fun dd => isReal_attnH hX hW b h s dd) (fun _ => hO _)

include hO in
theorem isReal_out (b : Fin 4) (s : Fin 2048) (e : Fin 768) : IsReal (out X Win Wout b s e) :=
  IsReal.sum_mul _ _ (fun d => isReal_attn hX hW b s d) (fun _ => hO _)

end Real

end Cert.Attn.Ref.Laws

end
-- ==== Proof.AttnFinalI.lean ====
/-
  The attention region's result array. Along a tile's six head pairs the accumulator, at an entry, runs through
  the sequence that starts at 0 and adds two heads' terms per step; after head pair 5 it is the reference's output
  entry (the sum over the twelve heads), and that is what the point writes back. The written blocks cover the
  result array, so the array ends as the reference's output function of the three arguments.
-/
import proofs.«110615_j10857677324557_2_alg».proof.Proof.AttnSeqI
import proofs.«110615_j10857677324557_2_alg».proof.Proof.AttnBlocksI
import proofs.«110615_j10857677324557_2_alg».proof.Proof.AttnRefLaws

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open Cert.KernelIdeal.Blocks Cert.Attn Cert.Attn.Ref Cert.Attn.Ref.Laws

section
variable (V : (c : Dev nD) → (b : Ref sig .tc) → Buf (Elt Ideal) ((c : Thread nD τ).loc b)) (c : Dev nD)
  (X : ShX.Idx → EReal) (Win : ShWin.Idx → EReal) (Wout : ShWout.Idx → EReal)
  (hstep : ∀ (t : Fin cfg1.N) (a : Vec Ideal S512x768 .f32) (r : Fin 512) (e : Fin 768),
      stepAcc (F := Ideal) (iblk1 V c 0 t) (iblk1 V c 1 t) (iblk1 V c 2 t) (iblk1 V c 3 t) a (ix2 r e)
        = (a (ix2 r e) + headTerm X Win Wout (gb t) (rowAt (gs t) r) e ⟨2 * (gh t).val, by have := (gh t).isLt; omega⟩)
            + headTerm X Win Wout (gb t) (rowAt (gs t) r) e ⟨2 * (gh t).val + 1, by have := (gh t).isLt; omega⟩)

include hstep in
/-- After head pair 5 the accumulator holds the reference's output entries of the tile. -/
theorem acc_last (t : Fin cfg1.N) (h5 : t.val % 6 = 5) (r : Fin 512) (e : Fin 768) :
    accAt V c t.val t.isLt (ix2 r e) = out X Win Wout (gb t) (rowAt (gs t) r) e := by
  have hs := accAt_eq_pairSeq V c gb gs gh gh_val (fun t h => ⟨(point_pred t h).1, (point_pred t h).2.1⟩)
    (fun b si r e h => headTerm X Win Wout b (rowAt si r) e h) hstep r e t.val t.isLt
  have hg : (gh t).val = 5 := by rw [gh_val]; exact h5
  rw [hs]
  show pairSeq (fun h => headTerm X Win Wout (gb t) (rowAt (gs t) r) e h) ((gh t).val + 1) = _
  rw [hg]
  exact out_eq_pair_steps (gb t) (rowAt (gs t) r) e (pairSeq _) rfl (fun n hn => pairSeq_succ _ n hn)

/-- The reference's output function as contents of the result array. -/
abbrev resG : Buf (Elt Ideal) ((c : Thread nD τ).loc main_v4) := refOut X Win Wout

include hstep in
/-- What a writing point writes back is its block of the reference's output function. -/
theorem flushed_eq (t : Fin cfg1.N) (hf : (cfg1.win 4).flush t = true) :
    (dat1 V c).flushed 4 t = ((cfg1.win 4).blk t).view.read (Elt Ideal) (resG c X Win Wout) := by
  have h5 : t.val % 6 = 5 := (flush1_4 t).mp hf
  funext y
  obtain ⟨z, r, e, rfl⟩ : ∃ (z : Fin 1) (r : Fin 512) (e : Fin 768), y = ix3 z r e := ⟨y 0, y 1, y 2, eq_ix3 y⟩
  obtain rfl : z = 0 := Subsingleton.elim _ _
  rw [oblk1_4_read c (resG c X Win Wout) t r e]
  show (dat1 V c).after 4 t (ix3 0 r e) = _
  rw [after1_4, outsAt_fst_eq V c t h5, Cert.Attn.Ker.k1_pay3_read, acc_last V c X Win Wout hstep t h5 r e]
  rfl

include hstep in
/-- The result array after the region. -/
theorem final4 : (dat1 V c).arrAt 4 cfg1.N = resG c X Win Wout :=
  (dat1 V c).arrAt_eq_of_cover 4 (resG c X Win Wout) (fun t hf => flushed_eq V c X Win Wout hstep t hf) cover1_4

end

end Cert.KernelIdeal.Run

end
-- ==== Proof.AttnKerLaws.lean ====
/- The specification's head, read on a tile of query rows, is the head as the kernel computes it on blocks.
   For any placement `σ` of the tile's 512 rows among the 2048 positions, the queries of rows `σ r`, and the
   keys and values of all positions, restricted to head `h`'s 64 columns, have the same scores (the scale
   `1 / √64` is the constant `0.125`), hence the same row maxima, weights and normalisers; and for real
   arguments the specification's output, normalised before the product with the values, is the block
   computation's, normalised after it. -/
import proofs.«110615_j10857677324557_2_alg».proof.Proof.KerSpec
import proofs.«110615_j10857677324557_2_alg».proof.Proof.AttnRefLaws

noncomputable section

open scoped BigOperators

namespace Cert.Attn.Ker.Laws

open Idealize.ShloMosaic Idealize.ShloMosaic.ValueIdx Cert.Attn Cert.Attn.Ref Cert.Attn.Ref.Laws

/-- Row `r` of the `si`-th tile of 512 query positions. -/
abbrev srow (si : Fin 4) (r : Fin 512) : Fin 2048 := ⟨512 * si.val + r.val, by have := si.isLt; have := r.isLt; omega⟩

section Tile
variable (X : ShX.Idx → EReal) (Win : ShWin.Idx → EReal) (b : Fin 4) (h : Fin 12) (σ : Fin 512 → Fin 2048)

/-- Head `h`'s queries on the tile's rows. -/
def qTile : Fin 512 → Fin 64 → EReal := fun r dd => q X Win b (σ r) (hcol h dd)
/-- Head `h`'s keys at every position. -/
def kHead : Fin 2048 → Fin 64 → EReal := fun t dd => k X Win b t (hcol h dd)
/-- Head `h`'s values at every position. -/
def vHead : Fin 2048 → Fin 64 → EReal := fun t dd => v X Win b t (hcol h dd)

theorem scores_eq_scoresK (r : Fin 512) (t : Fin 2048) :
    scores X Win b h (σ r) t = scoresK (qTile X Win b h σ) (kHead X Win b h) r t :=
  scores_eq b h (σ r) t

theorem rowMax_eq_rowMaxK (r : Fin 512) :
    rowMax X Win b h (σ r) = rowMaxK (qTile X Win b h σ) (kHead X Win b h) r := by
  unfold rowMax rowMaxK
  exact congrArg (fun f => Finset.fold max (Ideal.ofBits .f32 0xFF800000#32) f (Finset.univ : Finset (Fin 2048)))
    (funext fun t => scores_eq_scoresK X Win b h σ r t)

theorem p_eq_pK (r : Fin 512) (t : Fin 2048) :
    p X Win b h (σ r) t = pK (qTile X Win b h σ) (kHead X Win b h) r t := by
  unfold p pK
  rw [scores_eq_scoresK, rowMax_eq_rowMaxK]

theorem rowSum_eq_rowSumK (r : Fin 512) :
    rowSum X Win b h (σ r) = rowSumK (qTile X Win b h σ) (kHead X Win b h) r := by
  unfold rowSum rowSumK
  exact Finset.sum_congr rfl fun t _ => p_eq_pK X Win b h σ r t

end Tile

section Real
variable {X : ShX.Idx → EReal} {Win : ShWin.Idx → EReal} {Wout : ShWout.Idx → EReal}
variable (hX : ∀ i, IsReal (X i)) (hW : ∀ i, IsReal (Win i))
include hX hW

/-- For real arguments the specification's head on the tile is the block computation's head. -/
theorem attnH_eq_headK (b : Fin 4) (h : Fin 12) (σ : Fin 512 → Fin 2048) (r : Fin 512) (dd : Fin 64) :
    attnH X Win b h (σ r) dd = headK (qTile X Win b h σ) (kHead X Win b h) (vHead X Win b h) r dd := by
  rw [attnH_eq_div hX hW]
  unfold headK
  rw [rowSum_eq_rowSumK]
  exact congrArg (fun z => Ideal.div z _) (Finset.sum_congr rfl fun t _ => by rw [p_eq_pK]; rfl)

/-- The same at row `r` of the `si`-th tile. -/
theorem attnH_srow_eq_headK (b : Fin 4) (h : Fin 12) (si : Fin 4) (r : Fin 512) (dd : Fin 64) :
    attnH X Win b h (srow si r) dd
      = headK (qTile X Win b h (srow si)) (kHead X Win b h) (vHead X Win b h) r dd :=
  attnH_eq_headK hX hW b h (srow si) r dd

/-- One head's contribution to the result on the tile, from the block computation's head. -/
theorem headTerm_eq_headK (b : Fin 4) (h : Fin 12) (σ : Fin 512 → Fin 2048) (r : Fin 512) (e : Fin 768) :
    headTerm X Win Wout b (σ r) e h
      = ∑ dd : Fin 64, headK (qTile X Win b h σ) (kHead X Win b h) (vHead X Win b h) r dd * Wout (ix2 e (hcol h dd)) := by
  unfold headTerm
  exact Finset.sum_congr rfl fun dd _ => by rw [attnH_eq_headK hX hW]

/-- The block computation's head is a real. -/
theorem isReal_headK (b : Fin 4) (h : Fin 12) (σ : Fin 512 → Fin 2048) (r : Fin 512) (dd : Fin 64) :
    IsReal (headK (qTile X Win b h σ) (kHead X Win b h) (vHead X Win b h) r dd) := by
  rw [← attnH_eq_headK hX hW]; exact isReal_attnH hX hW b h (σ r) dd

end Real

end Cert.Attn.Ker.Laws

end
-- ==== Proof.AttnStepI.lean ====
/- One step of the attention region at an entry. At grid point (b, si, hp) the body adds to the accumulator the
   contributions of heads 2·hp and 2·hp + 1: the two heads lying side by side in the point's 128-lane blocks, each
   against its 64 rows of the transposed output weight. Read on the point's blocks, with the three projected arrays
   the specification's queries, keys and values and the weight array the transposed output weights, each addend is
   the specification's head term at row 512·si + r of batch b. -/
import proofs.«110615_j10857677324557_2_alg».proof.Proof.AttnPiecesI
import proofs.«110615_j10857677324557_2_alg».proof.Proof.AttnBlocksI
import proofs.«110615_j10857677324557_2_alg».proof.Proof.KerPay
import proofs.«110615_j10857677324557_2_alg».proof.Proof.AttnKerLaws

noncomputable section

open scoped BigOperators

namespace Cert.KernelIdeal.Step

open Idealize.ShloMosaic Idealize.ShloMosaic.TcCoe Idealize.ShloMosaic.ValueIdx Idealize.SL.Sem
open Cert.KernelIdeal Cert.KernelIdeal.Gen Cert.KernelIdeal.Run Cert.KernelIdeal.Blocks
open Cert.Attn Cert.Attn.Ref Cert.Attn.Ref.Laws Cert.Attn.Ker Cert.Attn.Ker.Laws

/-! ## The step over variables -/

/-- The two heads' steps at (r, e): the accumulator, plus the first head on lanes 0 to 63 against weight rows 0 to
    63, plus the second head on lanes 64 to 127 against weight rows 64 to 127. -/
theorem stepAcc_read (v3 : Vec Ideal S1x512x128 .bf16) (v5 v7 : Vec Ideal S1x2048x128 .bf16) (v9 : Vec Ideal S128x768 .bf16)
    (a : Vec Ideal S512x768 .f32) (r : Fin 512) (e : Fin 768) :
    stepAcc (F := Ideal) v3 v5 v7 v9 a (ix2 r e)
      = (a (ix2 r e) + ∑ dd : Fin 64, headK (fun r dd => v3 (ix3 (0 : Fin 1) r (loLane dd))) (fun t dd => v5 (ix3 (0 : Fin 1) t (loLane dd))) (fun t dd => v7 (ix3 (0 : Fin 1) t (loLane dd))) r dd * v9 (ix2 (loLane dd) e))
        + ∑ dd : Fin 64, headK (fun r dd => v3 (ix3 (0 : Fin 1) r (hiLane dd))) (fun t dd => v5 (ix3 (0 : Fin 1) t (hiLane dd))) (fun t dd => v7 (ix3 (0 : Fin 1) t (hiLane dd))) r dd * v9 (ix2 (hiLane dd) e) := by
  unfold stepAcc
  rw [k1_pay2_read, k1_pay1_read, k1_pay10_read]

/-- The same with each head's operands known by coordinates. -/
theorem stepAcc_read_of (v3 : Vec Ideal S1x512x128 .bf16) (v5 v7 : Vec Ideal S1x2048x128 .bf16) (v9 : Vec Ideal S128x768 .bf16)
    (a : Vec Ideal S512x768 .f32) (r : Fin 512) (e : Fin 768)
    (qa qb : Fin 512 → Fin 64 → EReal) (ka va kb vb : Fin 2048 → Fin 64 → EReal) (wa wb : Fin 64 → EReal)
    (hqa : ∀ r dd, v3 (ix3 (0 : Fin 1) r (loLane dd)) = qa r dd) (hka : ∀ t dd, v5 (ix3 (0 : Fin 1) t (loLane dd)) = ka t dd)
    (hva : ∀ t dd, v7 (ix3 (0 : Fin 1) t (loLane dd)) = va t dd) (hwa : ∀ dd, v9 (ix2 (loLane dd) e) = wa dd)
    (hqb : ∀ r dd, v3 (ix3 (0 : Fin 1) r (hiLane dd)) = qb r dd) (hkb : ∀ t dd, v5 (ix3 (0 : Fin 1) t (hiLane dd)) = kb t dd)
    (hvb : ∀ t dd, v7 (ix3 (0 : Fin 1) t (hiLane dd)) = vb t dd) (hwb : ∀ dd, v9 (ix2 (hiLane dd) e) = wb dd) :
    stepAcc (F := Ideal) v3 v5 v7 v9 a (ix2 r e)
      = (a (ix2 r e) + ∑ dd : Fin 64, headK qa ka va r dd * wa dd) + ∑ dd : Fin 64, headK qb kb vb r dd * wb dd := by
  rw [stepAcc_read,
    show (fun r dd => v3 (ix3 (0 : Fin 1) r (loLane dd))) = qa from funext fun r => funext fun dd => hqa r dd,
    show (fun t dd => v5 (ix3 (0 : Fin 1) t (loLane dd))) = ka from funext fun t => funext fun dd => hka t dd,
    show (fun t dd => v7 (ix3 (0 : Fin 1) t (loLane dd))) = va from funext fun t => funext fun dd => hva t dd,
    show (fun r dd => v3 (ix3 (0 : Fin 1) r (hiLane dd))) = qb from funext fun r => funext fun dd => hqb r dd,
    show (fun t dd => v5 (ix3 (0 : Fin 1) t (hiLane dd))) = kb from funext fun t => funext fun dd => hkb t dd,
    show (fun t dd => v7 (ix3 (0 : Fin 1) t (hiLane dd))) = vb from funext fun t => funext fun dd => hvb t dd]
  exact congrArg₂ (· + ·)
    (congrArg (a (ix2 r e) + ·) (Finset.sum_congr rfl fun dd _ => by rw [hwa]))
    (Finset.sum_congr rfl fun dd _ => by rw [hwb])

/-! ## Lanes of a head pair and columns of a head -/

/-- The first head of pair hp is head 2·hp: its column dd is lane dd of the pair's 128 columns. -/
theorem hcol_even (hp : Fin 6) (dd : Fin 64) :
    hcol ⟨2 * hp.val, by have := hp.isLt; omega⟩ dd = colAt hp (loLane dd) :=
  Fin.ext (by show 2 * hp.val * 64 + dd.val = 128 * hp.val + dd.val; omega)

/-- The second head of pair hp is head 2·hp + 1: its column dd is lane 64 + dd. -/
theorem hcol_odd (hp : Fin 6) (dd : Fin 64) :
    hcol ⟨2 * hp.val + 1, by have := hp.isLt; omega⟩ dd = colAt hp (hiLane dd) :=
  Fin.ext (by show (2 * hp.val + 1) * 64 + dd.val = 128 * hp.val + (64 + dd.val); omega)

/-! ## The step on the point's blocks -/

theorem step_read (V : (c : Dev nD) → (b : Ref sig .tc) → Buf (Elt Ideal) ((c : Thread nD τ).loc b)) (c : Dev nD)
    (X : ShX.Idx → EReal) (Win : ShWin.Idx → EReal) (Wout : ShWout.Idx → EReal)
    (hX : ∀ i, IsReal (X i)) (hW : ∀ i, IsReal (Win i))
    (hq : ∀ (b : Fin 4) (s : Fin 2048) (j : Fin 768), V c main_v3_0 (ix3 b s j) = Cert.Attn.Ref.q X Win b s j)
    (hk : ∀ (b : Fin 4) (s : Fin 2048) (j : Fin 768), V c main_v3_1 (ix3 b s j) = Cert.Attn.Ref.k X Win b s j)
    (hv : ∀ (b : Fin 4) (s : Fin 2048) (j : Fin 768), V c main_v3_2 (ix3 b s j) = Cert.Attn.Ref.v X Win b s j)
    (hw : ∀ (d e : Fin 768), V c main_v2 (ix2 d e) = Wout (ix2 e d))
    (t : Fin cfg1.N) (a : Vec Ideal S512x768 .f32) (r : Fin 512) (e : Fin 768) :
    stepAcc (F := Ideal) (iblk1 V c 0 t) (iblk1 V c 1 t) (iblk1 V c 2 t) (iblk1 V c 3 t) a (ix2 r e)
      = (a (ix2 r e) + headTerm X Win Wout (gb t) (rowAt (gs t) r) e ⟨2 * (gh t).val, by have := (gh t).isLt; omega⟩)
          + headTerm X Win Wout (gb t) (rowAt (gs t) r) e ⟨2 * (gh t).val + 1, by have := (gh t).isLt; omega⟩ := by
  rw [headTerm_eq_headK hX hW (gb t) ⟨2 * (gh t).val, by have := (gh t).isLt; omega⟩ (rowAt (gs t)) r e,
    headTerm_eq_headK hX hW (gb t) ⟨2 * (gh t).val + 1, by have := (gh t).isLt; omega⟩ (rowAt (gs t)) r e]
  refine stepAcc_read_of _ _ _ _ a r e _ _ _ _ _ _ _ _ ?_ ?_ ?_ ?_ ?_ ?_ ?_ ?_
  · intro r dd; rw [iblk1_0_read, hq]; unfold qTile; rw [hcol_even]
  · intro tt dd; rw [iblk1_1_read, hk]; unfold kHead; rw [hcol_even]
  · intro tt dd; rw [iblk1_2_read, hv]; unfold vHead; rw [hcol_even]
  · intro dd; rw [iblk1_3_read, hw, hcol_even]
  · intro r dd; rw [iblk1_0_read, hq]; unfold qTile; rw [hcol_odd]
  · intro tt dd; rw [iblk1_1_read, hk]; unfold kHead; rw [hcol_odd]
  · intro tt dd; rw [iblk1_2_read, hv]; unfold vHead; rw [hcol_odd]
  · intro dd; rw [iblk1_3_read, hw, hcol_odd]

end Cert.KernelIdeal.Step

end
-- ==== Proof.ProjRegionI.lean ====
/-
  The projection region (the first launch): at every grid point (b, si) the body reads the 512-row block of the
  activations and the whole projection weight, forms their product (512 x 2304) and stores its three column ranges
  into the query, key and value blocks. Stated at a PARAMETER `V`, the buffer contents when the region is entered:
  what each output block holds after the body as a function of the two input blocks, the body's triple, the proof
  data of the pipeline and its body obligation.
-/
import proofs.«110615_j10857677324557_2_alg».proof.Proof.Gen.KernelIdeal.Launch
import proofs.«110615_j10857677324557_2_alg».proof.Proof.Gen.KernelIdeal.Skeleton
import proofs.«110615_j10857677324557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point, though it is fetched at the first only. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole activation block and the whole weight, as rectangles. -/
abbrev rX0 : Rect S1x512x768 := Rect.unit (s := S1x512x768) ![0, 0, 0] S1x512x768.size inb_S1x512x768_S1x512x768_0_0_0
abbrev rW0 : Rect S2304x768 := Rect.unit (s := S2304x768) ![0, 0] S2304x768.size inb_S2304x768_S2304x768_0_0

/-- The query block after the body: columns 0..767 of the product. -/
def out0_2 (x0 : Vec F S1x512x768 .f32) (x1 : Vec F S2304x768 .bf16) : Vec F S1x512x768 .bf16 :=
  View.canon [⟨rX0, k0_pay2 (View.ld x0 rX0) (View.ld x1 rW0)⟩]
/-- The key block after the body: columns 768..1535 of the product. -/
def out0_3 (x0 : Vec F S1x512x768 .f32) (x1 : Vec F S2304x768 .bf16) : Vec F S1x512x768 .bf16 :=
  View.canon [⟨rX0, k0_pay3 (View.ld x0 rX0) (View.ld x1 rW0)⟩]
/-- The value block after the body: columns 1536..2303 of the product. -/
def out0_4 (x0 : Vec F S1x512x768 .f32) (x1 : Vec F S2304x768 .bf16) : Vec F S1x512x768 .bf16 :=
  View.canon [⟨rX0, k0_pay4 (View.ld x0 rX0) (View.ld x1 rW0)⟩]

/-- One whole-block store covers the block. -/
theorem cover0 (p0 : Vec F S1x512x768 .bf16) (y : S1x512x768.Idx) :
    ∃ pc ∈ ([⟨rX0, p0⟩] : List (View.Piece (Elt F) S1x512x768 .bf16)), y ∈ pc.1.set :=
  View.cover_of_tiled [⟨rX0, p0⟩] S1x512x768.size (by rfl) y

set_option maxHeartbeats 1000000 in
/-- The body on whole staging buffers: the inputs kept, each output at its column range of the product. -/
theorem sound_kernel0 (c : Dev nD) (E : Set ℕ) (i : grid0.Coords)
    (arg2 : Memref sig .tc .vmem S1x512x768 .f32) (harg2 : arg2.IsWhole) (arg3 : Memref sig .tc .vmem S2304x768 .bf16) (harg3 : arg3.IsWhole)
    (arg4 : Memref sig .tc .vmem S1x512x768 .bf16) (harg4 : arg4.IsWhole) (arg5 : Memref sig .tc .vmem S1x512x768 .bf16) (harg5 : arg5.IsWhole)
    (arg6 : Memref sig .tc .vmem S1x512x768 .bf16) (harg6 : arg6.IsWhole)
    (x0 : Vec F S1x512x768 .f32) (x1 : Vec F S2304x768 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the projection pipeline: arrays as found; inputs kept; outputs at the product's ranges. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Run

end
-- ==== Proof.WholeRunI.lean ====
/-
  THE RUN of the whole program: @main is a stretch of three host operations (the two weights cast, the output
  weight transposed), the projection region and the attention region. The buffer contents at each boundary are a
  fold from the launch memory: after the host stretch; after the projection region (its three output arrays at
  what its write-backs leave); after the attention region (the result array at what its write-backs leave). Every
  weakly fair execution terminates with every unscoped buffer at the last of these; in particular the three
  argument arrays end as launched.
-/
import proofs.«110615_j10857677324557_2_alg».proof.Proof.ProjRegionI
import proofs.«110615_j10857677324557_2_alg».proof.Proof.AttnRegionI

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region (the attention region's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention region (the end). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation allocates; the three write `main_v0`, `main_v1`, `main_v2` only. -/
theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset := by
  simp only [List.Forall]
  refine ⟨?_, ?_, ?_⟩ <;>
  · simp only [StableHlo.unary_writes, Finset.singleton_subset_iff, List.mem_toFinset]; exact List.mem_map_of_mem (by decide)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The arguments end as launched: no host operation and no region writes one. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer at the
    last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.KernelIdeal.Run

end
-- ==== Proof.ProjValueI.lean ====
/- The projection region's arrays after the run, index by index.

   The first launch runs over a grid of 4 x 4 points (b, si). At a point the body reads the 512-row block of
   the activations at (b, 512·si .. 512·si + 511, all 768 columns) and the whole cast projection weight, and
   stores into the query, key and value blocks at the same rows the three column ranges of their product:
   entry (b, s, j) of the query array is Σ_{d<768} X(b,s,d) · Win(j,d), of the key array the same with row
   768 + j of the weight, of the value array with row 1536 + j. The sixteen blocks of each output tile its
   array — the point that covers (b, s, j) is (b, s / 512) —, so each array ends as that one function of the
   activations and the weight. Before the launch the host casts the projection weight (the identity on
   extended reals) and transposes and casts the output weight, so the arrays the regions read are the
   weights themselves, the second one with its two coordinates exchanged. -/
import proofs.«110615_j10857677324557_2_alg».proof.Proof.WholeRunI
import proofs.«110615_j10857677324557_2_alg».proof.Proof.RefSpec
import proofs.«110615_j10857677324557_2_alg».proof.Proof.KerPay
import Idealize.ShloMosaic.Lib.Pipeline.Value
import Idealize.ShloMosaic.Lib.ValueLayout

noncomputable section

open scoped BigOperators

namespace Cert.KernelIdeal.ProjValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Run Cert.Attn.Ref

section Region
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The activation block at point t, at x, is the array at the block's offset plus x. -/
theorem iblk0_0_apply (c : Dev nD) (t : Fin cfg0.N) (x : S1x512x768.Idx) (k : S4x2048x768.Idx)
    (hk0 : (k 0).val = win0_0.index t 0 + (x 0).val) (hk1 : (k 1).val = win0_0.index t 1 * 512 + (x 1).val)
    (hk2 : (k 2).val = win0_0.index t 2 * 768 + (x 2).val) :
    (iblk0 V c 0 t : Vec Ideal S1x512x768 .f32) x = (V c main_arg0 : S4x2048x768.Idx → EReal) k := by
  unfold iblk0
  rw [View.read_apply]
  show V c main_arg0 _ = V c main_arg0 _
  congr 1
  funext a
  apply Fin.ext
  match a with
  | ⟨0, _⟩ => show win0_0.index t 0 * 1 + 1 * (x 0).val = (k 0).val; omega
  | ⟨1, _⟩ => show win0_0.index t 1 * 512 + 1 * (x 1).val = (k 1).val; omega
  | ⟨2, _⟩ => show win0_0.index t 2 * 768 + 1 * (x 2).val = (k 2).val; omega

/-- The weight block at point t, at x, is the weight array at the block's offset plus x. -/
theorem iblk0_1_apply (c : Dev nD) (t : Fin cfg0.N) (x : S2304x768.Idx) (k : S2304x768.Idx)
    (hk0 : (k 0).val = win0_1.index t 0 * 2304 + (x 0).val) (hk1 : (k 1).val = win0_1.index t 1 * 768 + (x 1).val) :
    (iblk0 V c 1 t : Vec Ideal S2304x768 .bf16) x = (V c main_v0 : S2304x768.Idx → EReal) k := by
  unfold iblk0
  rw [View.read_apply]
  show V c main_v0 _ = V c main_v0 _
  congr 1
  funext a
  apply Fin.ext
  match a with
  | ⟨0, _⟩ => show win0_1.index t 0 * 2304 + 1 * (x 0).val = (k 0).val; omega
  | ⟨1, _⟩ => show win0_1.index t 1 * 768 + 1 * (x 1).val = (k 1).val; omega

/-! ## Output window 2 -/

abbrev G2 (A0 : S4x2048x768.Idx → EReal) (A1 : S2304x768.Idx → EReal) : S4x2048x768.Idx → EReal :=
  fun i => ∑ d : Fin 768, A0 (ix3 (i 0) (i 1) d) * A1 (ix2 (qcol (i 2)) d)

theorem pay2_at (x0 : Vec Ideal S1x512x768 .f32) (x1 : Vec Ideal S2304x768 .bf16) (y : S1x512x768.Idx) :
    k0_pay2 (F := Ideal) x0 x1 y = ∑ d : Fin 768, x0 (ix3 (0 : Fin 1) (y 1) d) * x1 (ix2 (qcol (y 2)) d) := by
  obtain ⟨a, r, col, rfl⟩ : ∃ (a : Fin 1) (r : Fin 512) (col : Fin 768), y = ix3 a r col := ⟨y 0, y 1, y 2, eq_ix3 y⟩
  obtain rfl : a = 0 := Subsingleton.elim _ _
  exact Cert.Attn.Ker.k0_pay2_read x0 x1 r col

theorem idx_facts2 : ∀ t : Fin cfg0.N, win0_0.index t (0 : Fin 3) = win0_2.index t (0 : Fin 3)
    ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0 :=
  (by decide +kernel : ∀ t : Fin grid0.N, _)

theorem idx_onto2 : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

theorem flushed2_eq (c : Dev nD) (t : Fin cfg0.N) :
    (dat0 V c).flushed 2 t = ((cfg0.win 2).blk t).view.read (Elt Ideal) (G2 (V c main_arg0) (V c main_v0)) := by
  show (cfg0.win 2).cut (grid0.coords t) ((dat0 V c).after 2 t) = _
  rw [after0_2]
  unfold out0_2
  rw [View.canon_unit_zero hz3]
  simp only [View.ld_unit_zero (S := S1x512x768) hz3, View.ld_unit_zero (S := S2304x768) hz2]
  obtain ⟨e0, e1, e2, e3, e4, e5⟩ := idx_facts2 t
  funext j
  show k0_pay2 (F := Ideal) (iblk0 V c 0 t) (iblk0 V c 1 t) ((win0 2).xinj (grid0.coords t) j)
    = G2 (V c main_arg0) (V c main_v0) (((cfg0.win 2).blk t).view.emb j)
  rw [pay2_at]
  refine Finset.sum_congr rfl fun d _ => ?_
  have hj0 : (j 0).val < 1 := (j 0).isLt
  have hj1 : (j 1).val < 512 := (j 1).isLt
  have hj2 : (j 2).val < 768 := (j 2).isLt
  have h0 := iblk0_0_apply V c t (ix3 (0 : Fin 1) ((win0 2).xinj (grid0.coords t) j 1) d)
    (ix3 ((((cfg0.win 2).blk t).view.emb j) 0) ((((cfg0.win 2).blk t).view.emb j) 1) d)
    (by show win0_2.index t 0 * 1 + 1 * (j 0).val = win0_0.index t 0 + 0; omega)
    (by show win0_2.index t 1 * 512 + 1 * (j 1).val = win0_0.index t 1 * 512 + (j 1).val; omega)
    (by show d.val = win0_0.index t 2 * 768 + d.val; omega)
  have h1 := iblk0_1_apply V c t (ix2 (qcol ((win0 2).xinj (grid0.coords t) j 2)) d)
    (ix2 (qcol ((((cfg0.win 2).blk t).view.emb j) 2)) d)
    (by show (win0_2.index t 2 * 768 + 1 * (j 2).val) = win0_1.index t 0 * 2304 + ((j 2).val); omega)
    (by show d.val = win0_1.index t 1 * 768 + d.val; omega)
  rw [h0, h1]

theorem mem_blk2 (t : Fin cfg0.N) (i : S4x2048x768.Idx) :
    i ∈ ((cfg0.win 2).blk t).view.set ↔ ∀ a : Fin 3, win0_2.index t a * S1x512x768.size a ≤ (i a).val
      ∧ (i a).val < win0_2.index t a * S1x512x768.size a + S1x512x768.size a := by
  show i ∈ ((View.whole main_v3_0).slice (win0_2.rect t)).set ↔ _
  rw [View.set_slice_whole, Rect.mem_set_unit]
  exact Iff.rfl

theorem cover2 (i : S4x2048x768.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 768 := (i 2).isLt
  obtain ⟨t, ht⟩ := idx_onto2 ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 768 ≤ (i 2).val ∧ (i 2).val < win0_2.index t (2 : Fin 3) * 768 + 768; omega

/-- The array after the region: the product's column range, index by index. -/
theorem final2 (c : Dev nD) : (dat0 V c).arrAt 2 cfg0.N = G2 (V c main_arg0) (V c main_v0) :=
  (dat0 V c).arrAt_eq_of_cover 2 (G2 (V c main_arg0) (V c main_v0)) (fun t _ => flushed2_eq V c t) cover2

/-! ## Output window 3 -/

abbrev G3 (A0 : S4x2048x768.Idx → EReal) (A1 : S2304x768.Idx → EReal) : S4x2048x768.Idx → EReal :=
  fun i => ∑ d : Fin 768, A0 (ix3 (i 0) (i 1) d) * A1 (ix2 (kcol (i 2)) d)

theorem pay3_at (x0 : Vec Ideal S1x512x768 .f32) (x1 : Vec Ideal S2304x768 .bf16) (y : S1x512x768.Idx) :
    k0_pay3 (F := Ideal) x0 x1 y = ∑ d : Fin 768, x0 (ix3 (0 : Fin 1) (y 1) d) * x1 (ix2 (kcol (y 2)) d) := by
  obtain ⟨a, r, col, rfl⟩ : ∃ (a : Fin 1) (r : Fin 512) (col : Fin 768), y = ix3 a r col := ⟨y 0, y 1, y 2, eq_ix3 y⟩
  obtain rfl : a = 0 := Subsingleton.elim _ _
  exact Cert.Attn.Ker.k0_pay3_read x0 x1 r col

theorem idx_facts3 : ∀ t : Fin cfg0.N, win0_0.index t (0 : Fin 3) = win0_3.index t (0 : Fin 3)
    ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0 :=
  (by decide +kernel : ∀ t : Fin grid0.N, _)

theorem idx_onto3 : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

theorem flushed3_eq (c : Dev nD) (t : Fin cfg0.N) :
    (dat0 V c).flushed 3 t = ((cfg0.win 3).blk t).view.read (Elt Ideal) (G3 (V c main_arg0) (V c main_v0)) := by
  show (cfg0.win 3).cut (grid0.coords t) ((dat0 V c).after 3 t) = _
  rw [after0_3]
  unfold out0_3
  rw [View.canon_unit_zero hz3]
  simp only [View.ld_unit_zero (S := S1x512x768) hz3, View.ld_unit_zero (S := S2304x768) hz2]
  obtain ⟨e0, e1, e2, e3, e4, e5⟩ := idx_facts3 t
  funext j
  show k0_pay3 (F := Ideal) (iblk0 V c 0 t) (iblk0 V c 1 t) ((win0 3).xinj (grid0.coords t) j)
    = G3 (V c main_arg0) (V c main_v0) (((cfg0.win 3).blk t).view.emb j)
  rw [pay3_at]
  refine Finset.sum_congr rfl fun d _ => ?_
  have hj0 : (j 0).val < 1 := (j 0).isLt
  have hj1 : (j 1).val < 512 := (j 1).isLt
  have hj2 : (j 2).val < 768 := (j 2).isLt
  have h0 := iblk0_0_apply V c t (ix3 (0 : Fin 1) ((win0 3).xinj (grid0.coords t) j 1) d)
    (ix3 ((((cfg0.win 3).blk t).view.emb j) 0) ((((cfg0.win 3).blk t).view.emb j) 1) d)
    (by show win0_3.index t 0 * 1 + 1 * (j 0).val = win0_0.index t 0 + 0; omega)
    (by show win0_3.index t 1 * 512 + 1 * (j 1).val = win0_0.index t 1 * 512 + (j 1).val; omega)
    (by show d.val = win0_0.index t 2 * 768 + d.val; omega)
  have h1 := iblk0_1_apply V c t (ix2 (kcol ((win0 3).xinj (grid0.coords t) j 2)) d)
    (ix2 (kcol ((((cfg0.win 3).blk t).view.emb j) 2)) d)
    (by show 768 + (win0_3.index t 2 * 768 + 1 * (j 2).val) = win0_1.index t 0 * 2304 + (768 + (j 2).val); omega)
    (by show d.val = win0_1.index t 1 * 768 + d.val; omega)
  rw [h0, h1]

theorem mem_blk3 (t : Fin cfg0.N) (i : S4x2048x768.Idx) :
    i ∈ ((cfg0.win 3).blk t).view.set ↔ ∀ a : Fin 3, win0_3.index t a * S1x512x768.size a ≤ (i a).val
      ∧ (i a).val < win0_3.index t a * S1x512x768.size a + S1x512x768.size a := by
  show i ∈ ((View.whole main_v3_1).slice (win0_3.rect t)).set ↔ _
  rw [View.set_slice_whole, Rect.mem_set_unit]
  exact Iff.rfl

theorem cover3 (i : S4x2048x768.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 768 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 768 ≤ (i 2).val ∧ (i 2).val < win0_3.index t (2 : Fin 3) * 768 + 768; omega

/-- The array after the region: the product's column range, index by index. -/
theorem final3 (c : Dev nD) : (dat0 V c).arrAt 3 cfg0.N = G3 (V c main_arg0) (V c main_v0) :=
  (dat0 V c).arrAt_eq_of_cover 3 (G3 (V c main_arg0) (V c main_v0)) (fun t _ => flushed3_eq V c t) cover3

/-! ## Output window 4 -/

abbrev G4 (A0 : S4x2048x768.Idx → EReal) (A1 : S2304x768.Idx → EReal) : S4x2048x768.Idx → EReal :=
  fun i => ∑ d : Fin 768, A0 (ix3 (i 0) (i 1) d) * A1 (ix2 (vcol (i 2)) d)

theorem pay4_at (x0 : Vec Ideal S1x512x768 .f32) (x1 : Vec Ideal S2304x768 .bf16) (y : S1x512x768.Idx) :
    k0_pay4 (F := Ideal) x0 x1 y = ∑ d : Fin 768, x0 (ix3 (0 : Fin 1) (y 1) d) * x1 (ix2 (vcol (y 2)) d) := by
  obtain ⟨a, r, col, rfl⟩ : ∃ (a : Fin 1) (r : Fin 512) (col : Fin 768), y = ix3 a r col := ⟨y 0, y 1, y 2, eq_ix3 y⟩
  obtain rfl : a = 0 := Subsingleton.elim _ _
  exact Cert.Attn.Ker.k0_pay4_read x0 x1 r col

theorem idx_facts4 : ∀ t : Fin cfg0.N, win0_0.index t (0 : Fin 3) = win0_4.index t (0 : Fin 3)
    ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0 :=
  (by decide +kernel : ∀ t : Fin grid0.N, _)

theorem idx_onto4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

theorem flushed4_eq (c : Dev nD) (t : Fin cfg0.N) :
    (dat0 V c).flushed 4 t = ((cfg0.win 4).blk t).view.read (Elt Ideal) (G4 (V c main_arg0) (V c main_v0)) := by
  show (cfg0.win 4).cut (grid0.coords t) ((dat0 V c).after 4 t) = _
  rw [after0_4]
  unfold out0_4
  rw [View.canon_unit_zero hz3]
  simp only [View.ld_unit_zero (S := S1x512x768) hz3, View.ld_unit_zero (S := S2304x768) hz2]
  obtain ⟨e0, e1, e2, e3, e4, e5⟩ := idx_facts4 t
  funext j
  show k0_pay4 (F := Ideal) (iblk0 V c 0 t) (iblk0 V c 1 t) ((win0 4).xinj (grid0.coords t) j)
    = G4 (V c main_arg0) (V c main_v0) (((cfg0.win 4).blk t).view.emb j)
  rw [pay4_at]
  refine Finset.sum_congr rfl fun d _ => ?_
  have hj0 : (j 0).val < 1 := (j 0).isLt
  have hj1 : (j 1).val < 512 := (j 1).isLt
  have hj2 : (j 2).val < 768 := (j 2).isLt
  have h0 := iblk0_0_apply V c t (ix3 (0 : Fin 1) ((win0 4).xinj (grid0.coords t) j 1) d)
    (ix3 ((((cfg0.win 4).blk t).view.emb j) 0) ((((cfg0.win 4).blk t).view.emb j) 1) d)
    (by show win0_4.index t 0 * 1 + 1 * (j 0).val = win0_0.index t 0 + 0; omega)
    (by show win0_4.index t 1 * 512 + 1 * (j 1).val = win0_0.index t 1 * 512 + (j 1).val; omega)
    (by show d.val = win0_0.index t 2 * 768 + d.val; omega)
  have h1 := iblk0_1_apply V c t (ix2 (vcol ((win0 4).xinj (grid0.coords t) j 2)) d)
    (ix2 (vcol ((((cfg0.win 4).blk t).view.emb j) 2)) d)
    (by show 1536 + (win0_4.index t 2 * 768 + 1 * (j 2).val) = win0_1.index t 0 * 2304 + (1536 + (j 2).val); omega)
    (by show d.val = win0_1.index t 1 * 768 + d.val; omega)
  rw [h0, h1]

theorem mem_blk4 (t : Fin cfg0.N) (i : S4x2048x768.Idx) :
    i ∈ ((cfg0.win 4).blk t).view.set ↔ ∀ a : Fin 3, win0_4.index t a * S1x512x768.size a ≤ (i a).val
      ∧ (i a).val < win0_4.index t a * S1x512x768.size a + S1x512x768.size a := by
  show i ∈ ((View.whole main_v3_2).slice (win0_4.rect t)).set ↔ _
  rw [View.set_slice_whole, Rect.mem_set_unit]
  exact Iff.rfl

theorem cover4 (i : S4x2048x768.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 768 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 768 ≤ (i 2).val ∧ (i 2).val < win0_4.index t (2 : Fin 3) * 768 + 768; omega

/-- The array after the region: the product's column range, index by index. -/
theorem final4 (c : Dev nD) : (dat0 V c).arrAt 4 cfg0.N = G4 (V c main_arg0) (V c main_v0) :=
  (dat0 V c).arrAt_eq_of_cover 4 (G4 (V c main_arg0) (V c main_v0)) (fun t _ => flushed4_eq V c t) cover4

end Region

section Whole
variable (m : (ℓ : Loc nD τ sig) → Buf (Elt Ideal) ℓ) (ρ : Dev nD → PrngReg)

/-! ## The host stretch: the two weights as the regions find them -/

/-- After the host stretch the cast projection weight is the projection weight. -/
theorem W1_v0 (c : Dev nD) :
    (W1 m ρ c (Proc.devRef .tc main_v0) : S2304x768.Idx → EReal) = m ((c : Thread nD τ).loc main_arg1) := by
  show StableHlo.after hostOps0 (W0 m ρ c) (Proc.devRef .tc main_v0) = _
  after_results
  rfl

/-- After the host stretch the cast, transposed output weight at (d, e) is the output weight at (e, d). -/
theorem W1_v2 (c : Dev nD) (d e : Fin 768) :
    (W1 m ρ c (Proc.devRef .tc main_v2) : S768x768.Idx → EReal) (ix2 d e)
      = (m ((c : Thread nD τ).loc main_arg2) : S768x768.Idx → EReal) (ix2 e d) := by
  have e0 : (W1 m ρ c (Proc.devRef .tc main_v2) : S768x768.Idx → EReal)
      = transpose S768x768 [1, 0] (m ((c : Thread nD τ).loc main_arg2) : S768x768.Idx → EReal) transposes_S768x768_S768x768_1_0 := by
    show StableHlo.after hostOps0 (W0 m ρ c) (Proc.devRef .tc main_v2) = _
    after_results
    rfl
  rw [e0, transpose_ix2_apply]

/-- The activations are untouched by the host stretch. -/
theorem W1_arg0 (c : Dev nD) : W1 m ρ c (Proc.devRef .tc main_arg0) = m ((c : Thread nD τ).loc main_arg0) :=
  W1_of m ρ c main_arg0 (by decide)

/-! ## After the projection region -/

/-- The projection region only reads the cast projection weight. -/
theorem W2_v0 (c : Dev nD) :
    (W2 m ρ c (Proc.devRef .tc main_v0) : S2304x768.Idx → EReal) = m ((c : Thread nD τ).loc main_arg1) :=
  ((W2_arr m ρ c 1).trans (((dat0 (V1 m ρ) c).arrAt_in 1 rfl _).trans (A_eq0 (V1 m ρ) c 1))).trans (W1_v0 m ρ c)

/-- The projection region does not touch the cast, transposed output weight. -/
theorem W2_v2 (c : Dev nD) (d e : Fin 768) :
    (W2 m ρ c (Proc.devRef .tc main_v2) : S768x768.Idx → EReal) (ix2 d e)
      = (m ((c : Thread nD τ).loc main_arg2) : S768x768.Idx → EReal) (ix2 e d) := by
  rw [W2_of_ne m ρ c main_v2 (by decide)]
  exact W1_v2 m ρ c d e

/-- The query array after the projection region is the specification's queries. -/
theorem W2_q (c : Dev nD) (b : Fin 4) (s : Fin 2048) (j : Fin 768) :
    (W2 m ρ c (Proc.devRef .tc main_v3_0) : S4x2048x768.Idx → EReal) (ix3 b s j)
      = q (m ((c : Thread nD τ).loc main_arg0)) (m ((c : Thread nD τ).loc main_arg1)) b s j := by
  have h : (W2 m ρ c (Proc.devRef .tc main_v3_0) : S4x2048x768.Idx → EReal)
      = G2 (m ((c : Thread nD τ).loc main_arg0)) (m ((c : Thread nD τ).loc main_arg1)) := by
    refine ((W2_arr m ρ c 2).trans (final2 (V1 m ρ) c)).trans ?_
    show G2 (W1 m ρ c (Proc.devRef .tc main_arg0)) (W1 m ρ c (Proc.devRef .tc main_v0)) = _
    rw [W1_arg0, W1_v0]
  rw [h]
  rfl

/-- The key array after the projection region is the specification's keys. -/
theorem W2_k (c : Dev nD) (b : Fin 4) (s : Fin 2048) (j : Fin 768) :
    (W2 m ρ c (Proc.devRef .tc main_v3_1) : S4x2048x768.Idx → EReal) (ix3 b s j)
      = k (m ((c : Thread nD τ).loc main_arg0)) (m ((c : Thread nD τ).loc main_arg1)) b s j := by
  have h : (W2 m ρ c (Proc.devRef .tc main_v3_1) : S4x2048x768.Idx → EReal)
      = G3 (m ((c : Thread nD τ).loc main_arg0)) (m ((c : Thread nD τ).loc main_arg1)) := by
    refine ((W2_arr m ρ c 3).trans (final3 (V1 m ρ) c)).trans ?_
    show G3 (W1 m ρ c (Proc.devRef .tc main_arg0)) (W1 m ρ c (Proc.devRef .tc main_v0)) = _
    rw [W1_arg0, W1_v0]
  rw [h]
  rfl

/-- The value array after the projection region is the specification's values. -/
theorem W2_v (c : Dev nD) (b : Fin 4) (s : Fin 2048) (j : Fin 768) :
    (W2 m ρ c (Proc.devRef .tc main_v3_2) : S4x2048x768.Idx → EReal) (ix3 b s j)
      = v (m ((c : Thread nD τ).loc main_arg0)) (m ((c : Thread nD τ).loc main_arg1)) b s j := by
  have h : (W2 m ρ c (Proc.devRef .tc main_v3_2) : S4x2048x768.Idx → EReal)
      = G4 (m ((c : Thread nD τ).loc main_arg0)) (m ((c : Thread nD τ).loc main_arg1)) := by
    refine ((W2_arr m ρ c 4).trans (final4 (V1 m ρ) c)).trans ?_
    show G4 (W1 m ρ c (Proc.devRef .tc main_arg0)) (W1 m ρ c (Proc.devRef .tc main_v0)) = _
    rw [W1_arg0, W1_v0]
  rw [h]
  rfl

end Whole

end Cert.KernelIdeal.ProjValue

end
-- ==== Proof.PreFinite.lean ====
/- From the precondition to realness of the inputs. The precondition says, of each of the three argument
   arrays, that every entry's absolute value is below `+∞`, and takes the conjunction. An extended real whose
   absolute value `max x (-x)` is below `⊤` is neither `⊤` nor `⊥`: it is a real. -/
import proofs.«110615_j10857677324557_2_alg».proof.Pre_finite_inputs
import proofs.«110615_j10857677324557_2_alg».proof.Proof.AttnReal
import Idealize.ShloMosaic.Lib.ReduceAll
import Idealize.ShloMosaic.Lib.ValueIdx

noncomputable section

namespace Cert.Attn.Pre

open Idealize.ShloMosaic Cert.Attn Cert.Pre_finite_inputs

/-- An extended real whose absolute value compares below the pattern of `+∞` is a real. -/
theorem isReal_of_abs_lt_inf (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨r, rfl⟩

/-- The result of the precondition has one index. -/
instance : Subsingleton S_.Idx := ⟨fun a b => funext fun d => d.elim0⟩

variable [Facts]

/-- Under the precondition every entry of each of the three argument arrays is a real. -/
theorem args_isReal (x0 : FVec Ideal S4x2048x768 .f32) (x1 : FVec Ideal S2304x768 .f32)
    (x2 : FVec Ideal S768x768 .f32) (h : fn (F := Ideal) x0 x1 x2 = fun _ => 1#1) :
    (∀ i, IsReal (x0 i)) ∧ (∀ i, IsReal (x1 i)) ∧ (∀ i, IsReal (x2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => isReal_of_abs_lt_inf _ (Host.reduce_andi_all _ _ _ _ _ h0' i),
    fun i => isReal_of_abs_lt_inf _ (Host.reduce_andi_all _ _ _ _ _ h1 i),
    fun i => isReal_of_abs_lt_inf _ (Host.reduce_andi_all _ _ _ _ _ h2 i)⟩

end Cert.Attn.Pre

end
-- ==== Proof.KernelValueI.lean ====
/-
  The idealized kernel's run, read: under the precondition (every input entry a finite real) every weakly fair
  execution ends with the result array at the reference's output function of the three argument arrays, and the
  arguments unchanged. The projection region leaves the query, key and value arrays at the reference's own
  projections; the attention region's step at an entry adds two heads' terms of the reference's sum; the rest is
  the accumulation along a tile and the cover of the result array by the written blocks.
-/
import proofs.«110615_j10857677324557_2_alg».proof.Defs
import proofs.«110615_j10857677324557_2_alg».proof.Proof.AttnFinalI
import proofs.«110615_j10857677324557_2_alg».proof.Proof.AttnStepI
import proofs.«110615_j10857677324557_2_alg».proof.Proof.ProjValueI
import proofs.«110615_j10857677324557_2_alg».proof.Proof.PreFinite
import proofs.«110615_j10857677324557_2_alg».proof.Proof.Gen.Pre_finite_inputs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open Cert.Attn Cert.Attn.Ref

variable (m : (ℓ : Loc nD τ sig) → Buf (Elt Ideal) ℓ) (ρ : Dev nD → PrngReg)

/-- The result array at the end of the run. -/
theorem W3_result (hpre : Cert.Pre_KernelIdeal m) (c : Dev nD) :
    W3 m ρ c (Proc.devRef .tc main_v4)
      = refOut (m ((c.tc : Thread nD τ).loc main_arg0)) (m ((c.tc : Thread nD τ).loc main_arg1)) (m ((c.tc : Thread nD τ).loc main_arg2)) := by
  obtain ⟨hX, hW, hO⟩ := Cert.Attn.Pre.args_isReal _ _ _ (hpre c)
  exact (W3_arr m ρ c 4).trans (final4 (V2 m ρ) c _ _ _
    (Cert.KernelIdeal.Step.step_read (V2 m ρ) c _ _ _ hX hW (Cert.KernelIdeal.ProjValue.W2_q m ρ c) (Cert.KernelIdeal.ProjValue.W2_k m ρ c)
      (Cert.KernelIdeal.ProjValue.W2_v m ρ c) (Cert.KernelIdeal.ProjValue.W2_v2 m ρ c)))

/-- The run with its result named. -/
theorem run_value (hpre : Cert.Pre_KernelIdeal m) :
    θ_run defs (onTc (τ := τ) (main (F := Ideal))) ⟨m, fun _ => 0, ρ⟩ (fun r => ∀ c : Dev nD,
      r.2.mem ((c.tc : Thread nD τ).loc main_v4)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W3_result m ρ hpre c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.KernelIdeal.Run

end
-- ==== Proof.RefRead.lean ====
/- The reference program's result is `refOut` of its three arguments: each named stage of the specification is
   read off the generated stages one operation at a time, at an index given by its coordinates. -/
import proofs.«110615_j10857677324557_2_alg».proof.Proof.Gen.ReferenceIdeal.Read
import proofs.«110615_j10857677324557_2_alg».proof.Proof.RefSpec
import Idealize.ShloMosaic.PureOps.Reduce
import Idealize.ShloMosaic.PureOps.Ideal.Laws

noncomputable section

open scoped BigOperators

namespace Cert.Attn.Ref

open Idealize.ShloMosaic Idealize.ShloMosaic.ValueIdx Cert.ReferenceIdeal Cert.ReferenceIdeal.Read

/-- The first product at (b, s, e) is the input projection. -/
theorem qkv_read (x0 : (⟨S4x2048x768, .f32⟩ : BufTy).Contents (Elt Ideal)) (x1 : (⟨S2304x768, .f32⟩ : BufTy).Contents (Elt Ideal))
    (b : Fin 4) (s : Fin 2048) (e : Fin 2304) :
    val_main_v0 (F := Ideal) x0 x1 (ix3 b s e) = qkv x0 x1 b s e := by
  rw [val_main_v0_apply]
  unfold qkv
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

/-- The transposed, reshaped first column range at (b, h, s, dd) is the query at column 64·h + dd. -/
theorem q_read (x0 : (⟨S4x2048x768, .f32⟩ : BufTy).Contents (Elt Ideal)) (x1 : (⟨S2304x768, .f32⟩ : BufTy).Contents (Elt Ideal))
    (b : Fin 4) (h : Fin 12) (s : Fin 2048) (dd : Fin 64) :
    val_main_v5 (F := Ideal) x0 x1 (ix4 b h s dd) = q x0 x1 b s (hcol h dd) := by
  have eT : idx_main_v5 (ix4 b h s dd) = ix4 b s h dd := funext fun a => Fin.ext (by match a with | ⟨0, _⟩ => rfl | ⟨1, _⟩ => rfl | ⟨2, _⟩ => rfl | ⟨3, _⟩ => rfl)
  have eR : idx_main_v4 (ix4 b s h dd) = ix3 b s (hcol h dd) := funext fun a => Fin.ext (by
    have hb := b.isLt; have hs := s.isLt; have hh := h.isLt; have hd := dd.isLt
    match a with
    | ⟨0, _⟩ => show (((b.val * 2048 + s.val) * 12 + h.val) * 64 + dd.val) / 1572864 = b.val; omega
    | ⟨1, _⟩ => show (((b.val * 2048 + s.val) * 12 + h.val) * 64 + dd.val) / 768 % 2048 = s.val; omega
    | ⟨2, _⟩ => show (((b.val * 2048 + s.val) * 12 + h.val) * 64 + dd.val) % 768 = h.val * 64 + dd.val; omega)
  have eS : idx_main_v1 (ix3 b s (hcol h dd)) = ix3 b s (qcol (hcol h dd)) := funext fun a => Fin.ext (by match a with | ⟨0, _⟩ => rfl | ⟨1, _⟩ => rfl | ⟨2, _⟩ => rfl)
  rw [val_main_v5_apply, eT, val_main_v4_apply, eR, val_main_v1_apply, eS, qkv_read]
  rfl

/-- The transposed, reshaped second column range at (b, h, s, dd) is the key at column 64·h + dd. -/
theorem k_read (x0 : (⟨S4x2048x768, .f32⟩ : BufTy).Contents (Elt Ideal)) (x1 : (⟨S2304x768, .f32⟩ : BufTy).Contents (Elt Ideal))
    (b : Fin 4) (h : Fin 12) (s : Fin 2048) (dd : Fin 64) :
    val_main_v7 (F := Ideal) x0 x1 (ix4 b h s dd) = k x0 x1 b s (hcol h dd) := by
  have eT : idx_main_v7 (ix4 b h s dd) = ix4 b s h dd := funext fun a => Fin.ext (by match a with | ⟨0, _⟩ => rfl | ⟨1, _⟩ => rfl | ⟨2, _⟩ => rfl | ⟨3, _⟩ => rfl)
  have eR : idx_main_v6 (ix4 b s h dd) = ix3 b s (hcol h dd) := funext fun a => Fin.ext (by
    have hb := b.isLt; have hs := s.isLt; have hh := h.isLt; have hd := dd.isLt
    match a with
    | ⟨0, _⟩ => show (((b.val * 2048 + s.val) * 12 + h.val) * 64 + dd.val) / 1572864 = b.val; omega
    | ⟨1, _⟩ => show (((b.val * 2048 + s.val) * 12 + h.val) * 64 + dd.val) / 768 % 2048 = s.val; omega
    | ⟨2, _⟩ => show (((b.val * 2048 + s.val) * 12 + h.val) * 64 + dd.val) % 768 = h.val * 64 + dd.val; omega)
  have eS : idx_main_v2 (ix3 b s (hcol h dd)) = ix3 b s (kcol (hcol h dd)) := funext fun a => Fin.ext (by match a with | ⟨0, _⟩ => rfl | ⟨1, _⟩ => rfl | ⟨2, _⟩ => rfl)
  rw [val_main_v7_apply, eT, val_main_v6_apply, eR, val_main_v2_apply, eS, qkv_read]
  rfl

/-- The transposed, reshaped third column range at (b, h, s, dd) is the value at column 64·h + dd. -/
theorem v_read (x0 : (⟨S4x2048x768, .f32⟩ : BufTy).Contents (Elt Ideal)) (x1 : (⟨S2304x768, .f32⟩ : BufTy).Contents (Elt Ideal))
    (b : Fin 4) (h : Fin 12) (s : Fin 2048) (dd : Fin 64) :
    val_main_v9 (F := Ideal) x0 x1 (ix4 b h s dd) = v x0 x1 b s (hcol h dd) := by
  have eT : idx_main_v9 (ix4 b h s dd) = ix4 b s h dd := funext fun a => Fin.ext (by match a with | ⟨0, _⟩ => rfl | ⟨1, _⟩ => rfl | ⟨2, _⟩ => rfl | ⟨3, _⟩ => rfl)
  have eR : idx_main_v8 (ix4 b s h dd) = ix3 b s (hcol h dd) := funext fun a => Fin.ext (by
    have hb := b.isLt; have hs := s.isLt; have hh := h.isLt; have hd := dd.isLt
    match a with
    | ⟨0, _⟩ => show (((b.val * 2048 + s.val) * 12 + h.val) * 64 + dd.val) / 1572864 = b.val; omega
    | ⟨1, _⟩ => show (((b.val * 2048 + s.val) * 12 + h.val) * 64 + dd.val) / 768 % 2048 = s.val; omega
    | ⟨2, _⟩ => show (((b.val * 2048 + s.val) * 12 + h.val) * 64 + dd.val) % 768 = h.val * 64 + dd.val; omega)
  have eS : idx_main_v3 (ix3 b s (hcol h dd)) = ix3 b s (vcol (hcol h dd)) := funext fun a => Fin.ext (by match a with | ⟨0, _⟩ => rfl | ⟨1, _⟩ => rfl | ⟨2, _⟩ => rfl)
  rw [val_main_v9_apply, eT, val_main_v8_apply, eR, val_main_v3_apply, eS, qkv_read]
  rfl

/-- The broadcast scalar is the scale at every index. -/
theorem scale_read (i : S4x12x2048x2048.Idx) : val_main_v13 (F := Ideal) i = scale := by
  rw [val_main_v13_apply]
  rfl

/-- The scaled product of queries and keys at (b, h, s, t). -/
theorem scores_read (x0 : (⟨S4x2048x768, .f32⟩ : BufTy).Contents (Elt Ideal)) (x1 : (⟨S2304x768, .f32⟩ : BufTy).Contents (Elt Ideal))
    (b : Fin 4) (h : Fin 12) (s t : Fin 2048) :
    val_main_v14 (F := Ideal) x0 x1 (ix4 b h s t) = scores x0 x1 b h s t := by
  rw [val_main_v14_apply, val_main_v12_apply, scale_read, Ideal.mulf_def]
  unfold scores
  refine congrArg (· * scale) (Finset.sum_congr rfl fun dd _ => ?_)
  have el : lidx_main_v12 (ix4 b h s t) dd = ix4 b h s dd := funext fun a => Fin.ext (by match a with | ⟨0, _⟩ => rfl | ⟨1, _⟩ => rfl | ⟨2, _⟩ => rfl | ⟨3, _⟩ => rfl)
  have er : ridx_main_v12 (ix4 b h s t) dd = ix4 b h t dd := funext fun a => Fin.ext (by match a with | ⟨0, _⟩ => rfl | ⟨1, _⟩ => rfl | ⟨2, _⟩ => rfl | ⟨3, _⟩ => rfl)
  rw [el, er, q_read, k_read]

/-- The reduction over the last axis, with the maximum as its body and -inf as its start, at (b, h, s), followed by
    one more maximum with -inf: the row's maximum. -/
theorem rowMax_read (x0 : (⟨S4x2048x768, .f32⟩ : BufTy).Contents (Elt Ideal)) (x1 : (⟨S2304x768, .f32⟩ : BufTy).Contents (Elt Ideal))
    (b : Fin 4) (h : Fin 12) (s : Fin 2048) :
    val_main_v17 (F := Ideal) x0 x1 (ix3 b h s) = rowMax x0 x1 b h s := by
  have hR : S4x12x2048x2048.Reduces [3] S4x12x2048 := by decide
  have hfold : val_main_v15 (F := Ideal) x0 x1 (ix3 b h s) = rowMax x0 x1 b h s := by
    unfold val_main_v15
    refine (Host.reduce_eq_fold_single _ _ _ _ hR _ _).trans ?_
    unfold rowMax
    refine Finset.fold_congr fun (t : Fin 2048) _ => ?_
    have e : hR.lift (ix3 b h s) t = ix4 b h s t := funext fun a => Fin.ext (by match a with | ⟨0, _⟩ => rfl | ⟨1, _⟩ => rfl | ⟨2, _⟩ => rfl | ⟨3, _⟩ => rfl)
    show val_main_v14 (F := Ideal) x0 x1 (hR.lift (ix3 b h s) t) = _
    rw [e, scores_read]
  rw [val_main_v17_apply, val_main_v16_apply, val_main_cst_2_apply, hfold, Ideal.maximumf_def, Ideal.ofBits_def]
  refine max_eq_right ?_
  unfold rowMax
  exact (Finset.le_fold_max _).mpr (Or.inl le_rfl)

/-- The exponential of a score less its row's maximum, at (b, h, s, t). -/
theorem p_read (x0 : (⟨S4x2048x768, .f32⟩ : BufTy).Contents (Elt Ideal)) (x1 : (⟨S2304x768, .f32⟩ : BufTy).Contents (Elt Ideal))
    (b : Fin 4) (h : Fin 12) (s t : Fin 2048) :
    val_main_v21 (F := Ideal) x0 x1 (ix4 b h s t) = p x0 x1 b h s t := by
  have e19 : idx_main_v19 (ix4 b h s t) = ix4 b h s (0 : Fin 1) := funext fun a => Fin.ext (by match a with | ⟨0, _⟩ => rfl | ⟨1, _⟩ => rfl | ⟨2, _⟩ => rfl | ⟨3, _⟩ => rfl)
  have e18 : idx_main_v18 (ix4 b h s (0 : Fin 1)) = ix3 b h s := funext fun a => Fin.ext (by match a with | ⟨0, _⟩ => rfl | ⟨1, _⟩ => rfl | ⟨2, _⟩ => rfl)
  rw [val_main_v21_apply, val_main_v20_apply, val_main_v19_apply, e19, val_main_v18_apply, e18, rowMax_read, scores_read,
    Ideal.hostUnary_exp_def, Ideal.subf_def]
  rfl

/-- The sum over the last axis, started at zero, at (b, h, s): the row's normaliser. -/
theorem rowSum_read (x0 : (⟨S4x2048x768, .f32⟩ : BufTy).Contents (Elt Ideal)) (x1 : (⟨S2304x768, .f32⟩ : BufTy).Contents (Elt Ideal))
    (b : Fin 4) (h : Fin 12) (s : Fin 2048) :
    val_main_v22 (F := Ideal) x0 x1 (ix3 b h s) = rowSum x0 x1 b h s := by
  rw [val_main_v22_apply, val_main_cst_3_apply, Ideal.ofBits_def, Ideal.ofBits_zero_f32, zero_add]
  unfold rowSum
  refine Finset.sum_congr rfl fun t _ => ?_
  have e : idx_main_v22 (ix3 b h s) t = ix4 b h s t := funext fun a => Fin.ext (by match a with | ⟨0, _⟩ => rfl | ⟨1, _⟩ => rfl | ⟨2, _⟩ => rfl | ⟨3, _⟩ => rfl)
  rw [e, p_read]

/-- The normalised weight at (b, h, s, t). -/
theorem weight_read (x0 : (⟨S4x2048x768, .f32⟩ : BufTy).Contents (Elt Ideal)) (x1 : (⟨S2304x768, .f32⟩ : BufTy).Contents (Elt Ideal))
    (b : Fin 4) (h : Fin 12) (s t : Fin 2048) :
    val_main_v25 (F := Ideal) x0 x1 (ix4 b h s t) = weight x0 x1 b h s t := by
  have e24 : idx_main_v24 (ix4 b h s t) = ix4 b h s (0 : Fin 1) := funext fun a => Fin.ext (by match a with | ⟨0, _⟩ => rfl | ⟨1, _⟩ => rfl | ⟨2, _⟩ => rfl | ⟨3, _⟩ => rfl)
  have e23 : idx_main_v23 (ix4 b h s (0 : Fin 1)) = ix3 b h s := funext fun a => Fin.ext (by match a with | ⟨0, _⟩ => rfl | ⟨1, _⟩ => rfl | ⟨2, _⟩ => rfl)
  rw [val_main_v25_apply, val_main_v24_apply, e24, val_main_v23_apply, e23, rowSum_read, p_read, Ideal.hostDivf_def]
  rfl

/-- The product of the weights with the values at (b, h, s, dd). -/
theorem attnH_read (x0 : (⟨S4x2048x768, .f32⟩ : BufTy).Contents (Elt Ideal)) (x1 : (⟨S2304x768, .f32⟩ : BufTy).Contents (Elt Ideal))
    (b : Fin 4) (h : Fin 12) (s : Fin 2048) (dd : Fin 64) :
    val_main_v26 (F := Ideal) x0 x1 (ix4 b h s dd) = attnH x0 x1 b h s dd := by
  rw [val_main_v26_apply]
  unfold attnH
  refine Finset.sum_congr rfl fun t _ => ?_
  have el : lidx_main_v26 (ix4 b h s dd) t = ix4 b h s t := funext fun a => Fin.ext (by match a with | ⟨0, _⟩ => rfl | ⟨1, _⟩ => rfl | ⟨2, _⟩ => rfl | ⟨3, _⟩ => rfl)
  have er : ridx_main_v26 (ix4 b h s dd) t = ix4 b h t dd := funext fun a => Fin.ext (by match a with | ⟨0, _⟩ => rfl | ⟨1, _⟩ => rfl | ⟨2, _⟩ => rfl | ⟨3, _⟩ => rfl)
  rw [el, er, weight_read, v_read]

/-- The heads put back side by side: column d of row (b, s). -/
theorem attn_read (x0 : (⟨S4x2048x768, .f32⟩ : BufTy).Contents (Elt Ideal)) (x1 : (⟨S2304x768, .f32⟩ : BufTy).Contents (Elt Ideal))
    (b : Fin 4) (s : Fin 2048) (d : Fin 768) :
    val_main_v28 (F := Ideal) x0 x1 (ix3 b s d) = attn x0 x1 b s d := by
  have e28 : idx_main_v28 (ix3 b s d) = ix4 b s (headOf d) (laneOf d) := funext fun a => Fin.ext (by
    have hb := b.isLt; have hs := s.isLt; have hd := d.isLt
    match a with
    | ⟨0, _⟩ => show ((b.val * 2048 + s.val) * 768 + d.val) / 1572864 = b.val; omega
    | ⟨1, _⟩ => show ((b.val * 2048 + s.val) * 768 + d.val) / 768 % 2048 = s.val; omega
    | ⟨2, _⟩ => show ((b.val * 2048 + s.val) * 768 + d.val) / 64 % 12 = d.val / 64; omega
    | ⟨3, _⟩ => show ((b.val * 2048 + s.val) * 768 + d.val) % 64 = d.val % 64; omega)
  have e27 : idx_main_v27 (ix4 b s (headOf d) (laneOf d)) = ix4 b (headOf d) s (laneOf d) := funext fun a => Fin.ext (by match a with | ⟨0, _⟩ => rfl | ⟨1, _⟩ => rfl | ⟨2, _⟩ => rfl | ⟨3, _⟩ => rfl)
  rw [val_main_v28_apply, e28, val_main_v27_apply, e27, attnH_read]
  rfl

/-- The output projection at (b, s, e). -/
theorem out_read (x0 : (⟨S4x2048x768, .f32⟩ : BufTy).Contents (Elt Ideal)) (x1 : (⟨S2304x768, .f32⟩ : BufTy).Contents (Elt Ideal)) (x2 : (⟨S768x768, .f32⟩ : BufTy).Contents (Elt Ideal))
    (b : Fin 4) (s : Fin 2048) (e : Fin 768) :
    val_main_v29 (F := Ideal) x0 x1 x2 (ix3 b s e) = out x0 x1 x2 b s e := by
  rw [val_main_v29_apply]
  unfold out
  refine Finset.sum_congr rfl fun d _ => ?_
  have el : lidx_main_v29 (ix3 b s e) d = ix3 b s d := funext fun a => Fin.ext (by match a with | ⟨0, _⟩ => rfl | ⟨1, _⟩ => rfl | ⟨2, _⟩ => rfl)
  have er : ridx_main_v29 (ix3 b s e) d = ix2 e d :=
    funext fun a => Fin.ext (by match a with | ⟨0, _⟩ => rfl | ⟨1, _⟩ => rfl)
  rw [el, er, attn_read]

/-- The reference's last stage is `refOut` of the three arguments. -/
theorem ref_value (x0 : (⟨S4x2048x768, .f32⟩ : BufTy).Contents (Elt Ideal)) (x1 : (⟨S2304x768, .f32⟩ : BufTy).Contents (Elt Ideal)) (x2 : (⟨S768x768, .f32⟩ : BufTy).Contents (Elt Ideal)) :
    val_main_v29 (F := Ideal) x0 x1 x2 = refOut x0 x1 x2 := by
  funext i
  obtain ⟨b, s, e, rfl⟩ : ∃ (b : Fin 4) (s : Fin 2048) (e : Fin 768), i = ix3 b s e := ⟨i 0, i 1, i 2, eq_ix3 i⟩
  rw [out_read]
  rfl

open Idealize.ShloMosaic.TcCoe Idealize.SL.Sem in
/-- The reference's run, with its result stated as `refOut` of the three argument arrays: every weakly fair execution
    terminates with the result buffer holding that function and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v29_eq m c).trans (ref_value _ _ _)), (h c).2⟩)
    (Cert.ReferenceIdeal.Value.run (F := Ideal) m ρ)

end Cert.Attn.Ref

end
-- ==== Proof.lean ====
/-
  The certificate: the fused attention block (QKV projection, twelve-head softmax attention, output projection)
  computed by two launches — a projection region and an attention region that accumulates the heads' contributions
  two at a time — against the plain reference. The three frames: each program runs to the end, faults nowhere and
  leaves its arguments unchanged (the two kernel programs by the run of their segments, the reference by its own
  run). The idealization rewrote nothing, so there is nothing to preserve. At the ideal instance both programs end
  with the same array: the reference's softmax normalises before the value product, the kernel after it, which
  agree on finite inputs; 1/sqrt 64 is 1/8; and the sum over the 768 columns is the sum over twelve heads of sums
  over 64 lanes, taken two heads per step.
-/
import proofs.«110615_j10857677324557_2_alg».proof.Defs
import proofs.«110615_j10857677324557_2_alg».proof.Proof.Gen.Kernel
import proofs.«110615_j10857677324557_2_alg».proof.Proof.Gen.KernelIdeal
import proofs.«110615_j10857677324557_2_alg».proof.Proof.Gen.ReferenceIdeal
import proofs.«110615_j10857677324557_2_alg».proof.Proof.Gen.ReferenceIdeal.Run
import proofs.«110615_j10857677324557_2_alg».proof.Proof.Gen.ReferenceIdeal.Read
import proofs.«110615_j10857677324557_2_alg».proof.Proof.Gen.Pre_finite_inputs
import proofs.«110615_j10857677324557_2_alg».proof.Proof.WholeRunK
import proofs.«110615_j10857677324557_2_alg».proof.Proof.KernelValueI
import proofs.«110615_j10857677324557_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- Both idealized programs end with the reference's output function of the arguments: the kernel by its run read
    through the two regions, the reference by its own run read stage by stage; the arguments agree. -/
theorem algebraic : Cert.algebraic_KernelIdeal_ReferenceIdeal := by
  intro m ρ m' ρ' hpre hagree
  refine ⟨fun c => Cert.Attn.Ref.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Attn.Ref.ref_value, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
